-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S256x128 .f32) (main_arg14 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x128 .f32 := Host.absf main_arg13
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S256x128 .f32) (main_arg10 : FVec F S128 .f32) (main_arg11 : FVec F S256x128 .f32) (main_arg12 : FVec F S128 .f32) (main_arg13 : FVec F S256x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S256x128 .f32) (main_arg10 : FVec F S128 .f32) (main_arg11 : FVec F S256x128 .f32) (main_arg12 : FVec F S128 .f32) (main_arg13 : FVec F S256x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : FVec F S100000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S256x128 .f32) (main_arg10 : FVec F S128 .f32) (main_arg11 : FVec F S256x128 .f32) (main_arg12 : FVec F S128 .f32) (main_arg13 : FVec F S256x128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S128x384 : Shape := ⟨2, ![128, 384]⟩
abbrev S1x128 : Shape := ⟨2, ![1, 128]⟩
abbrev S2000x128 : Shape := ⟨2, ![2000, 128]⟩
abbrev S2000x1 : Shape := ⟨2, ![2000, 1]⟩
abbrev S2000x384 : Shape := ⟨2, ![2000, 384]⟩

abbrev nBuf : Space → Nat
  | .hbm => 87
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S256x128, .f32⟩
  | .hbm, ⟨14, _⟩ => ⟨S128, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000, .f32⟩
  | .hbm, ⟨65, _⟩ => ⟨S100000x1, .f32⟩
  | .hbm, ⟨66, _⟩ => ⟨S128x384, .f32⟩
  | .hbm, ⟨67, _⟩ => ⟨S128x384, .bf16⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S128x128, .f32⟩
  | .hbm, ⟨75, _⟩ => ⟨S128x128, .bf16⟩
  | .hbm, ⟨76, _⟩ => ⟨S128x128, .f32⟩
  | .hbm, ⟨77, _⟩ => ⟨S128x128, .bf16⟩
  | .hbm, ⟨78, _⟩ => ⟨S128x128, .f32⟩
  | .hbm, ⟨79, _⟩ => ⟨S128x128, .bf16⟩
  | .hbm, ⟨80, _⟩ => ⟨S128x128, .f32⟩
  | .hbm, ⟨81, _⟩ => ⟨S128x128, .bf16⟩
  | .hbm, ⟨82, _⟩ => ⟨S128x128, .f32⟩
  | .hbm, ⟨83, _⟩ => ⟨S128x128, .bf16⟩
  | .hbm, ⟨84, _⟩ => ⟨S128x128, .f32⟩
  | .hbm, ⟨85, _⟩ => ⟨S128x128, .bf16⟩
  | .hbm, ⟨86, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S128x384, .bf16⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x128, .bf16⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S128x128, .bf16⟩
  | .local _ .vmem, ⟨17, _⟩ => ⟨S1x128, .f32⟩
  | .local _ .vmem, ⟨18, _⟩ => ⟨S128x128, .bf16⟩
  | .local _ .vmem, ⟨19, _⟩ => ⟨S128x128, .bf16⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  concatenates_S128x128_S128x128_S128x128_S128x384_d1 : Shape.Concatenates [S128x128, S128x128, S128x128] S128x384 1
  bitsLt_bf16_f32 : FTy.bits .bf16 < FTy.bits .f32
  shapeCasts_S128_S1x128 : S128.ShapeCasts S1x128
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S2000x384_o0_0_S2000x128 : S2000x384.Slices ![0, 0] S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2000x384_o0_128_S2000x128 : S2000x384.Slices ![0, 128] S2000x128
  slices_S2000x384_o0_256_S2000x128 : S2000x384.Slices ![0, 256] S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x384_S2000x384_1_0_0_1_n_n_wf : DotDims.WF S2000x128 S128x384 S2000x384 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x384.size a ≤ S128x384.size a
  hwx0_4 : ∀ i : grid0.Coords, EltTy.bits .bf16 = 32 ∨ (Rect.block (s := S128x384) S128x384.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .bf16 = 32 ∨ (Rect.block (s := S128x128) S128x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .bf16 = 32 ∨ (Rect.block (s := S128x128) S128x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .bf16 = 32 ∨ (Rect.block (s := S128x128) S128x128.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x128.size a ≤ S100000x128.size a
  hwx0_17 : ∀ i : grid0.Coords, EltTy.bits .f32 = 32 ∨ (Rect.block (s := S100000x128) S2000x128.size (cc0_transform_17 i) (hinb0_17 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v38) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42) S128x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v50) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v52) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v54) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v56) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v47) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v58) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v60) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v48) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v61) S2000x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x256 : Shape := ⟨2, ![100000, 256]⟩

abbrev nBuf : Space → Nat
  | .hbm => 200
  | .vmem => 0
  | .smem => 0
  | _ => 0

abbrev hbmTy0_0 (i : Nat) : BufTy := match i % 128 with
  | 0 => ⟨S100000x128, .f32⟩
  | 1 => ⟨S2x1600000, .i32⟩
  | 2 => ⟨S100000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S256x128, .f32⟩
  | 10 => ⟨S128, .f32⟩
  | 11 => ⟨S256x128, .f32⟩
  | 12 => ⟨S128, .f32⟩
  | 13 => ⟨S256x128, .f32⟩
  | 14 => ⟨S128, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S1600000, .f32⟩
  | 93 => ⟨S1600000x1, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S1600000x128, .f32⟩
  | 104 => ⟨S1600000x128, .f32⟩
  | 105 => ⟨S_, .f32⟩
  | 106 => ⟨S100000x128, .f32⟩
  | 107 => ⟨S1600000x1, .i32⟩
  | 108 => ⟨S100000x128, .f32⟩
  | 109 => ⟨S100000, .f32⟩
  | 110 => ⟨S100000x1, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S100000x128, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000, .f32⟩
  | 127 => ⟨S_, .i32⟩
  | _ => ⟨S100000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000, .f32⟩
  | 8 => ⟨S1600000, .f32⟩
  | 9 => ⟨S1600000x1, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S1600000x128, .f32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S100000, .f32⟩
  | 26 => ⟨S100000x1, .f32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S100000x256, .f32⟩
  | 34 => ⟨S100000x128, .f32⟩
  | 35 => ⟨S1x128, .f32⟩
  | 36 => ⟨S100000x128, .f32⟩
  | 37 => ⟨S100000x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S100000x256, .f32⟩
  | 47 => ⟨S100000x128, .f32⟩
  | 48 => ⟨S1x128, .f32⟩
  | 49 => ⟨S100000x128, .f32⟩
  | 50 => ⟨S100000x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S100000x256, .f32⟩
  | 61 => ⟨S100000x128, .f32⟩
  | 62 => ⟨S1x128, .f32⟩
  | 63 => ⟨S100000x128, .f32⟩
  | 64 => ⟨S100000x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_8 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_14 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_15 : Ref sig .tc := ⟨.hbm, 118, rfl⟩
abbrev main_v86 : Ref sig .tc := ⟨.hbm, 119, rfl⟩
abbrev main_v87 : Ref sig .tc := ⟨.hbm, 120, rfl⟩
abbrev main_c_16 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_17 : Ref sig .tc := ⟨.hbm, 127, rfl⟩
abbrev main_v93 : Ref sig .tc := ⟨.hbm, 128, rfl⟩
abbrev main_v94 : Ref sig .tc := ⟨.hbm, 129, rfl⟩
abbrev main_c_18 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_19 : Ref sig .tc := ⟨.hbm, 138, rfl⟩
abbrev main_v102 : Ref sig .tc := ⟨.hbm, 139, rfl⟩
abbrev main_v103 : Ref sig .tc := ⟨.hbm, 140, rfl⟩
abbrev main_c_20 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_21 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_22 : Ref sig .tc := ⟨.hbm, 168, rfl⟩
abbrev main_v129 : Ref sig .tc := ⟨.hbm, 169, rfl⟩
abbrev main_v130 : Ref sig .tc := ⟨.hbm, 170, rfl⟩
abbrev main_cst_23 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_cst_24 : Ref sig .tc := ⟨.hbm, 181, rfl⟩
abbrev main_v140 : Ref sig .tc := ⟨.hbm, 182, rfl⟩
abbrev main_v141 : Ref sig .tc := ⟨.hbm, 183, rfl⟩
abbrev main_cst_25 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_26 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.FrameBitsDefs.lean ====
import proofs.«104820_j11836929868497_2_alg».proof.Proof.Gen.Kernel.Launch
import proofs.«104820_j11836929868497_2_alg».proof.Proof.Gen.Kernel.Skeleton
import proofs.«104820_j11836929868497_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s TensorCore buffers when the region is entered: the launch contents after the host
    operations that precede the region, kept as one fold and never unfolded. -/
abbrev V (c : Dev nD) (b : Ref sig .tc) : Buf (Elt F) ((c : Thread nD τ).loc b) :=
  StableHlo.after hostOps0 (fun b => m (c, b)) b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store go through the whole rectangle of their buffer -/

abbrev r0_0 : Rect S2000x128 := Rect.unit (s := S2000x128) ![0, 0] S2000x128.size inb_S2000x128_S2000x128_0_0
abbrev r0_1 : Rect S2000x1 := Rect.unit (s := S2000x1) ![0, 0] S2000x1.size inb_S2000x1_S2000x1_0_0
abbrev r0_2 : Rect S128x384 := Rect.unit (s := S128x384) ![0, 0] S128x384.size inb_S128x384_S128x384_0_0
abbrev r0_3 : Rect S1x128 := Rect.unit (s := S1x128) ![0, 0] S1x128.size inb_S1x128_S1x128_0_0
abbrev r0_4 : Rect S128x128 := Rect.unit (s := S128x128) ![0, 0] S128x128.size inb_S128x128_S128x128_0_0

/-! ## What the body leaves in the output window's buffer -/

/-- Window 17's staging buffer after the body, from the seventeen input blocks: its one store as a
    piece over the whole buffer. The stored value is the last payload applied to the loaded third
    block, the five intermediate values of the first half of the body (each a payload of the blocks
    loaded there), and the seven blocks the second half loads. -/
def out0_17 (x0 : Vec F S2000x128 .f32) (x1 : Vec F S2000x128 .f32) (x2 : Vec F S2000x128 .f32) (x3 : Vec F S2000x1 .f32) (x4 : Vec F S128x384 .bf16) (x5 : Vec F S1x128 .f32) (x6 : Vec F S1x128 .f32) (x7 : Vec F S1x128 .f32) (x8 : Vec F S128x128 .bf16) (x9 : Vec F S128x128 .bf16) (x10 : Vec F S1x128 .f32) (x11 : Vec F S128x128 .bf16) (x12 : Vec F S128x128 .bf16) (x13 : Vec F S1x128 .f32) (x14 : Vec F S128x128 .bf16) (x15 : Vec F S128x128 .bf16) (x16 : Vec F S1x128 .f32) : Vec F S2000x128 .f32 :=
  View.canon [⟨r0_0, k0_pay7 (View.ld x2 r0_0)
    (k0_pay2 (View.ld x0 r0_0) (View.ld x1 r0_0) (View.ld x3 r0_1) (View.ld x4 r0_2) (View.ld x6 r0_3))
    (k0_pay3 (View.ld x0 r0_0) (View.ld x1 r0_0) (View.ld x3 r0_1) (View.ld x4 r0_2) (View.ld x7 r0_3))
    (k0_pay4 (View.ld x2 r0_0))
    (k0_pay5 (View.ld x0 r0_0) (View.ld x1 r0_0) (View.ld x3 r0_1) (View.ld x4 r0_2) (View.ld x5 r0_3) (View.ld x8 r0_4))
    (k0_pay6 (View.ld x2 r0_0) (View.ld x9 r0_4))
    (View.ld x10 r0_3) (View.ld x11 r0_4) (View.ld x12 r0_4) (View.ld x13 r0_3) (View.ld x14 r0_4) (View.ld x15 r0_4) (View.ld x16 r0_3)⟩]

/-- A single store through the whole rectangle covers the buffer. -/
theorem cover0_17 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The pipeline's proof data -/

/-- The proof data of the one pipeline on core `c`: the arrays as the region finds them; after the
    body at point `t` each input's buffer at its block and the output's at `out0_17` of the input
    blocks; the invariant the scoped rest and the generator register, untouched; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 18, h⟩ => absurd h (Nat.not_lt.2 (Nat.le_add_left _ _))
  Φ _ := Pipeline.ΦA spec0 c
  q _ := fullShare
  owed _ := 0

/-- The proof data's arrays are the region-entry contents: the definition projected, the fold over
    the host operations never opened. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

end Cert.Kernel.Hand

end
-- ==== Proof.FrameBitsMain.lean ====
import proofs.«104820_j11836929868497_2_alg».proof.Proof.FrameBitsDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The frame claim's post from the frame run's -/

/-- For any proof data whose arrays are the region-entry contents, a run to the pipeline frame post,
    read at the argument arrays (a staged input by `Dat.arrAt_in`, an array no window stages by the
    post's second clause, each then as launched), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 1).trans (((dats 0 c).arrAt_in 1 rfl _).trans ((hA c 1).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.Kernel.Hand

end
-- ==== Proof.FrameBitsBody.lean ====
import proofs.«104820_j11836929868497_2_alg».proof.Proof.FrameBitsDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The inputs' staging buffers hold their blocks -/

/-- Input window 0's current staging buffer holds its block at every point, fetched there or not,
    for any proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not,
    for any proof data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not,
    for any proof data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not,
    for any proof data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not,
    for any proof data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not,
    for any proof data whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not,
    for any proof data whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not,
    for any proof data whose array is the region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not,
    for any proof data whose array is the region-entry contents and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not,
    for any proof data whose array is the region-entry contents and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not,
    for any proof data whose array is the region-entry contents and whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not,
    for any proof data whose array is the region-entry contents and whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not,
    for any proof data whose array is the region-entry contents and whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not,
    for any proof data whose array is the region-entry contents and whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not,
    for any proof data whose array is the region-entry contents and whose body leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not,
    for any proof data whose array is the region-entry contents and whose body leaves the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not,
    for any proof data whose array is the region-entry contents and whose body leaves the block in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body's triple -/

set_option maxHeartbeats 4000000 in
/-- The kernel body on whole staging memrefs, the inputs' at read contents and the output's at
    anything, runs to the continuation holding the inputs' as they were and the output's at
    `out0_17` of the inputs': the loads read the held contents whole, the one load of the output
    buffer reads whatever it held, and the one store overwrites it whole. -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x384 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S128x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .bf16) (harg15 : arg15.IsWhole) (arg16 : Memref sig .tc .vmem S128x128 .bf16) (harg16 : arg16.IsWhole) (arg17 : Memref sig .tc .vmem S1x128 .f32) (harg17 : arg17.IsWhole) (arg18 : Memref sig .tc .vmem S2000x128 .f32) (harg18 : arg18.IsWhole)
    (x0 : Vec F S2000x128 .f32) (x1 : Vec F S2000x128 .f32) (x2 : Vec F S2000x128 .f32) (x3 : Vec F S2000x1 .f32) (x4 : Vec F S128x384 .bf16) (x5 : Vec F S1x128 .f32) (x6 : Vec F S1x128 .f32) (x7 : Vec F S1x128 .f32) (x8 : Vec F S128x128 .bf16) (x9 : Vec F S128x128 .bf16) (x10 : Vec F S1x128 .f32) (x11 : Vec F S128x128 .bf16) (x12 : Vec F S128x128 .bf16) (x13 : Vec F S1x128 .f32) (x14 : Vec F S128x128 .bf16) (x15 : Vec F S128x128 .bf16) (x16 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (cover0_17 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

/-- The body at any point: the inputs' memrefs hold their blocks, so the body's triple applies; the
    invariant and the core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.FrameBits.lean ====
import proofs.«104820_j11836929868497_2_alg».proof.Proof.FrameBitsMain
import proofs.«104820_j11836929868497_2_alg».proof.Proof.FrameBitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

-- `θ_run_frame`'s implicit arguments are found by unifying its conclusion with this one, which takes
-- unfolding plain definitions in a metavariable's type
set_option backward.isDefEq.respectTransparency.types false in
/-- At the compiled mesh, for any values, from any memory with zero counters: every weakly fair
    execution of @main on the TensorCores terminates, and every final state has every array of the
    pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- The frame: the program runs and its fifteen argument arrays end as launched, at any float model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Hand

end
-- ==== Proof.FrameIdealDefs.lean ====
import proofs.«104820_j11836929868497_2_alg».proof.Proof.Gen.KernelIdeal.Launch
import proofs.«104820_j11836929868497_2_alg».proof.Proof.Gen.KernelIdeal.Skeleton
import proofs.«104820_j11836929868497_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s TensorCore buffers when the region is entered: the launch contents after the host
    operations that precede the region, kept as one fold and never unfolded. -/
abbrev V (c : Dev nD) (b : Ref sig .tc) : Buf (Elt F) ((c : Thread nD τ).loc b) :=
  StableHlo.after hostOps0 (fun b => m (c, b)) b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store go through the whole rectangle of their buffer -/

abbrev r0_0 : Rect S2000x128 := Rect.unit (s := S2000x128) ![0, 0] S2000x128.size inb_S2000x128_S2000x128_0_0
abbrev r0_1 : Rect S2000x1 := Rect.unit (s := S2000x1) ![0, 0] S2000x1.size inb_S2000x1_S2000x1_0_0
abbrev r0_2 : Rect S128x384 := Rect.unit (s := S128x384) ![0, 0] S128x384.size inb_S128x384_S128x384_0_0
abbrev r0_3 : Rect S1x128 := Rect.unit (s := S1x128) ![0, 0] S1x128.size inb_S1x128_S1x128_0_0
abbrev r0_4 : Rect S128x128 := Rect.unit (s := S128x128) ![0, 0] S128x128.size inb_S128x128_S128x128_0_0

/-! ## What the body leaves in the output window's buffer -/

/-- Window 17's staging buffer after the body, from the seventeen input blocks: its one store as a
    piece over the whole buffer. The stored value is the last payload applied to the loaded third
    block, the five intermediate values of the first half of the body (each a payload of the blocks
    loaded there), and the seven blocks the second half loads. -/
def out0_17 (x0 : Vec F S2000x128 .f32) (x1 : Vec F S2000x128 .f32) (x2 : Vec F S2000x128 .f32) (x3 : Vec F S2000x1 .f32) (x4 : Vec F S128x384 .bf16) (x5 : Vec F S1x128 .f32) (x6 : Vec F S1x128 .f32) (x7 : Vec F S1x128 .f32) (x8 : Vec F S128x128 .bf16) (x9 : Vec F S128x128 .bf16) (x10 : Vec F S1x128 .f32) (x11 : Vec F S128x128 .bf16) (x12 : Vec F S128x128 .bf16) (x13 : Vec F S1x128 .f32) (x14 : Vec F S128x128 .bf16) (x15 : Vec F S128x128 .bf16) (x16 : Vec F S1x128 .f32) : Vec F S2000x128 .f32 :=
  View.canon [⟨r0_0, k0_pay7 (View.ld x2 r0_0)
    (k0_pay2 (View.ld x0 r0_0) (View.ld x1 r0_0) (View.ld x3 r0_1) (View.ld x4 r0_2) (View.ld x6 r0_3))
    (k0_pay3 (View.ld x0 r0_0) (View.ld x1 r0_0) (View.ld x3 r0_1) (View.ld x4 r0_2) (View.ld x7 r0_3))
    (k0_pay4 (View.ld x2 r0_0))
    (k0_pay5 (View.ld x0 r0_0) (View.ld x1 r0_0) (View.ld x3 r0_1) (View.ld x4 r0_2) (View.ld x5 r0_3) (View.ld x8 r0_4))
    (k0_pay6 (View.ld x2 r0_0) (View.ld x9 r0_4))
    (View.ld x10 r0_3) (View.ld x11 r0_4) (View.ld x12 r0_4) (View.ld x13 r0_3) (View.ld x14 r0_4) (View.ld x15 r0_4) (View.ld x16 r0_3)⟩]

/-- A single store through the whole rectangle covers the buffer. -/
theorem cover0_17 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The pipeline's proof data -/

/-- The proof data of the one pipeline on core `c`: the arrays as the region finds them; after the
    body at point `t` each input's buffer at its block and the output's at `out0_17` of the input
    blocks; the invariant the scoped rest and the generator register, untouched; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 18, h⟩ => absurd h (Nat.not_lt.2 (Nat.le_add_left _ _))
  Φ _ := Pipeline.ΦA spec0 c
  q _ := fullShare
  owed _ := 0

/-- The proof data's arrays are the region-entry contents: the definition projected, the fold over
    the host operations never opened. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

end Cert.KernelIdeal.Hand

end
-- ==== Proof.FrameIdealMain.lean ====
import proofs.«104820_j11836929868497_2_alg».proof.Proof.FrameIdealDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The frame claim's post from the frame run's -/

/-- For any proof data whose arrays are the region-entry contents, a run to the pipeline frame post,
    read at the argument arrays (a staged input by `Dat.arrAt_in`, an array no window stages by the
    post's second clause, each then as launched), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 1).trans (((dats 0 c).arrAt_in 1 rfl _).trans ((hA c 1).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.KernelIdeal.Hand

end
-- ==== Proof.FrameIdealBody.lean ====
import proofs.«104820_j11836929868497_2_alg».proof.Proof.FrameIdealDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The inputs' staging buffers hold their blocks -/

/-- Input window 0's current staging buffer holds its block at every point, fetched there or not,
    for any proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not,
    for any proof data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not,
    for any proof data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not,
    for any proof data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not,
    for any proof data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not,
    for any proof data whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not,
    for any proof data whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not,
    for any proof data whose array is the region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not,
    for any proof data whose array is the region-entry contents and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not,
    for any proof data whose array is the region-entry contents and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not,
    for any proof data whose array is the region-entry contents and whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not,
    for any proof data whose array is the region-entry contents and whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not,
    for any proof data whose array is the region-entry contents and whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not,
    for any proof data whose array is the region-entry contents and whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not,
    for any proof data whose array is the region-entry contents and whose body leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not,
    for any proof data whose array is the region-entry contents and whose body leaves the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not,
    for any proof data whose array is the region-entry contents and whose body leaves the block in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body's triple -/

set_option maxHeartbeats 4000000 in
/-- The kernel body on whole staging memrefs, the inputs' at read contents and the output's at
    anything, runs to the continuation holding the inputs' as they were and the output's at
    `out0_17` of the inputs': the loads read the held contents whole, the one load of the output
    buffer reads whatever it held, and the one store overwrites it whole. -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x384 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S128x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .bf16) (harg15 : arg15.IsWhole) (arg16 : Memref sig .tc .vmem S128x128 .bf16) (harg16 : arg16.IsWhole) (arg17 : Memref sig .tc .vmem S1x128 .f32) (harg17 : arg17.IsWhole) (arg18 : Memref sig .tc .vmem S2000x128 .f32) (harg18 : arg18.IsWhole)
    (x0 : Vec F S2000x128 .f32) (x1 : Vec F S2000x128 .f32) (x2 : Vec F S2000x128 .f32) (x3 : Vec F S2000x1 .f32) (x4 : Vec F S128x384 .bf16) (x5 : Vec F S1x128 .f32) (x6 : Vec F S1x128 .f32) (x7 : Vec F S1x128 .f32) (x8 : Vec F S128x128 .bf16) (x9 : Vec F S128x128 .bf16) (x10 : Vec F S1x128 .f32) (x11 : Vec F S128x128 .bf16) (x12 : Vec F S128x128 .bf16) (x13 : Vec F S1x128 .f32) (x14 : Vec F S128x128 .bf16) (x15 : Vec F S128x128 .bf16) (x16 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (cover0_17 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

/-- The body at any point: the inputs' memrefs hold their blocks, so the body's triple applies; the
    invariant and the core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameIdeal.lean ====
import proofs.«104820_j11836929868497_2_alg».proof.Proof.FrameIdealMain
import proofs.«104820_j11836929868497_2_alg».proof.Proof.FrameIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

-- `θ_run_frame`'s implicit arguments are found by unifying its conclusion with this one, which takes
-- unfolding plain definitions in a metavariable's type
set_option backward.isDefEq.respectTransparency.types false in
/-- At the compiled mesh, for any values, from any memory with zero counters: every weakly fair
    execution of @main on the TensorCores terminates, and every final state has every array of the
    pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Hand.run_main' depends on axioms: [propext, Classical.choice, Quot.sound] -/
#guard_msgs in #print axioms run_main

/-- The frame: the program runs and its fifteen argument arrays end as launched, at any float model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Hand

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibGcnLaw.lean ====
/-
  The algebra that joins the two arrangements of a graph-convolution layer, over the extended reals.

  One arrangement scales a node's neighbour sum by the node's factor after summing; the other scales each summand by the
  product of the destination's and the source's factors before summing. A factor `c` with `0 ≤ c < ⊤` distributes over
  a finite sum of extended reals whatever the summands are (an infinite summand of either sign is kept by a positive
  finite factor and annihilated by zero on both sides), so the two arrangements agree with no finiteness asked of the
  features. The factor here is `1 / √deg` where the degree is positive and zero elsewhere, which always lies in
  `[0, ⊤)`: the reciprocal root of a positive real is a positive real, and that of `⊤` is `0`.

  Also: a 32-bit index word whose signed value is a row number `0 ≤ n < N` is left alone by the wrap that adds `N` to
  negative words, and clamping its value into `[0, N − 1]` gives `n` back.
-/
import Idealize.ShloMosaic.PureOps.Ideal

noncomputable section

open scoped BigOperators

namespace Cert.Gcn

open Idealize.ShloMosaic

/-- A nonnegative finite factor distributes over a finite sum of extended reals. -/
theorem mul_sum_of_nonneg_of_ne_top {ι : Type*} (s : Finset ι) (c : EReal) (h0 : 0 ≤ c) (hT : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 hT, ih]

/-- THE LAYER LAW. Over the edges `s` into one node whose factor is `c`: scaling the sum of `h e · dsrc e` by `c`
    is summing `h e · (ddst e · dsrc e)`, when every edge of `s` has destination factor `c`. The sums start from
    a zero `z`. -/
theorem layer_law {ι : Type*} (s : Finset ι) (c z : EReal) (hz : z = 0) (h0 : 0 ≤ c) (hT : c ≠ ⊤)
    (h dsrc ddst : ι → EReal) (hd : ∀ e ∈ s, ddst e = c) :
    c * (z + ∑ e ∈ s, h e * dsrc e) = z + ∑ e ∈ s, h e * (ddst e * dsrc e) := by
  subst hz
  rw [zero_add, zero_add, mul_sum_of_nonneg_of_ne_top s c h0 hT]
  refine Finset.sum_congr rfl fun e he => ?_
  rw [hd e he, mul_left_comm]

/-- The reciprocal square root guarded by positivity lies in `[0, ⊤)`. -/
theorem guarded_rsqrt_range (y : EReal) :
    0 ≤ (if 0 < y then Ideal.rsqrt y else 0) ∧ (if 0 < y then Ideal.rsqrt y else 0) ≠ ⊤ := by
  induction y using EReal.rec with
  | bot => simp
  | top => simp
  | coe r =>
    by_cases hr : (0 : EReal) < (r : EReal)
    · have hr' : 0 < r := by exact_mod_cast hr
      rw [if_pos hr, Ideal.rsqrt_coe, if_neg (not_lt.mpr hr'.le), if_neg hr'.ne']
      exact ⟨by exact_mod_cast (inv_nonneg.mpr (Real.sqrt_nonneg r)), EReal.coe_ne_top _⟩
    · rw [if_neg hr]; exact ⟨le_refl _, EReal.zero_ne_top⟩

/-- A word whose signed value is a row number is not negative, so the wrap keeps it; clamped, it is that row. -/
theorem wrap_clamp_of_toInt_eq {N : ℕ} (hN : N < 2 ^ 31) (w : BitVec 32) (n : Fin N) (hw : w.toInt = (n.val : Int)) :
    min (Scalar.select (IntOp.cmpi .slt w 0#32) (IntOp.addi w (BitVec.ofNat 32 N)) w).toInt.toNat (N - 1) = n.val := by
  have hns : w.slt 0#32 = false := by
    rw [BitVec.slt_eq_decide]  -- the signed comparison is the comparison of the signed values
    simp [hw]
  have hsel : Scalar.select (IntOp.cmpi .slt w 0#32) (IntOp.addi w (BitVec.ofNat 32 N)) w = w := by
    unfold Scalar.select IntOp.cmpi
    simp [hns]
  rw [hsel, hw]
  have := n.isLt
  simp only [Int.toNat_natCast]
  omega

end Cert.Gcn

end
-- ==== Proof.LibEdgeReads.lean ====
/-
  HOST LAYOUT OPERATIONS OF A PER-ROW COMPUTATION, READ AT AN INDEX, over arbitrary extents (nothing here mentions a
  program):

  * an `[a]` vector made an `[a, 1]` column by `broadcast_in_dim` along axis 0 reads, at `(e, u)`, the vector at `e`;
  * an `[a, 1]` column broadcast to `[a, b]` by `broadcast_in_dim` along axes 0 and 1 reads, at `(e, c)`, the column at
    `(e, 0)`;
  * column `k` of an `[a, b]` matrix, sliced out as `[a, 1]` and cast to `[a]`, reads, at `e`, the matrix at `(e, k)`;
  * the host's float sum over the second axis of an `[n, 3]` matrix reads, at `e`, the initial value plus the three
    entries of row `e`, added left to right.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.EdgeReads

open Idealize.ShloMosaic Idealize.ShloMosaic.ValueIdx

variable {α : Type}

/-- A vector made a column: at `(e, u)` the vector at `e`. -/
theorem column_of_vector_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply _ h x _ _ fun d => by
    match d with
    | ⟨0, _⟩ =>
      show e.val = if a = 1 then 0 else e.val
      split
      · have := e.isLt; omega
      · rfl

/-- A column broadcast along the rows: at `(e, c)` the column at `(e, 0)`. -/
theorem column_broadcast_apply {a b : ℕ} (x : (⟨2, ![a, 1]⟩ : Shape).Idx → α)
    (h : (⟨2, ![a, 1]⟩ : Shape).BroadcastsInDim ⟨2, ![a, b]⟩ ![0, 1]) (e : Fin a) (c : Fin b) :
    broadcastInDim ⟨2, ![a, b]⟩ ![0, 1] h x (ix2 e c) = x (ix2 e (0 : Fin 1)) :=
  broadcastInDim_apply _ h x _ _ fun d => by
    match d with
    | ⟨0, _⟩ =>
      show e.val = if a = 1 then 0 else e.val
      split
      · have := e.isLt; omega
      · rfl
    | ⟨1, _⟩ =>
      show (0 : ℕ) = if (1 : ℕ) = 1 then 0 else c.val
      rw [if_pos rfl]

/-- Column `k` of a matrix as a vector: at `e` the matrix at `(e, k)`. -/
theorem column_slice_apply {a b : ℕ} (k : ℕ) (hk : k < b) (X : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (e : Fin a) :
    shapeCast ⟨1, ![a]⟩ (extractStridedSlice ⟨2, ![a, 1]⟩ ![0, k] X hs) hc (ix1 e) = X (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply _ X hs _ _ fun d => ?_
    match d with
    | ⟨0, _⟩ => show e.val = 0 + e.val; omega
    | ⟨1, _⟩ => show k = k + 0; omega

/-- The host's sum of each row of an `[n, 3]` matrix: at `e` the initial value plus the row's three entries. -/
theorem hostReduceAdd_rows3_apply {n : ℕ} {u : Shape} (x : FVec Ideal ⟨2, ![n, 3]⟩ .f32) (init : u.Idx → Ideal .f32)
    (h' : (⟨2, ![n, 3]⟩ : Shape).ReducesTo [1] ⟨1, ![n]⟩) (h : (⟨2, ![n, 3]⟩ : Shape).Reduces [1] ⟨1, ![n]⟩)
    (hu : 0 < u.numel) (e : Fin n) :
    Host.reduceAdd x init h' hu (ix1 e)
      = init (Shape.Idx.first hu) + (x (ix2 e 0) + x (ix2 e 1) + x (ix2 e 2)) := by
  rw [hostReduceAdd_apply, Ideal.hostReduceAdd_single h' h]
  have hl : ∀ k : Fin 3, h.lift (ix1 e) k = ix2 e k := fun k => by
    funext d; refine Fin.ext ?_
    match d with
    | ⟨0, _⟩ => rfl
    | ⟨1, _⟩ => rfl
  show init (Shape.Idx.first hu) + ∑ k : Fin 3, x (h.lift (ix1 e) k) = _
  rw [Fin.sum_univ_three, hl 0, hl 1, hl 2]

end Cert.Lib.EdgeReads

end
-- ==== Proof.LibScatterDims.lean ====
/-
  A scatter's dimension numbers are determined by their four data fields: a record over the row-scatter shapes whose
  update window axis is 1, whose inserted axis is 0, whose index component names operand axis 0 and whose index vector is
  axis 1 IS the row scatter's record (the remaining field is a proof). So a lemma about the row scatter applies to any
  record printed with those numbers, whatever proof it carries.

  Hence the host's accumulating row scatter, for ANY such record and any extents, read at an element: element `(i, c)`
  of the result is the operand's element plus the sum of column `c` of the update rows whose index word, read as a
  signed integer, is `i`; a row whose index is not a row of the operand contributes nothing.
-/
import proofs.«104820_j11836929868497_2_alg».proof.Proof.LibHostIndex

noncomputable section

open scoped BigOperators

namespace Cert.Lib.HostIndex

open Idealize.ShloMosaic Idealize.ShloMosaic.ValueIdx

theorem eq_rowScatterDims {N R C : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) : ∃ wf, d = rowScatterDims N R C wf := by
  obtain ⟨u, i, s, v, wf⟩ := d
  dsimp only at h1 h2 h3 h4
  subst h1 h2 h3 h4
  exact ⟨wf, rfl⟩

/-- THE HOST'S ROW SCATTER-ADD OF ANY RECORD WITH THE ROW NUMBERS, READ AT `(i, c)`: the operand's element plus the
    sum of column `c` of the update rows whose index, read signed, is `i` (rows indexed outside `[0, N)` land
    nowhere). -/
theorem hostScatterAdd_rows_apply {N R C w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![R, 1]⟩ w)
    (upd : (⟨2, ![R, C]⟩ : Shape).Idx → EReal) (i : Fin N) (c : Fin C) :
    Host.scatterAdd (F := Ideal) (φ := .f32) d x idx upd (ix2 i c)
      = x (ix2 i c) + ∑ e ∈ Finset.univ.filter (fun e : Fin R => (idx (ix2 e 0)).toInt = (i.val : Int)), upd (ix2 e c) := by
  obtain ⟨wf, rfl⟩ := eq_rowScatterDims d h1 h2 h3 h4
  exact scatterAdd_rows_apply wf x idx upd i c

end Cert.Lib.HostIndex

end
-- ==== Proof.LibSageMean.lean ====
/-
  THE MEAN OVER IN-NEIGHBOURS, TWO WAYS, over arbitrary extents (nothing here mentions a program).

  A segment sum `s` of shape `[N, C]` is turned into a mean by the in-degree of each row, the degree being itself a
  segment sum of ones over the same index column `D`, kept at least one. One program counts the degree as a vector
  `[N]`, takes the reciprocal `1 / max(deg, 1)`, makes it a column and multiplies; the other counts it as a column
  `[N, 1]` and divides by `max(deg, 1)`.

  The two counts agree because an edge lands on row `i` of either exactly when its signed index is `i`, and each
  landing edge contributes the same one. The two quotients agree on every extended real: the divisor `m = max(deg, 1)`
  is at least one, hence not zero, and off zero the quotient `x / m` is by definition `x * m⁻¹`; so
  `s * (1 / m) = s * (1 * m⁻¹) = s * m⁻¹ = s / m`, with no finiteness asked of `s`.
-/
import proofs.«104820_j11836929868497_2_alg».proof.Proof.LibScatterDims
import proofs.«104820_j11836929868497_2_alg».proof.Proof.LibEdgeReads
import Idealize.ShloMosaic.Lib.ValueIdx
import Idealize.ShloMosaic.PureOps.Ideal.Laws

noncomputable section

open scoped BigOperators

namespace Cert.Lib.MeanAgg

open Idealize.ShloMosaic Idealize.ShloMosaic.ValueIdx Cert.Lib.HostIndex Cert.Lib.EdgeReads

/-- A scatter record over the vector shapes with no window axis, the one operand axis inserted and named by the index,
    is the vector scatter's record (the remaining field is a proof). -/
theorem eq_vecScatterDims {N R : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) : ∃ wf, d = vecScatterDims N R wf := by
  obtain ⟨u, i, s, v, wf⟩ := d
  dsimp only at h1 h2 h3 h4
  subst h1 h2 h3 h4
  exact ⟨wf, rfl⟩

/-- THE HOST'S VECTOR SCATTER-ADD OF ANY RECORD WITH THE VECTOR NUMBERS, READ AT `i`: the operand's element plus the sum
    of the updates whose index, read signed, is `i`. -/
theorem hostScatterAdd_vec_apply {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![R, 1]⟩ w)
    (upd : (⟨1, ![R]⟩ : Shape).Idx → EReal) (i : Fin N) :
    Host.scatterAdd (F := Ideal) (φ := .f32) d x idx upd (ix1 i)
      = x (ix1 i) + ∑ e ∈ Finset.univ.filter (fun e : Fin R => (idx (ix2 e 0)).toInt = (i.val : Int)), upd (ix1 e) := by
  obtain ⟨wf, rfl⟩ := eq_vecScatterDims d h1 h2 h3 h4
  exact scatterAdd_vec_apply wf x idx upd i

/-- The f32 word of 1.0 denotes the extended real one. -/
theorem ofBits_one_f32 : Ideal.ofBits .f32 0x3F800000#32 = 1 := by
  simp [Ideal.ofBits, Ideal.ieee, -EReal.coe_mul]; norm_num

/-- Multiplying by the reciprocal of a divisor that is at least one is dividing by it, on every extended real. -/
theorem mul_recip_eq_div (s d : EReal) : s * Ideal.div 1 (max d 1) = Ideal.div s (max d 1) := by
  have hm : max d 1 ≠ 0 := (lt_of_lt_of_le zero_lt_one (le_max_right d 1)).ne'
  unfold Ideal.div
  rw [if_neg hm, if_neg hm, one_mul]

/-- THE TWO MEANS ARE ONE ARRAY. `zv`, `zc` are the zero-filled operands of the two degree counts, `uv`, `uc` their
    all-ones updates, `ov`, `ov'`, `oc` the all-ones arrays of the reciprocal and of the two floors. -/
theorem mean_mul_recip_eq_div {N R C w : Nat}
    (dv : ScatterDims ⟨1, ![N]⟩ ⟨2, ![R, 1]⟩ ⟨1, ![R]⟩)
    (hv1 : dv.updateWindowDims = []) (hv2 : dv.insertedWindowDims = [0]) (hv3 : dv.scatterDimsToOperandDims = [0])
    (hv4 : dv.indexVectorDim = 1)
    (dc : ScatterDims ⟨2, ![N, 1]⟩ ⟨2, ![R, 1]⟩ ⟨2, ![R, 1]⟩)
    (hc1 : dc.updateWindowDims = [1]) (hc2 : dc.insertedWindowDims = [0]) (hc3 : dc.scatterDimsToOperandDims = [0])
    (hc4 : dc.indexVectorDim = 1)
    (s : (⟨2, ![N, C]⟩ : Shape).Idx → EReal) (D : IVec ⟨2, ![R, 1]⟩ w) (zero : EReal)
    (zv ov ov' : (⟨1, ![N]⟩ : Shape).Idx → EReal) (uv : (⟨1, ![R]⟩ : Shape).Idx → EReal)
    (zc oc : (⟨2, ![N, 1]⟩ : Shape).Idx → EReal) (uc : (⟨2, ![R, 1]⟩ : Shape).Idx → EReal)
    (hzv : ∀ i, zv i = zero) (hov : ∀ i, ov i = 1) (hov' : ∀ i, ov' i = 1) (huv : ∀ i, uv i = 1)
    (hzc : ∀ i, zc i = zero) (hoc : ∀ i, oc i = 1) (huc : ∀ i, uc i = 1)
    (hb1 : (⟨1, ![N]⟩ : Shape).BroadcastsInDim ⟨2, ![N, 1]⟩ ![0])
    (hb2 hb2' : (⟨2, ![N, 1]⟩ : Shape).BroadcastsInDim ⟨2, ![N, C]⟩ ![0, 1]) :
    mulf (F := Ideal) (φ := .f32) s (broadcastInDim ⟨2, ![N, C]⟩ ![0, 1] hb2 (broadcastInDim ⟨2, ![N, 1]⟩ ![0] hb1
        (Host.divf (F := Ideal) (φ := .f32) ov
          (maximumf (F := Ideal) (φ := .f32) (Host.scatterAdd (F := Ideal) (φ := .f32) dv zv D uv) ov'))))
      = Host.divf (F := Ideal) (φ := .f32) s (broadcastInDim ⟨2, ![N, C]⟩ ![0, 1] hb2'
          (maximumf (F := Ideal) (φ := .f32) (Host.scatterAdd (F := Ideal) (φ := .f32) dc zc D uc) oc)) := by
  funext j
  obtain ⟨r, c, rfl⟩ : ∃ (r : Fin N) (c : Fin C), j = ix2 r c := ⟨j 0, j 1, eq_ix2 j⟩
  show s (ix2 r c) * broadcastInDim (s := ⟨2, ![N, 1]⟩) ⟨2, ![N, C]⟩ ![0, 1] hb2 _ (ix2 r c)
      = Ideal.div (s (ix2 r c)) (broadcastInDim (s := ⟨2, ![N, 1]⟩) ⟨2, ![N, C]⟩ ![0, 1] hb2' _ (ix2 r c))
  rw [column_broadcast_apply, column_broadcast_apply, column_of_vector_apply]
  show s (ix2 r c) * Ideal.div (ov (ix1 r)) (max (Host.scatterAdd (F := Ideal) (φ := .f32) dv zv D uv (ix1 r)) (ov' (ix1 r)))
      = Ideal.div (s (ix2 r c)) (max (Host.scatterAdd (F := Ideal) (φ := .f32) dc zc D uc (ix2 r (0 : Fin 1))) (oc (ix2 r (0 : Fin 1))))
  rw [hostScatterAdd_vec_apply dv hv1 hv2 hv3 hv4, hostScatterAdd_rows_apply dc hc1 hc2 hc3 hc4, hov, hov', hoc, hzv, hzc,
    Finset.sum_congr rfl (fun e _ => huv (ix1 e)), Finset.sum_congr rfl (fun e _ => huc (ix2 e (0 : Fin 1)))]
  exact mul_recip_eq_div _ _

end Cert.Lib.MeanAgg

end
-- ==== Proof.LibMeanGcn.lean ====
/-
  THE MEAN-NORMALISED GRAPH-CONVOLUTION AGGREGATION, IN ITS TWO ARRANGEMENTS, over arbitrary extents: `N` nodes, `R`
  edges (self loops included), `C` features. Nothing here mentions a program.

  From a source word `s e` and a target word `t e` per edge (32-bit, read signed), the in-degree of node `n` is
  `deg n = 0 + Σ_{e : t e = n} 1`, the normaliser is `dinv n = 1 / √(deg n)` where the degree is positive and `0`
  elsewhere, and the divisor of the mean is `c n = max (deg n) 1`. A gather reads row `row v e`: the word `v e` with the
  extent added where it is negative, then clamped into the rows; a scatter-add lands edge `e` on the row its target
  word names, or nowhere. With `coef e = dinv (row s e) · dinv (row t e)`:

    one arrangement    agg (n, f) = 0 + Σ_{e : t e = n} h (row s e, f) · (coef e / c (row t e))
    the other          agg (n, f) = (0 + Σ_{e : t e = n} h (row s e, f) · coef e) / c n

  They are the same array on ALL extended reals. An edge that lands on `n` has a target word whose signed value is the
  row `n`, so the wrap keeps it and the clamp returns `n`: `c (row t e) = c n`. The divisor `c n` is at least one, so it
  is not zero and division by it is multiplication by its inverse `k`, with `0 ≤ k < ⊤` (the inverse of `⊤` is `0`);
  such a factor distributes over a finite sum of extended reals whatever the summands are.

  Also: when every entry of `h` is a real, every entry of the aggregate is. The degree is a count, hence a real; the
  guarded reciprocal root lies in `[0, ⊤)`, hence is a real; a finite sum of products of reals is a real; and a real
  divided by a real that is at least one is a real.
-/
import proofs.«104820_j11836929868497_2_alg».proof.Proof.LibHostIndex
import proofs.«104820_j11836929868497_2_alg».proof.Proof.LibGcnLaw
import proofs.«104820_j11836929868497_2_alg».proof.Proof.LibEdgeReads
import proofs.«104820_j11836929868497_2_alg».proof.Proof.LibSageMean
import Idealize.ShloMosaic.PureOps.Ideal.Laws
import Idealize.ShloMosaic.Lib.ValueIdx
import Idealize.ShloMosaic.Lib.Pipeline.Value

noncomputable section

open scoped BigOperators

namespace Cert.Lib.MeanGcn

open Idealize.ShloMosaic Idealize.ShloMosaic.ValueIdx Cert.Lib.HostIndex Cert.Lib.EdgeReads Cert.Lib.MeanAgg Cert.Gcn

/-! ## Reals among the extended reals -/

/-- An extended real that is a real. -/
def IsR (x : EReal) : Prop := ∃ r : ℝ, x = (r : EReal)

theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type*} (S : Finset ι) (f : ι → EReal) (hf : ∀ e ∈ S, IsR (f e)) : IsR (∑ e ∈ S, f e) := by
  classical
  induction S using Finset.induction_on with
  | empty => simpa using IsR.zero
  | insert a S ha ih =>
    rw [Finset.sum_insert ha]
    exact (hf a (Finset.mem_insert_self a S)).add (ih fun e he => hf e (Finset.mem_insert_of_mem he))
/-- An extended real in `[0, ⊤)` is a real. -/
theorem IsR.of_range {x : EReal} (h0 : 0 ≤ x) (hT : x ≠ ⊤) : IsR x := by
  induction x using EReal.rec with
  | bot => exact absurd h0 (by simp)
  | top => exact absurd rfl hT
  | coe r => exact ⟨r, rfl⟩
/-- A real divided by a real that is at least one is a real. -/
theorem IsR.div_of_one_le {x c : EReal} (hx : IsR x) (hc : IsR c) (h1 : 1 ≤ c) : IsR (Ideal.div x c) := by
  obtain ⟨a, rfl⟩ := hx; obtain ⟨b, rfl⟩ := hc
  have hb : (1 : ℝ) ≤ b := by exact_mod_cast h1
  have hb0 : b ≠ 0 := by linarith
  rw [Ideal.div_coe hb0]
  exact ⟨a * (1 / b), (EReal.coe_mul a (1 / b)).symm⟩

/-! ## The algebra -/

/-- The inverse of an extended real that is at least one lies in `[0, ⊤)`. -/
theorem inv_range_of_one_le {c : EReal} (h1 : 1 ≤ c) : 0 ≤ c⁻¹ ∧ c⁻¹ ≠ ⊤ := by
  induction c using EReal.rec with
  | bot =>
    have hb : (⊥ : EReal) < 1 := by exact_mod_cast EReal.bot_lt_coe 1
    exact absurd h1 (not_le.mpr hb)
  | top => simp
  | coe r =>
    have hr : (1 : ℝ) ≤ r := by exact_mod_cast h1
    rw [← EReal.coe_inv]
    exact ⟨by exact_mod_cast inv_nonneg.mpr (by linarith), EReal.coe_ne_top _⟩

/-- Division by an extended real that is at least one is multiplication by its inverse. -/
theorem div_eq_mul_inv_of_one_le (x : EReal) {c : EReal} (h1 : 1 ≤ c) : Ideal.div x c = x * c⁻¹ := by
  have hc : c ≠ 0 := (lt_of_lt_of_le zero_lt_one h1).ne'
  unfold Ideal.div
  rw [if_neg hc]

/-- THE LAW. Over the edges `S` into one node whose divisor is `c ≥ 1`: dividing each summand's coefficient by the
    divisor read at the edge (which is `c` on `S`) is dividing the sum by `c`. The sums start from zero. -/
theorem sum_div_law {ι : Type*} (S : Finset ι) (c : EReal) (h1 : 1 ≤ c) (a b g : ι → EReal) (hg : ∀ e ∈ S, g e = c) :
    0 + ∑ e ∈ S, a e * Ideal.div (b e) (g e) = Ideal.div (0 + ∑ e ∈ S, a e * b e) c := by
  obtain ⟨k0, kT⟩ := inv_range_of_one_le h1
  rw [zero_add, zero_add, div_eq_mul_inv_of_one_le _ h1, mul_comm, mul_sum_of_nonneg_of_ne_top S _ k0 kT]
  refine Finset.sum_congr rfl fun e he => ?_
  rw [hg e he, div_eq_mul_inv_of_one_le _ h1, ← mul_assoc, mul_comm]

/-! ## The layer's operations, as the host spells them -/

/-- The shape facts the layer's layout operations cite. -/
structure Facts (N R C : ℕ) : Prop where
  bS_R : (⟨0, ![]⟩ : Shape).BroadcastsInDim ⟨1, ![R]⟩ (![] : Fin 0 → Fin 1)
  bS_N : (⟨0, ![]⟩ : Shape).BroadcastsInDim ⟨1, ![N]⟩ (![] : Fin 0 → Fin 1)
  bS_NC : (⟨0, ![]⟩ : Shape).BroadcastsInDim ⟨2, ![N, C]⟩ (![] : Fin 0 → Fin 2)
  bR_R1 : (⟨1, ![R]⟩ : Shape).BroadcastsInDim ⟨2, ![R, 1]⟩ (![0] : Fin 1 → Fin 2)
  bR1_RC : (⟨2, ![R, 1]⟩ : Shape).BroadcastsInDim ⟨2, ![R, C]⟩ (![0, 1] : Fin 2 → Fin 2)

section Defs

variable {N R C : ℕ} (fx : Facts N R C)
  (sdV : ScatterDims ⟨1, ![N]⟩ ⟨2, ![R, 1]⟩ ⟨1, ![R]⟩)
  (gdV : GatherDims ⟨1, ![N]⟩ ⟨2, ![R, 1]⟩ ⟨1, ![R]⟩)
  (gdM : GatherDims ⟨2, ![N, C]⟩ ⟨2, ![R, 1]⟩ ⟨2, ![R, C]⟩)
  (sdM : ScatterDims ⟨2, ![N, C]⟩ ⟨2, ![R, 1]⟩ ⟨2, ![R, C]⟩)

/-- A per-edge vector as a column. -/
def col {α : Type} (v : (⟨1, ![R]⟩ : Shape).Idx → α) : (⟨2, ![R, 1]⟩ : Shape).Idx → α :=
  broadcastInDim ⟨2, ![R, 1]⟩ ![0] fx.bR_R1 v

/-- The index wrap: the extent added where the word is negative. -/
def wrap (v : IVec ⟨1, ![R]⟩ 32) : IVec ⟨1, ![R]⟩ 32 :=
  select (cmpi .slt v (broadcastInDim ⟨1, ![R]⟩ ![] fx.bS_R (constantI ⟨0, ![]⟩ 32 0#32)))
    (addi v (broadcastInDim ⟨1, ![R]⟩ ![] fx.bS_R (constantI ⟨0, ![]⟩ 32 (BitVec.ofNat 32 N)))) v

/-- The in-degree: ones scatter-added at the target words into zeros. -/
def deg (t : IVec ⟨1, ![R]⟩ 32) : FVec Ideal ⟨1, ![N]⟩ .f32 :=
  Host.scatterAdd (F := Ideal) sdV
    (broadcastInDim ⟨1, ![N]⟩ ![] fx.bS_N (constant (F := Ideal) ⟨0, ![]⟩ .f32 0x00000000#32))
    (col fx t)
    (broadcastInDim ⟨1, ![R]⟩ ![] fx.bS_R (constant (F := Ideal) ⟨0, ![]⟩ .f32 0x3F800000#32))

/-- The normaliser: the reciprocal root of the degree where it is positive, zero elsewhere. -/
def dinv (d : FVec Ideal ⟨1, ![N]⟩ .f32) : FVec Ideal ⟨1, ![N]⟩ .f32 :=
  select (cmpf .ogt d (broadcastInDim ⟨1, ![N]⟩ ![] fx.bS_N (constant (F := Ideal) ⟨0, ![]⟩ .f32 0x00000000#32)))
    (Host.rsqrt d)
    (broadcastInDim ⟨1, ![N]⟩ ![] fx.bS_N (constant (F := Ideal) ⟨0, ![]⟩ .f32 0x00000000#32))

/-- The mean's divisor: the degree kept at least one. -/
def cmax (d : FVec Ideal ⟨1, ![N]⟩ .f32) : FVec Ideal ⟨1, ![N]⟩ .f32 :=
  maximumf d (broadcastInDim ⟨1, ![N]⟩ ![] fx.bS_N (constant (F := Ideal) ⟨0, ![]⟩ .f32 0x3F800000#32))

/-- The symmetric coefficient of an edge: the normalisers gathered at its two ends, multiplied. -/
def coef (dv : FVec Ideal ⟨1, ![N]⟩ .f32) (s t : IVec ⟨1, ![R]⟩ 32) : FVec Ideal ⟨1, ![R]⟩ .f32 :=
  mulf (Host.gather gdV dv (col fx (wrap fx s))) (Host.gather gdV dv (col fx (wrap fx t)))

/-- The coefficient divided by the divisor gathered at the target. -/
def coefK (dv cm : FVec Ideal ⟨1, ![N]⟩ .f32) (s t : IVec ⟨1, ![R]⟩ 32) : FVec Ideal ⟨1, ![R]⟩ .f32 :=
  Host.divf (coef fx gdV dv s t) (Host.gather gdV cm (col fx (wrap fx t)))

/-- The messages `h[src] · cf` scatter-added at the target words into zeros. -/
def aggOf (h : FVec Ideal ⟨2, ![N, C]⟩ .f32) (s t : IVec ⟨1, ![R]⟩ 32) (cf : FVec Ideal ⟨1, ![R]⟩ .f32) :
    FVec Ideal ⟨2, ![N, C]⟩ .f32 :=
  Host.scatterAdd (F := Ideal) sdM
    (broadcastInDim ⟨2, ![N, C]⟩ ![] fx.bS_NC (constant (F := Ideal) ⟨0, ![]⟩ .f32 0x00000000#32))
    (col fx t)
    (mulf (Host.gather gdM h (col fx (wrap fx s))) (broadcastInDim ⟨2, ![R, C]⟩ ![0, 1] fx.bR1_RC (col fx cf)))

/-- The arrangement that divides each edge's coefficient. -/
def kagg (h : FVec Ideal ⟨2, ![N, C]⟩ .f32) (s t : IVec ⟨1, ![R]⟩ 32) : FVec Ideal ⟨2, ![N, C]⟩ .f32 :=
  aggOf fx gdM sdM h s t (coefK fx gdV (dinv fx (deg fx sdV t)) (cmax fx (deg fx sdV t)) s t)

/-- The arrangement that divides the sum; the divisor is made a column and broadcast along the features. -/
def ragg (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    (h : FVec Ideal ⟨2, ![N, C]⟩ .f32) (s t : IVec ⟨1, ![R]⟩ 32) : FVec Ideal ⟨2, ![N, C]⟩ .f32 :=
  Host.divf (aggOf fx gdM sdM h s t (coef fx gdV (dinv fx (deg fx sdV t)) s t))
    (broadcastInDim ⟨2, ![N, C]⟩ ![0, 1] bN1_NC (broadcastInDim ⟨2, ![N, 1]⟩ ![0] bN_N1 (cmax fx (deg fx sdV t))))

end Defs

/-! ## The operations read at an index -/

section Reads

variable {N R C : ℕ} (fx : Facts N R C)

/-- A scalar broadcast reads the scalar. -/
theorem scalar_bcast_apply {α : Type} {t : Shape}
    (h : (⟨0, ![]⟩ : Shape).BroadcastsInDim t (![] : Fin 0 → Fin t.rank)) (y : (⟨0, ![]⟩ : Shape).Idx → α) (j : t.Idx) :
    broadcastInDim t ![] h y j = y (fun a => a.elim0) :=
  broadcastInDim_apply _ h y j (fun a => a.elim0) (fun a => a.elim0)

/-- The f32 word of 0.0 denotes zero. -/
theorem ofBits_zero_f32 : Ideal.ofBits .f32 0x00000000#32 = 0 := by
  simp [Ideal.ofBits, Ideal.ieee]

theorem col_apply {α : Type} (v : (⟨1, ![R]⟩ : Shape).Idx → α) (e : Fin R) (u : Fin 1) :
    col fx v (ix2 e u) = v (ix1 e) :=
  column_of_vector_apply v fx.bR_R1 e u

/-- The wrap of one word. -/
def wrapW (N : ℕ) (w : BitVec 32) : BitVec 32 :=
  Scalar.select (IntOp.cmpi .slt w 0#32) (IntOp.addi w (BitVec.ofNat 32 N)) w

theorem wrap_apply (v : IVec ⟨1, ![R]⟩ 32) (i : (⟨1, ![R]⟩ : Shape).Idx) : wrap fx v i = wrapW N (v i) := by
  show Scalar.select (IntOp.cmpi .slt (v i) (broadcastInDim ⟨1, ![R]⟩ ![] fx.bS_R (constantI ⟨0, ![]⟩ 32 0#32) i))
      (IntOp.addi (v i) (broadcastInDim ⟨1, ![R]⟩ ![] fx.bS_R (constantI ⟨0, ![]⟩ 32 (BitVec.ofNat 32 N)) i)) (v i) = _
  rw [scalar_bcast_apply, scalar_bcast_apply]
  rfl

/-- The row a gather through the wrap reads for edge `e`: the wrapped word, signed, clamped into the rows. -/
def rowOf (hN : 0 < N) (v : IVec ⟨1, ![R]⟩ 32) (e : Fin R) : Fin N :=
  ⟨min (wrapW N (v (ix1 e))).toInt.toNat (N - 1), by omega⟩

/-- An edge whose word names the row `n` reads row `n` through the wrap. -/
theorem rowOf_eq (hN : 0 < N) (hN' : N < 2 ^ 31) (v : IVec ⟨1, ![R]⟩ 32) (e : Fin R) (n : Fin N)
    (hw : (v (ix1 e)).toInt = (n.val : Int)) : rowOf hN v e = n :=
  Fin.ext (wrap_clamp_of_toInt_eq hN' (v (ix1 e)) n hw)

/-- The edges that land on node `n`. -/
def inTo (t : IVec ⟨1, ![R]⟩ 32) (n : Fin N) : Finset (Fin R) :=
  Finset.univ.filter fun e => (t (ix1 e)).toInt = (n.val : Int)

theorem eq_vecGatherDims (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) : ∃ wf, d = vecGatherDims N R wf := by
  obtain ⟨o, cs, ob, sb, sm, iv, ss, wf⟩ := d
  dsimp only at h1 h2 h3 h4 h5 h6 h7
  subst h1 h2 h3 h4 h5 h6 h7
  exact ⟨wf, rfl⟩

variable {sdV : ScatterDims ⟨1, ![N]⟩ ⟨2, ![R, 1]⟩ ⟨1, ![R]⟩}
  {gdV : GatherDims ⟨1, ![N]⟩ ⟨2, ![R, 1]⟩ ⟨1, ![R]⟩}
  {gdM : GatherDims ⟨2, ![N, C]⟩ ⟨2, ![R, 1]⟩ ⟨2, ![R, C]⟩}
  {sdM : ScatterDims ⟨2, ![N, C]⟩ ⟨2, ![R, 1]⟩ ⟨2, ![R, C]⟩}

/-- A vector gathered through the wrap, at edge `e`. -/
theorem gatherV_apply (hN : 0 < N) (hg : ∃ wf, gdV = vecGatherDims N R wf) {α : Type}
    (x : (⟨1, ![N]⟩ : Shape).Idx → α) (v : IVec ⟨1, ![R]⟩ 32) (e : Fin R) :
    Host.gather gdV x (col fx (wrap fx v)) (ix1 e) = x (ix1 (rowOf hN v e)) := by
  obtain ⟨wf, rfl⟩ := hg
  rw [gather_vec_apply hN wf]
  refine congrArg x (congrArg ix1 (Fin.ext ?_))
  show min (col fx (wrap fx v) (ix2 e 0)).toInt.toNat (N - 1) = min (wrapW N (v (ix1 e))).toInt.toNat (N - 1)
  rw [col_apply, wrap_apply]

/-- A matrix's rows gathered through the wrap, at `(e, f)`. -/
theorem gatherM_apply (hN : 0 < N) (hg : ∃ wf, gdM = rowGatherDims N R C wf) {α : Type}
    (x : (⟨2, ![N, C]⟩ : Shape).Idx → α) (v : IVec ⟨1, ![R]⟩ 32) (e : Fin R) (f : Fin C) :
    Host.gather gdM x (col fx (wrap fx v)) (ix2 e f) = x (ix2 (rowOf hN v e) f) := by
  obtain ⟨wf, rfl⟩ := hg
  rw [gather_rows_apply hN wf]
  refine congrArg x (congrArg (fun a => ix2 a f) (Fin.ext ?_))
  show min (col fx (wrap fx v) (ix2 e 0)).toInt.toNat (N - 1) = min (wrapW N (v (ix1 e))).toInt.toNat (N - 1)
  rw [col_apply, wrap_apply]

/-- The degree of node `n`, as a value. -/
def degV (t : IVec ⟨1, ![R]⟩ 32) (n : Fin N) : EReal := 0 + ∑ _e ∈ inTo t n, (1 : EReal)

theorem deg_apply (hs : ∃ wf, sdV = vecScatterDims N R wf) (t : IVec ⟨1, ![R]⟩ 32) (n : Fin N) :
    deg fx sdV t (ix1 n) = degV t n := by
  obtain ⟨wf, rfl⟩ := hs
  refine (scatterAdd_vec_apply wf _ _ _ n).trans ?_
  have hz : broadcastInDim ⟨1, ![N]⟩ ![] fx.bS_N (constant (F := Ideal) ⟨0, ![]⟩ .f32 0x00000000#32) (ix1 n) = 0 :=
    (scalar_bcast_apply _ _ _).trans ofBits_zero_f32
  have ho : ∀ e : Fin R,
      broadcastInDim ⟨1, ![R]⟩ ![] fx.bS_R (constant (F := Ideal) ⟨0, ![]⟩ .f32 0x3F800000#32) (ix1 e) = 1 :=
    fun e => (scalar_bcast_apply _ _ _).trans ofBits_one_f32
  rw [hz]
  simp only [ho, col_apply]
  rfl

/-- The normaliser of node `n`, as a value. -/
def dinvV (t : IVec ⟨1, ![R]⟩ 32) (n : Fin N) : EReal :=
  if 0 < degV t n then Ideal.rsqrt (degV t n) else 0

/-- The mean's divisor at node `n`, as a value. -/
def cmaxV (t : IVec ⟨1, ![R]⟩ 32) (n : Fin N) : EReal := max (degV t n) 1

theorem select_ogt_zero (y a b : EReal) : Scalar.select (Ideal.cmp .ogt y 0) a b = if 0 < y then a else b := by
  by_cases h : 0 < y <;> simp [Scalar.select, Ideal.cmp, h]

theorem dinv_apply (hs : ∃ wf, sdV = vecScatterDims N R wf) (t : IVec ⟨1, ![R]⟩ 32) (n : Fin N) :
    dinv fx (deg fx sdV t) (ix1 n) = dinvV t n := by
  show Scalar.select (Ideal.cmp .ogt (deg fx sdV t (ix1 n))
      (broadcastInDim ⟨1, ![N]⟩ ![] fx.bS_N (constant (F := Ideal) ⟨0, ![]⟩ .f32 0x00000000#32) (ix1 n)))
      (Ideal.rsqrt (deg fx sdV t (ix1 n)))
      (broadcastInDim ⟨1, ![N]⟩ ![] fx.bS_N (constant (F := Ideal) ⟨0, ![]⟩ .f32 0x00000000#32) (ix1 n)) = _
  have hz : broadcastInDim ⟨1, ![N]⟩ ![] fx.bS_N (constant (F := Ideal) ⟨0, ![]⟩ .f32 0x00000000#32) (ix1 n) = 0 :=
    (scalar_bcast_apply _ _ _).trans ofBits_zero_f32
  rw [hz, deg_apply fx hs, select_ogt_zero]
  rfl

theorem cmax_apply (hs : ∃ wf, sdV = vecScatterDims N R wf) (t : IVec ⟨1, ![R]⟩ 32) (n : Fin N) :
    cmax fx (deg fx sdV t) (ix1 n) = cmaxV t n := by
  show max (deg fx sdV t (ix1 n))
      (broadcastInDim ⟨1, ![N]⟩ ![] fx.bS_N (constant (F := Ideal) ⟨0, ![]⟩ .f32 0x3F800000#32) (ix1 n)) = _
  have ho : broadcastInDim ⟨1, ![N]⟩ ![] fx.bS_N (constant (F := Ideal) ⟨0, ![]⟩ .f32 0x3F800000#32) (ix1 n) = 1 :=
    (scalar_bcast_apply _ _ _).trans ofBits_one_f32
  rw [ho, deg_apply fx hs]
  rfl

/-- The symmetric coefficient of edge `e`, as a value. -/
def coefV (hN : 0 < N) (s t : IVec ⟨1, ![R]⟩ 32) (e : Fin R) : EReal :=
  dinvV t (rowOf hN s e) * dinvV t (rowOf hN t e)

theorem coef_apply (hN : 0 < N) (hs : ∃ wf, sdV = vecScatterDims N R wf) (hg : ∃ wf, gdV = vecGatherDims N R wf)
    (s t : IVec ⟨1, ![R]⟩ 32) (e : Fin R) :
    coef fx gdV (dinv fx (deg fx sdV t)) s t (ix1 e) = coefV hN s t e := by
  show Host.gather gdV (dinv fx (deg fx sdV t)) (col fx (wrap fx s)) (ix1 e)
      * Host.gather gdV (dinv fx (deg fx sdV t)) (col fx (wrap fx t)) (ix1 e) = _
  rw [gatherV_apply fx hN hg, gatherV_apply fx hN hg, dinv_apply fx hs, dinv_apply fx hs]
  rfl

theorem coefK_apply (hN : 0 < N) (hs : ∃ wf, sdV = vecScatterDims N R wf) (hg : ∃ wf, gdV = vecGatherDims N R wf)
    (s t : IVec ⟨1, ![R]⟩ 32) (e : Fin R) :
    coefK fx gdV (dinv fx (deg fx sdV t)) (cmax fx (deg fx sdV t)) s t (ix1 e)
      = Ideal.div (coefV hN s t e) (cmaxV t (rowOf hN t e)) := by
  show Ideal.div (coef fx gdV (dinv fx (deg fx sdV t)) s t (ix1 e))
      (Host.gather gdV (cmax fx (deg fx sdV t)) (col fx (wrap fx t)) (ix1 e)) = _
  rw [coef_apply fx hN hs hg, gatherV_apply fx hN hg, cmax_apply fx hs]

/-- The scatter-added messages at `(n, f)`: a sum over the edges that land on `n`. -/
theorem aggOf_apply (hN : 0 < N) (hg : ∃ wf, gdM = rowGatherDims N R C wf) (hs : ∃ wf, sdM = rowScatterDims N R C wf)
    (h : FVec Ideal ⟨2, ![N, C]⟩ .f32) (s t : IVec ⟨1, ![R]⟩ 32) (cf : FVec Ideal ⟨1, ![R]⟩ .f32) (n : Fin N) (f : Fin C) :
    aggOf fx gdM sdM h s t cf (ix2 n f) = 0 + ∑ e ∈ inTo t n, h (ix2 (rowOf hN s e) f) * cf (ix1 e) := by
  obtain ⟨wf, rfl⟩ := hs
  refine (scatterAdd_rows_apply wf _ _ _ n f).trans ?_
  have hz : broadcastInDim ⟨2, ![N, C]⟩ ![] fx.bS_NC (constant (F := Ideal) ⟨0, ![]⟩ .f32 0x00000000#32) (ix2 n f) = 0 :=
    (scalar_bcast_apply _ _ _).trans ofBits_zero_f32
  have hm : ∀ e : Fin R,
      mulf (F := Ideal) (φ := .f32) (Host.gather gdM h (col fx (wrap fx s)))
        (broadcastInDim ⟨2, ![R, C]⟩ ![0, 1] fx.bR1_RC (col fx cf)) (ix2 e f)
        = h (ix2 (rowOf hN s e) f) * cf (ix1 e) := fun e => by
    show Host.gather gdM h (col fx (wrap fx s)) (ix2 e f)
        * broadcastInDim ⟨2, ![R, C]⟩ ![0, 1] fx.bR1_RC (col fx cf) (ix2 e f) = _
    rw [gatherM_apply fx hN hg, column_broadcast_apply, col_apply]
  rw [hz]
  simp only [hm, col_apply]
  rfl

end Reads

/-! ## The two arrangements are one array; its entries are reals when the features' are -/

section Main

variable {N R C : ℕ}

/-- THE TWO ARRANGEMENTS AGREE, on all extended reals, whatever facts and records each side cites. -/
theorem kagg_eq_ragg (hN : 0 < N) (hN' : N < 2 ^ 31) (fx fx' : Facts N R C)
    (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    {sdV sdV' : ScatterDims ⟨1, ![N]⟩ ⟨2, ![R, 1]⟩ ⟨1, ![R]⟩}
    {gdV gdV' : GatherDims ⟨1, ![N]⟩ ⟨2, ![R, 1]⟩ ⟨1, ![R]⟩}
    {gdM gdM' : GatherDims ⟨2, ![N, C]⟩ ⟨2, ![R, 1]⟩ ⟨2, ![R, C]⟩}
    {sdM sdM' : ScatterDims ⟨2, ![N, C]⟩ ⟨2, ![R, 1]⟩ ⟨2, ![R, C]⟩}
    (hsV : ∃ wf, sdV = vecScatterDims N R wf) (hsV' : ∃ wf, sdV' = vecScatterDims N R wf)
    (hgV : ∃ wf, gdV = vecGatherDims N R wf) (hgV' : ∃ wf, gdV' = vecGatherDims N R wf)
    (hgM : ∃ wf, gdM = rowGatherDims N R C wf) (hgM' : ∃ wf, gdM' = rowGatherDims N R C wf)
    (hsM : ∃ wf, sdM = rowScatterDims N R C wf) (hsM' : ∃ wf, sdM' = rowScatterDims N R C wf)
    (h : FVec Ideal ⟨2, ![N, C]⟩ .f32) (s t : IVec ⟨1, ![R]⟩ 32) :
    kagg fx sdV gdV gdM sdM h s t = ragg fx' sdV' gdV' gdM' sdM' bN_N1 bN1_NC h s t := by
  funext i
  obtain ⟨n, f, rfl⟩ : ∃ (n : Fin N) (f : Fin C), i = ix2 n f := ⟨i 0, i 1, eq_ix2 i⟩
  show aggOf fx gdM sdM h s t (coefK fx gdV (dinv fx (deg fx sdV t)) (cmax fx (deg fx sdV t)) s t) (ix2 n f)
      = Ideal.div (aggOf fx' gdM' sdM' h s t (coef fx' gdV' (dinv fx' (deg fx' sdV' t)) s t) (ix2 n f))
          (broadcastInDim ⟨2, ![N, C]⟩ ![0, 1] bN1_NC
            (broadcastInDim ⟨2, ![N, 1]⟩ ![0] bN_N1 (cmax fx' (deg fx' sdV' t))) (ix2 n f))
  rw [aggOf_apply fx hN hgM hsM, aggOf_apply fx' hN hgM' hsM', column_broadcast_apply, column_of_vector_apply,
    cmax_apply fx' hsV']
  simp only [coefK_apply fx hN hsV hgV, coef_apply fx' hN hsV' hgV']
  refine sum_div_law (inTo t n) (cmaxV t n) (le_max_right _ _) _ _ (fun e => cmaxV t (rowOf hN t e)) fun e he => ?_
  rw [rowOf_eq hN hN' t e n (Finset.mem_filter.mp he).2]

/-- The degree is a count of ones: a real. -/
theorem degV_real (t : IVec ⟨1, ![R]⟩ 32) (n : Fin N) : IsR (degV t n) :=
  IsR.zero.add (IsR.sum _ _ fun _ _ => IsR.one)

theorem dinvV_real (t : IVec ⟨1, ![R]⟩ 32) (n : Fin N) : IsR (dinvV t n) :=
  IsR.of_range (guarded_rsqrt_range _).1 (guarded_rsqrt_range _).2

theorem cmaxV_real (t : IVec ⟨1, ![R]⟩ 32) (n : Fin N) : IsR (cmaxV t n) := by
  obtain ⟨r, hr⟩ := degV_real t n
  unfold cmaxV
  rw [hr, ← EReal.coe_one, ← EReal.coe_strictMono.monotone.map_max]
  exact ⟨_, rfl⟩

/-- The dividing-after arrangement at `(n, f)`, as a value. -/
theorem ragg_apply (hN : 0 < N) (fx : Facts N R C)
    (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    {sdV : ScatterDims ⟨1, ![N]⟩ ⟨2, ![R, 1]⟩ ⟨1, ![R]⟩} {gdV : GatherDims ⟨1, ![N]⟩ ⟨2, ![R, 1]⟩ ⟨1, ![R]⟩}
    {gdM : GatherDims ⟨2, ![N, C]⟩ ⟨2, ![R, 1]⟩ ⟨2, ![R, C]⟩} {sdM : ScatterDims ⟨2, ![N, C]⟩ ⟨2, ![R, 1]⟩ ⟨2, ![R, C]⟩}
    (hsV : ∃ wf, sdV = vecScatterDims N R wf) (hgV : ∃ wf, gdV = vecGatherDims N R wf)
    (hgM : ∃ wf, gdM = rowGatherDims N R C wf) (hsM : ∃ wf, sdM = rowScatterDims N R C wf)
    (h : FVec Ideal ⟨2, ![N, C]⟩ .f32) (s t : IVec ⟨1, ![R]⟩ 32) (n : Fin N) (f : Fin C) :
    ragg fx sdV gdV gdM sdM bN_N1 bN1_NC h s t (ix2 n f)
      = Ideal.div (0 + ∑ e ∈ inTo t n, h (ix2 (rowOf hN s e) f) * coefV hN s t e) (cmaxV t n) := by
  show Ideal.div (aggOf fx gdM sdM h s t (coef fx gdV (dinv fx (deg fx sdV t)) s t) (ix2 n f))
      (broadcastInDim ⟨2, ![N, C]⟩ ![0, 1] bN1_NC
        (broadcastInDim ⟨2, ![N, 1]⟩ ![0] bN_N1 (cmax fx (deg fx sdV t))) (ix2 n f)) = _
  rw [aggOf_apply fx hN hgM hsM, column_broadcast_apply, column_of_vector_apply, cmax_apply fx hsV]
  simp only [coef_apply fx hN hsV hgV]

/-- EVERY ENTRY OF THE AGGREGATE IS A REAL when every entry of the features is. -/
theorem ragg_real (hN : 0 < N) (fx : Facts N R C)
    (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    {sdV : ScatterDims ⟨1, ![N]⟩ ⟨2, ![R, 1]⟩ ⟨1, ![R]⟩} {gdV : GatherDims ⟨1, ![N]⟩ ⟨2, ![R, 1]⟩ ⟨1, ![R]⟩}
    {gdM : GatherDims ⟨2, ![N, C]⟩ ⟨2, ![R, 1]⟩ ⟨2, ![R, C]⟩} {sdM : ScatterDims ⟨2, ![N, C]⟩ ⟨2, ![R, 1]⟩ ⟨2, ![R, C]⟩}
    (hsV : ∃ wf, sdV = vecScatterDims N R wf) (hgV : ∃ wf, gdV = vecGatherDims N R wf)
    (hgM : ∃ wf, gdM = rowGatherDims N R C wf) (hsM : ∃ wf, sdM = rowScatterDims N R C wf)
    (h : FVec Ideal ⟨2, ![N, C]⟩ .f32) (s t : IVec ⟨1, ![R]⟩ 32) (hh : ∀ i, IsR (h i)) (i : (⟨2, ![N, C]⟩ : Shape).Idx) :
    IsR (ragg fx sdV gdV gdM sdM bN_N1 bN1_NC h s t i) := by
  obtain ⟨n, f, rfl⟩ : ∃ (n : Fin N) (f : Fin C), i = ix2 n f := ⟨i 0, i 1, eq_ix2 i⟩
  rw [ragg_apply hN fx bN_N1 bN1_NC hsV hgV hgM hsM]
  have hsum : IsR (0 + ∑ e ∈ inTo t n, h (ix2 (rowOf hN s e) f) * coefV hN s t e) :=
    IsR.zero.add (IsR.sum _ _ fun e _ => (hh _).mul ((dinvV_real t _).mul (dinvV_real t _)))
  exact IsR.div_of_one_le hsum (cmaxV_real t n) (le_max_right _ _)

/-- A contraction of two arrays of reals, started from zero, is an array of reals. -/
theorem matmul_real {sl sr so : Shape} (d : DotDims sl sr so) (l : sl.Idx → EReal) (r : sr.Idx → EReal)
    (hl : ∀ i, IsR (l i)) (hr : ∀ i, IsR (r i)) (j : so.Idx) : IsR (Ideal.matmul d l r (fun _ => 0) j) :=
  IsR.zero.add (IsR.sum _ _ fun k _ => (hl _).mul (hr _))

end Main

end Cert.Lib.MeanGcn

end
-- ==== Proof.TgcnChain.lean ====
/-
  THE SYMMETRICALLY NORMALISED GRAPH CONVOLUTION WITH AN IMPLICIT SELF LOOP, as the host spells it, over arbitrary
  extents: `N` nodes, `R` edges, `C` features. Nothing here mentions a program.

  From a source word `s e` and a target word `t e` per edge (32-bit, read signed), the in-degree of node `n` is
  `deg n = 0 + Σ_{e : t e = n} 1` and the normaliser is `d n = 1 / √(deg n + 1)`: the added one counts the node's own
  loop, so the root is taken of a real that is at least one and no guard is needed. An edge weighs
  `w e = d (row s e) · d (row t e)`, a node's own loop weighs `d n · d n`, and the aggregate is

    agg (n, f) = 0 + Σ_{e : t e = n} cf e · h (row s e, f)

  where `row v e` is the row a gather reads for the word `v e` (the extent added where it is negative, then clamped).
  Each operation is read at an index; the degree is a count, hence a real that is not negative, so the normaliser and
  both weights are reals.
-/
import proofs.«104820_j11836929868497_2_alg».proof.Proof.LibMeanGcn

noncomputable section

open scoped BigOperators

namespace Cert.Tgcn.Chain

open Idealize.ShloMosaic Idealize.ShloMosaic.ValueIdx Cert.Lib.HostIndex Cert.Lib.EdgeReads Cert.Lib.MeanAgg Cert.Gcn
  Cert.Lib.MeanGcn

/-! ## The operations, as the host spells them -/

section Defs

variable {N R C : ℕ} (fx : Facts N R C)
  (sdV : ScatterDims ⟨1, ![N]⟩ ⟨2, ![R, 1]⟩ ⟨1, ![R]⟩)
  (gdV : GatherDims ⟨1, ![N]⟩ ⟨2, ![R, 1]⟩ ⟨1, ![R]⟩)
  (gdM : GatherDims ⟨2, ![N, C]⟩ ⟨2, ![R, 1]⟩ ⟨2, ![R, C]⟩)
  (sdM : ScatterDims ⟨2, ![N, C]⟩ ⟨2, ![R, 1]⟩ ⟨2, ![R, C]⟩)

/-- The normaliser: the reciprocal root of the degree plus one. -/
def dnorm (t : IVec ⟨1, ![R]⟩ 32) : FVec Ideal ⟨1, ![N]⟩ .f32 :=
  Host.rsqrt (addf (deg fx sdV t)
    (broadcastInDim ⟨1, ![N]⟩ ![] fx.bS_N (constant (F := Ideal) ⟨0, ![]⟩ .f32 0x3F800000#32)))

/-- The weight of an edge: the normalisers gathered at its two ends, multiplied. -/
def edgeW (s t : IVec ⟨1, ![R]⟩ 32) : FVec Ideal ⟨1, ![R]⟩ .f32 :=
  coef fx gdV (dnorm fx sdV t) s t

/-- The weight of a node's own loop: its normaliser squared. -/
def selfW (t : IVec ⟨1, ![R]⟩ 32) : FVec Ideal ⟨1, ![N]⟩ .f32 :=
  mulf (dnorm fx sdV t) (dnorm fx sdV t)

/-- The messages `cf · h[src]` scatter-added at the target words into zeros. -/
def msgAgg (h : FVec Ideal ⟨2, ![N, C]⟩ .f32) (s t : IVec ⟨1, ![R]⟩ 32) (cf : FVec Ideal ⟨1, ![R]⟩ .f32) :
    FVec Ideal ⟨2, ![N, C]⟩ .f32 :=
  Host.scatterAdd (F := Ideal) sdM
    (broadcastInDim ⟨2, ![N, C]⟩ ![] fx.bS_NC (constant (F := Ideal) ⟨0, ![]⟩ .f32 0x00000000#32))
    (col fx t)
    (mulf (broadcastInDim ⟨2, ![R, C]⟩ ![0, 1] fx.bR1_RC (col fx cf)) (Host.gather gdM h (col fx (wrap fx s))))

end Defs

/-! ## The same, as numbers -/

section Values

variable {N R : ℕ}

/-- The normaliser of node `n`. -/
def dnormV (t : IVec ⟨1, ![R]⟩ 32) (n : Fin N) : EReal := Ideal.rsqrt (degV t n + 1)

/-- The weight of edge `e`. -/
def edgeWV (hN : 0 < N) (s t : IVec ⟨1, ![R]⟩ 32) (e : Fin R) : EReal :=
  dnormV t (rowOf hN s e) * dnormV t (rowOf hN t e)

/-- The weight of node `n`'s own loop. -/
def selfWV (t : IVec ⟨1, ![R]⟩ 32) (n : Fin N) : EReal := dnormV t n * dnormV t n

/-- An edge is among those that land on `n` exactly when its target word, read signed, is `n`. -/
theorem mem_inTo (t : IVec ⟨1, ![R]⟩ 32) (n : Fin N) (e : Fin R) :
    e ∈ inTo t n ↔ (t (ix1 e)).toInt = (n.val : Int) :=
  ⟨fun h => (Finset.mem_filter.mp h).2, fun h => Finset.mem_filter.mpr ⟨Finset.mem_univ e, h⟩⟩

end Values

/-! ## The operations read at an index -/

section Reads

variable {N R C : ℕ} (fx : Facts N R C)
  {sdV : ScatterDims ⟨1, ![N]⟩ ⟨2, ![R, 1]⟩ ⟨1, ![R]⟩}
  {gdV : GatherDims ⟨1, ![N]⟩ ⟨2, ![R, 1]⟩ ⟨1, ![R]⟩}
  {gdM : GatherDims ⟨2, ![N, C]⟩ ⟨2, ![R, 1]⟩ ⟨2, ![R, C]⟩}
  {sdM : ScatterDims ⟨2, ![N, C]⟩ ⟨2, ![R, 1]⟩ ⟨2, ![R, C]⟩}

theorem dnorm_apply (hs : ∃ wf, sdV = vecScatterDims N R wf) (t : IVec ⟨1, ![R]⟩ 32) (n : Fin N) :
    dnorm fx sdV t (ix1 n) = dnormV t n := by
  show Ideal.rsqrt (deg fx sdV t (ix1 n)
      + broadcastInDim ⟨1, ![N]⟩ ![] fx.bS_N (constant (F := Ideal) ⟨0, ![]⟩ .f32 0x3F800000#32) (ix1 n)) = _
  have ho : broadcastInDim ⟨1, ![N]⟩ ![] fx.bS_N (constant (F := Ideal) ⟨0, ![]⟩ .f32 0x3F800000#32) (ix1 n) = 1 :=
    (scalar_bcast_apply _ _ _).trans ofBits_one_f32
  rw [ho, deg_apply fx hs]
  rfl

theorem edgeW_apply (hN : 0 < N) (hs : ∃ wf, sdV = vecScatterDims N R wf) (hg : ∃ wf, gdV = vecGatherDims N R wf)
    (s t : IVec ⟨1, ![R]⟩ 32) (e : Fin R) :
    edgeW fx sdV gdV s t (ix1 e) = edgeWV hN s t e := by
  show Host.gather gdV (dnorm fx sdV t) (col fx (wrap fx s)) (ix1 e)
      * Host.gather gdV (dnorm fx sdV t) (col fx (wrap fx t)) (ix1 e) = _
  rw [gatherV_apply fx hN hg, gatherV_apply fx hN hg, dnorm_apply fx hs, dnorm_apply fx hs]
  rfl

theorem selfW_apply (hs : ∃ wf, sdV = vecScatterDims N R wf) (t : IVec ⟨1, ![R]⟩ 32) (n : Fin N) :
    selfW fx sdV t (ix1 n) = selfWV t n := by
  show dnorm fx sdV t (ix1 n) * dnorm fx sdV t (ix1 n) = _
  rw [dnorm_apply fx hs]
  rfl

/-- The scatter-added messages at `(n, f)`: a sum over the edges that land on `n`. -/
theorem msgAgg_apply (hN : 0 < N) (hg : ∃ wf, gdM = rowGatherDims N R C wf) (hs : ∃ wf, sdM = rowScatterDims N R C wf)
    (h : FVec Ideal ⟨2, ![N, C]⟩ .f32) (s t : IVec ⟨1, ![R]⟩ 32) (cf : FVec Ideal ⟨1, ![R]⟩ .f32) (n : Fin N) (f : Fin C) :
    msgAgg fx gdM sdM h s t cf (ix2 n f) = 0 + ∑ e ∈ inTo t n, cf (ix1 e) * h (ix2 (rowOf hN s e) f) := by
  obtain ⟨wf, rfl⟩ := hs
  refine (scatterAdd_rows_apply wf _ _ _ n f).trans ?_
  have hz : broadcastInDim ⟨2, ![N, C]⟩ ![] fx.bS_NC (constant (F := Ideal) ⟨0, ![]⟩ .f32 0x00000000#32) (ix2 n f) = 0 :=
    (scalar_bcast_apply _ _ _).trans ofBits_zero_f32
  have hm : ∀ e : Fin R,
      mulf (F := Ideal) (φ := .f32) (broadcastInDim ⟨2, ![R, C]⟩ ![0, 1] fx.bR1_RC (col fx cf))
        (Host.gather gdM h (col fx (wrap fx s))) (ix2 e f)
        = cf (ix1 e) * h (ix2 (rowOf hN s e) f) := fun e => by
    show broadcastInDim ⟨2, ![R, C]⟩ ![0, 1] fx.bR1_RC (col fx cf) (ix2 e f)
        * Host.gather gdM h (col fx (wrap fx s)) (ix2 e f) = _
    rw [gatherM_apply fx hN hg, column_broadcast_apply, col_apply]
  rw [hz]
  simp only [hm, col_apply]
  rfl

end Reads

/-! ## The normaliser and the weights are reals -/

section Reals

variable {N R : ℕ}

/-- The degree is a count: it is not negative. -/
theorem degV_nonneg (t : IVec ⟨1, ![R]⟩ 32) (n : Fin N) : 0 ≤ degV t n := by
  unfold degV
  rw [zero_add]
  exact Finset.sum_nonneg fun _ _ => zero_le_one

/-- The reciprocal root of a real that is at least one is a real. -/
theorem dnormV_real (t : IVec ⟨1, ![R]⟩ 32) (n : Fin N) : IsR (dnormV t n) := by
  obtain ⟨r, hr⟩ := degV_real t n
  have h0 : 0 ≤ degV t n := degV_nonneg t n
  rw [hr] at h0
  have hr0 : 0 ≤ r := by exact_mod_cast h0
  have hp : 0 < r + 1 := by linarith
  have e1 : (r : EReal) + 1 = ((r + 1 : ℝ) : EReal) := by rw [EReal.coe_add, EReal.coe_one]
  unfold dnormV
  rw [hr, e1, Ideal.rsqrt_coe, if_neg (not_lt.mpr hp.le), if_neg hp.ne']
  exact ⟨_, rfl⟩

theorem edgeWV_real (hN : 0 < N) (s t : IVec ⟨1, ![R]⟩ 32) (e : Fin R) : IsR (edgeWV hN s t e) :=
  (dnormV_real t _).mul (dnormV_real t _)

theorem selfWV_real (t : IVec ⟨1, ![R]⟩ 32) (n : Fin N) : IsR (selfWV t n) :=
  (dnormV_real t n).mul (dnormV_real t n)

end Reals

end Cert.Tgcn.Chain

end
-- ==== Proof.LibRowGatherDims.lean ====
/-
  A gather's dimension numbers are determined by their seven data fields: a record over the row-gather shapes whose
  offset axis is 1, whose collapsed axis is 0, with no batching axes, whose start index names operand axis 0, whose
  index vector is axis 1 and whose slice is one whole row IS the row gather's record (the remaining field is a proof).

  Hence the host's row gather, for ANY such record and any extents, read at an element: element `(e, c)` of the result is
  the operand at column `c` of the row the index word of `e` names, that word read as a signed integer and clamped into
  `[0, N − 1]`.
-/
import proofs.«104820_j11836929868497_2_alg».proof.Proof.LibHostIndex

noncomputable section

namespace Cert.Lib.HostIndex

open Idealize.ShloMosaic Idealize.ShloMosaic.ValueIdx

theorem eq_rowGatherDims {N R C : Nat} (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) : ∃ wf, d = rowGatherDims N R C wf := by
  obtain ⟨o, cs, ob, sb, sm, iv, ss, wf⟩ := d
  dsimp only at h1 h2 h3 h4 h5 h6 h7
  subst h1 h2 h3 h4 h5 h6 h7
  exact ⟨wf, rfl⟩

/-- THE HOST'S ROW GATHER OF ANY RECORD WITH THE ROW NUMBERS, READ AT `(e, c)`: the operand at the row the index of
    `e` names (signed, clamped into `[0, N − 1]`) and column `c`. -/
theorem hostGather_rows_apply {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (e : Fin R) (c : Fin C) :
    Host.gather d x idx (ix2 e c)
      = x (ix2 ⟨min (idx (ix2 e 0)).toInt.toNat (N - 1), by omega⟩ c) := by
  obtain ⟨wf, rfl⟩ := eq_rowGatherDims d h1 h2 h3 h4 h5 h6 h7
  exact gather_rows_apply hN wf x idx e c

end Cert.Lib.HostIndex

end
-- ==== Proof.KernelHost.lean ====
/-
  The arrays the kernel's windows are cut from, as the host operations before the launch leave them: each as one term
  of the program's arguments.

  The aggregated features are the weighted neighbour sum of the features themselves (edge weights from the degrees'
  reciprocal roots); the self-loop weights are a column; the three projection matrices stand side by side in one
  [128, 384] matrix; each bias vector is a [1, 128] row; each gate matrix is cut into its top and bottom halves. The
  changes of float format in between are the identity on the extended reals and are kept as written here.
-/
import proofs.«104820_j11836929868497_2_alg».proof.Proof.FrameIdealDefs
import proofs.«104820_j11836929868497_2_alg».proof.Proof.TgcnChain
import proofs.«104820_j11836929868497_2_alg».proof.Proof.LibRowGatherDims
import proofs.«104820_j11836929868497_2_alg».proof.Proof.LibScatterDims
import Idealize.ShloMosaic.Lib.ValueIdx
import Idealize.ShloMosaic.Lib.StableHlo.Run

set_option maxRecDepth 16384

noncomputable section

namespace Cert.Tgcn.KHost

open Cert.KernelIdeal Cert.KernelIdeal.Gen Cert.KernelIdeal.Hand
open Idealize.ShloMosaic Idealize.ShloMosaic.TcCoe Idealize.SL.Sem Idealize.ShloMosaic.StableHlo
open Cert.Lib.MeanGcn Cert.Lib.HostIndex Cert.Lib.MeanAgg Cert.Tgcn.Chain

/-- The shape facts the chain's layout operations cite, at this program's extents. -/
theorem fx : Facts 100000 1600000 128 :=
  ⟨Gen.bcast_S_S1600000, Gen.bcast_S_S100000, Gen.bcast_S_S100000x128, Gen.bcast_S1600000_S1600000x1_0,
    Gen.bcast_S1600000x1_S1600000x128_0_1⟩

/-- The degree's scatter, the normaliser's gather, the features' gather and the messages' scatter, as printed. -/
abbrev sdV : ScatterDims ⟨1, ![100000]⟩ ⟨2, ![1600000, 1]⟩ ⟨1, ![1600000]⟩ := scatter_S100000_S1600000x1_S1600000_n_0_0_1
abbrev gdV : GatherDims ⟨1, ![100000]⟩ ⟨2, ![1600000, 1]⟩ ⟨1, ![1600000]⟩ := gather_S100000_S1600000x1_S1600000_n_0_n_n_0_1_1
abbrev gdM : GatherDims ⟨2, ![100000, 128]⟩ ⟨2, ![1600000, 1]⟩ ⟨2, ![1600000, 128]⟩ :=
  gather_S100000x128_S1600000x1_S1600000x128_1_0_n_n_0_1_1128
abbrev sdM : ScatterDims ⟨2, ![100000, 128]⟩ ⟨2, ![1600000, 1]⟩ ⟨2, ![1600000, 128]⟩ :=
  scatter_S100000x128_S1600000x1_S1600000x128_1_0_0_1

theorem hsV : ∃ wf, sdV = vecScatterDims 100000 1600000 wf := eq_vecScatterDims _ rfl rfl rfl rfl
theorem hgV : ∃ wf, gdV = vecGatherDims 100000 1600000 wf := eq_vecGatherDims _ rfl rfl rfl rfl rfl rfl rfl
theorem hgM : ∃ wf, gdM = rowGatherDims 100000 1600000 128 wf := eq_rowGatherDims _ rfl rfl rfl rfl rfl rfl rfl
theorem hsM : ∃ wf, sdM = rowScatterDims 100000 1600000 128 wf := eq_rowScatterDims _ rfl rfl rfl rfl

/-- The source words and the target words: the two rows of the edge list. -/
def srcW (a1 : IVec S2x1600000 32) : IVec ⟨1, ![1600000]⟩ 32 :=
  shapeCast S1600000 (extractStridedSlice S1x1600000 ![0, 0] a1 Gen.slices_S2x1600000_S1x1600000_0_0)
    Gen.shapeCasts_S1x1600000_S1600000
def dstW (a1 : IVec S2x1600000 32) : IVec ⟨1, ![1600000]⟩ 32 :=
  shapeCast S1600000 (extractStridedSlice S1x1600000 ![1, 0] a1 Gen.slices_S2x1600000_S1x1600000_1_0)
    Gen.shapeCasts_S1x1600000_S1600000

variable (m : (ℓ : Loc nD τ sig) → Buf (Elt Ideal) ℓ) (c : Dev nD)

/-- The program's arguments on core `c`, as launched. -/
abbrev A0 : S100000x128.Idx → EReal := m ((c : Thread nD τ).loc main_arg0)
abbrev A1 : IVec S2x1600000 32 := m ((c : Thread nD τ).loc main_arg1)
abbrev A2 : S100000x128.Idx → EReal := m ((c : Thread nD τ).loc main_arg2)
abbrev A3 : S128x128.Idx → EReal := m ((c : Thread nD τ).loc main_arg3)
abbrev A4 : S128.Idx → EReal := m ((c : Thread nD τ).loc main_arg4)
abbrev A5 : S128x128.Idx → EReal := m ((c : Thread nD τ).loc main_arg5)
abbrev A6 : S128.Idx → EReal := m ((c : Thread nD τ).loc main_arg6)
abbrev A7 : S128x128.Idx → EReal := m ((c : Thread nD τ).loc main_arg7)
abbrev A8 : S128.Idx → EReal := m ((c : Thread nD τ).loc main_arg8)
abbrev A9 : S256x128.Idx → EReal := m ((c : Thread nD τ).loc main_arg9)
abbrev A10 : S128.Idx → EReal := m ((c : Thread nD τ).loc main_arg10)
abbrev A11 : S256x128.Idx → EReal := m ((c : Thread nD τ).loc main_arg11)
abbrev A12 : S128.Idx → EReal := m ((c : Thread nD τ).loc main_arg12)
abbrev A13 : S256x128.Idx → EReal := m ((c : Thread nD τ).loc main_arg13)
abbrev A14 : S128.Idx → EReal := m ((c : Thread nD τ).loc main_arg14)

open Idealize.ShloMosaic.ValueIdx

theorem hN : 0 < 100000 := by decide

set_option maxHeartbeats 40000000 in
/-- Window 3's array: the self-loop weights as a column. -/
theorem V_v40 : (V m c main_v40 : S100000x1.Idx → EReal)
    = broadcastInDim S100000x1 ![0] Gen.bcast_S100000_S100000x1_0 (selfW fx sdV (dstW (A1 m c))) := by
  dsimp only [V, hostOps0]; after_results
  unfold selfW dnorm deg col dstW
  rfl

/-- The self-loop weight of node `n`. -/
theorem read_v40 (n : Fin 100000) :
    (V m c main_v40 : S100000x1.Idx → EReal) (ix2 n (0 : Fin 1)) = selfWV (dstW (A1 m c)) n := by
  rw [V_v40, Cert.Lib.EdgeReads.column_of_vector_apply, selfW_apply fx hsV]

end Cert.Tgcn.KHost

end
-- ==== Proof.TgcnSpec.lean ====
/-
  A gated graph-convolution cell over the extended reals, in two arrangements, with nothing here mentioning a program.

  Nodes `n`, edges `e`; `S n` is the set of edges whose message lands on node `n`, `src e` the node an edge reads,
  `w e` its weight and `d2 n` the weight of node `n`'s self loop. For features `Y` the neighbour sum is
  `aggr Y (n, c) = 0 + Σ_{e ∈ S n} w e · Y (src e, c)`.

  One arrangement projects first and aggregates the projection:
      convRef (n, j) = (aggr (X·W) (n, j) + d2 n · (X·W) (n, j)) + b j .
  The other aggregates the features themselves, completes the sum with the self loop and projects once:
      convKer (n, j) = (Σ_k (aggr X (n, k) + d2 n · X (n, k)) · W (k, j)) + b j .
  They agree whenever the features, the weights of the projection, the edge weights and the self-loop weights are real
  numbers: over the reals a finite sum commutes with the contraction and the product distributes over it. (On the
  extended reals the products do not distribute over sums that hold infinities of both signs, so finiteness is needed.)

  A gate is an affine map of the concatenated row `[A n | B n]` of width 256 into width 128. A sum over 256 terms is
  the sum over its first 128 plus the sum over its last 128, on any extended reals, so the gate equals the sum of two
  contractions with the top and the bottom half of its matrix.

  The cell: `U = σ(gate_u [Zu | H])`, `R = σ(gate_r [Zr | H])`, `C = tanh(gate_c [Zc | H ⊙ R])`, and the new state
  `U ⊙ H + (1 − U) ⊙ C`. Row `n` of the new state depends on row `n` of `Zu, Zr, Zc, H` only.
-/
import Idealize.ShloMosaic.PureOps.Ideal
import proofs.«104820_j11836929868497_2_alg».proof.Proof.LibMeanGcn

noncomputable section

open scoped BigOperators

namespace Cert.Tgcn

open Idealize.ShloMosaic Cert.Lib.MeanGcn

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Conv

variable {E N K J : Type} [Fintype K]

/-- The neighbour sum of `Y` at node `n`, feature `c`, from zero. -/
def aggr {C : Type} (S : N → Finset E) (w : E → EReal) (src : E → N) (Y : N → C → EReal) (n : N) (c : C) : EReal :=
  0 + ∑ e ∈ S n, w e * Y (src e) c

/-- The projection `X · W`. -/
def proj (X : N → K → EReal) (W : K → J → EReal) (n : N) (j : J) : EReal := ∑ k, X n k * W k j

/-- Project, aggregate the projection, add the self loop, add the bias. -/
def convRef (S : N → Finset E) (w : E → EReal) (src : E → N) (d2 : N → EReal) (X : N → K → EReal) (W : K → J → EReal)
    (b : J → EReal) (n : N) (j : J) : EReal :=
  (aggr S w src (proj X W) n j + d2 n * proj X W n j) + b j

/-- Aggregate the features, add the self loop, project once, add the bias. -/
def convKer (S : N → Finset E) (w : E → EReal) (src : E → N) (d2 : N → EReal) (X : N → K → EReal) (W : K → J → EReal)
    (b : J → EReal) (n : N) (j : J) : EReal :=
  (∑ k, (aggr S w src X n k + d2 n * X n k) * W k j) + b j

/-- Over the reals the contraction commutes with the neighbour sum and with the self-loop factor. -/
theorem conv_real (T : Finset E) (w : E → ℝ) (src : E → N) (d : ℝ) (X : N → K → ℝ) (W : K → J → ℝ) (n : N) (j : J) :
    ∑ k, ((∑ e ∈ T, w e * X (src e) k) + d * X n k) * W k j
      = (∑ e ∈ T, w e * ∑ k, X (src e) k * W k j) + d * ∑ k, X n k * W k j := by
  have h1 : ∑ k, (∑ e ∈ T, w e * X (src e) k) * W k j = ∑ e ∈ T, w e * ∑ k, X (src e) k * W k j := by
    simp only [Finset.sum_mul, Finset.mul_sum]
    rw [Finset.sum_comm]
    exact Finset.sum_congr rfl fun e _ => Finset.sum_congr rfl fun k _ => by ring
  have h2 : ∑ k, d * X n k * W k j = d * ∑ k, X n k * W k j := by
    rw [Finset.mul_sum]; exact Finset.sum_congr rfl fun k _ => by ring
  simp only [add_mul, Finset.sum_add_distrib, h1, h2]

/-- THE TWO ARRANGEMENTS OF A CONVOLUTION AGREE ON REAL ENTRIES. -/
theorem conv_eq (S : N → Finset E) (w : E → EReal) (src : E → N) (d2 : N → EReal) (X : N → K → EReal)
    (W : K → J → EReal) (b : J → EReal) (hX : ∀ n k, IsR (X n k)) (hW : ∀ k j, IsR (W k j)) (hw : ∀ e, IsR (w e))
    (hd : ∀ n, IsR (d2 n)) : convKer S w src d2 X W b = convRef S w src d2 X W b := by
  funext n j
  choose Xr hXr using hX
  choose Wr hWr using hW
  choose wr hwr using hw
  choose dr hdr using hd
  unfold convKer convRef aggr proj
  congr 1
  simp only [hXr, hWr, hwr, hdr, zero_add, ← EReal.coe_mul, ← coe_sum, ← EReal.coe_add]
  exact congrArg _ (conv_real (S n) wr src (dr n) Xr Wr n j)

end Conv

section Gates

variable {N : Type}

/-- Row `n` of `A` followed by row `n` of `B`. -/
def cat (A B : N → Fin 128 → EReal) (n : N) (k : Fin 256) : EReal :=
  if h : k.val < 128 then A n ⟨k.val, h⟩ else B n ⟨k.val - 128, by omega⟩

/-- The gate on the concatenated row. -/
def gateCat (L : Fin 256 → Fin 128 → EReal) (lb : Fin 128 → EReal) (A B : N → Fin 128 → EReal) (n : N)
    (j : Fin 128) : EReal :=
  (∑ k : Fin 256, cat A B n k * L k j) + lb j

/-- The gate as two contractions. -/
def gateSplit (L1 L2 : Fin 128 → Fin 128 → EReal) (lb : Fin 128 → EReal) (A B : N → Fin 128 → EReal) (n : N)
    (j : Fin 128) : EReal :=
  ((∑ k, A n k * L1 k j) + ∑ k, B n k * L2 k j) + lb j

/-- The top and the bottom half of a gate's matrix. -/
def top (L : Fin 256 → Fin 128 → EReal) (k : Fin 128) (j : Fin 128) : EReal := L ⟨k.val, by omega⟩ j
def bot (L : Fin 256 → Fin 128 → EReal) (k : Fin 128) (j : Fin 128) : EReal := L ⟨k.val + 128, by omega⟩ j

theorem gateCat_eq (L : Fin 256 → Fin 128 → EReal) (lb : Fin 128 → EReal) :
    gateCat (N := N) L lb = gateSplit (top L) (bot L) lb := by
  funext A B n j
  unfold gateCat gateSplit
  congr 1
  have h := Fin.sum_univ_add (a := 128) (b := 128) (fun k : Fin (128 + 128) => cat A B n k * L k j)
  refine h.trans ?_
  congr 1

/-- The gated cell over any three gates. `one` is the unit the update gate is subtracted from. -/
def gru (one : EReal) (gU gR gC : (N → Fin 128 → EReal) → (N → Fin 128 → EReal) → N → Fin 128 → EReal)
    (Zu Zr Zc Hh : N → Fin 128 → EReal) (n : N) (j : Fin 128) : EReal :=
  Ideal.logistic (gU Zu Hh n j) * Hh n j
    + (one - Ideal.logistic (gU Zu Hh n j))
      * Ideal.tanh (gC Zc (fun n' j' => Hh n' j' * Ideal.logistic (gR Zr Hh n' j')) n j)

/-- The cell with split gates reads row `n` of its inputs only: on rows taken through `row` it is the cell at `row n`. -/
theorem gru_split_rows {N' : Type} (row : N' → N) (one : EReal)
    (Lu1 Lu2 Lr1 Lr2 Lc1 Lc2 : Fin 128 → Fin 128 → EReal) (lub lrb lcb : Fin 128 → EReal)
    (Zu Zr Zc Hh : N → Fin 128 → EReal) (n : N') (j : Fin 128) :
    gru one (gateSplit Lu1 Lu2 lub) (gateSplit Lr1 Lr2 lrb) (gateSplit Lc1 Lc2 lcb)
        (fun n' => Zu (row n')) (fun n' => Zr (row n')) (fun n' => Zc (row n')) (fun n' => Hh (row n')) n j
      = gru one (gateSplit Lu1 Lu2 lub) (gateSplit Lr1 Lr2 lrb) (gateSplit Lc1 Lc2 lcb) Zu Zr Zc Hh (row n) j := rfl

end Gates

section Cell

variable {E : Type} {N : Type}

/-- The cell as the kernel arranges it: features aggregated before the projections, gates as two contractions. -/
def outKer (one : EReal) (S : N → Finset E) (w : E → EReal) (src : E → N) (d2 : N → EReal)
    (X Hh : N → Fin 128 → EReal) (Wu Wr Wc : Fin 128 → Fin 128 → EReal) (bu br bc : Fin 128 → EReal)
    (Lu Lr Lc : Fin 256 → Fin 128 → EReal) (lub lrb lcb : Fin 128 → EReal) : N → Fin 128 → EReal :=
  gru one (gateSplit (top Lu) (bot Lu) lub) (gateSplit (top Lr) (bot Lr) lrb) (gateSplit (top Lc) (bot Lc) lcb)
    (convKer S w src d2 X Wu bu) (convKer S w src d2 X Wr br) (convKer S w src d2 X Wc bc) Hh

/-- The cell as the reference arranges it: projections aggregated, gates on concatenated rows. -/
def outRef (one : EReal) (S : N → Finset E) (w : E → EReal) (src : E → N) (d2 : N → EReal)
    (X Hh : N → Fin 128 → EReal) (Wu Wr Wc : Fin 128 → Fin 128 → EReal) (bu br bc : Fin 128 → EReal)
    (Lu Lr Lc : Fin 256 → Fin 128 → EReal) (lub lrb lcb : Fin 128 → EReal) : N → Fin 128 → EReal :=
  gru one (gateCat Lu lub) (gateCat Lr lrb) (gateCat Lc lcb)
    (convRef S w src d2 X Wu bu) (convRef S w src d2 X Wr br) (convRef S w src d2 X Wc bc) Hh

/-- THE TWO ARRANGEMENTS OF THE CELL AGREE when the features, the projection weights, the edge weights and the
    self-loop weights are real. -/
theorem out_eq (one : EReal) (S : N → Finset E) (w : E → EReal) (src : E → N) (d2 : N → EReal)
    (X Hh : N → Fin 128 → EReal) (Wu Wr Wc : Fin 128 → Fin 128 → EReal) (bu br bc : Fin 128 → EReal)
    (Lu Lr Lc : Fin 256 → Fin 128 → EReal) (lub lrb lcb : Fin 128 → EReal)
    (hX : ∀ n k, IsR (X n k)) (hWu : ∀ k j, IsR (Wu k j)) (hWr : ∀ k j, IsR (Wr k j)) (hWc : ∀ k j, IsR (Wc k j))
    (hw : ∀ e, IsR (w e)) (hd : ∀ n, IsR (d2 n)) :
    outKer one S w src d2 X Hh Wu Wr Wc bu br bc Lu Lr Lc lub lrb lcb
      = outRef one S w src d2 X Hh Wu Wr Wc bu br bc Lu Lr Lc lub lrb lcb := by
  unfold outKer outRef
  rw [conv_eq S w src d2 X Wu bu hX hWu hw hd, conv_eq S w src d2 X Wr br hX hWr hw hd,
    conv_eq S w src d2 X Wc bc hX hWc hw hd, gateCat_eq, gateCat_eq, gateCat_eq]

end Cell

end Cert.Tgcn

end
-- ==== Proof.KernelHostAgg.lean ====
/-
  The array the first window is cut from: the weighted neighbour sum of the features, as one term of the arguments and
  read at an index. Element (n, k) is, from zero, the sum over the edges that land on node n of the edge's weight
  times the feature k of the node the edge reads.
-/
import proofs.«104820_j11836929868497_2_alg».proof.Proof.KernelHost
import proofs.«104820_j11836929868497_2_alg».proof.Proof.TgcnSpec

set_option maxRecDepth 16384

noncomputable section

namespace Cert.Tgcn.KHost

open Cert.KernelIdeal Cert.KernelIdeal.Gen Cert.KernelIdeal.Hand
open Idealize.ShloMosaic Idealize.ShloMosaic.TcCoe Idealize.SL.Sem Idealize.ShloMosaic.StableHlo Idealize.ShloMosaic.ValueIdx
open Cert.Lib.MeanGcn Cert.Lib.HostIndex Cert.Lib.MeanAgg Cert.Tgcn.Chain

variable (m : (ℓ : Loc nD τ sig) → Buf (Elt Ideal) ℓ) (c : Dev nD)

set_option maxHeartbeats 40000000 in
/-- Window 0's array: the weighted neighbour sum of the features. -/
theorem V_v38 : (V m c main_v38 : S100000x128.Idx → EReal)
    = msgAgg fx gdM sdM (A0 m c) (srcW (A1 m c)) (dstW (A1 m c)) (edgeW fx sdV gdV (srcW (A1 m c)) (dstW (A1 m c))) := by
  dsimp only [V, hostOps0]; after_results
  unfold msgAgg edgeW coef dnorm deg col wrap srcW dstW
  rfl

end Cert.Tgcn.KHost

end
-- ==== Proof.KernelHostAggRead.lean ====
/-
  The weighted neighbour sum of the features read at an index: element (n, k) is, from zero, the sum over the edges
  that land on node n of the edge's weight times feature k of the node the edge reads.
-/
import proofs.«104820_j11836929868497_2_alg».proof.Proof.KernelHostAgg

set_option maxRecDepth 16384

noncomputable section

namespace Cert.Tgcn.KHost

open Cert.KernelIdeal Cert.KernelIdeal.Gen Cert.KernelIdeal.Hand
open Idealize.ShloMosaic Idealize.ShloMosaic.TcCoe Idealize.SL.Sem Idealize.ShloMosaic.StableHlo Idealize.ShloMosaic.ValueIdx
open Cert.Lib.MeanGcn Cert.Lib.HostIndex Cert.Lib.MeanAgg Cert.Tgcn.Chain

variable (m : (ℓ : Loc nD τ sig) → Buf (Elt Ideal) ℓ) (c : Dev nD)

/-- The aggregated features at `(n, k)`: the neighbour sum of the features, from zero. -/
theorem read_v38 (n : Fin 100000) (k : Fin 128) :
    (V m c main_v38 : S100000x128.Idx → EReal) (ix2 n k)
      = Cert.Tgcn.aggr (inTo (dstW (A1 m c))) (edgeWV hN (srcW (A1 m c)) (dstW (A1 m c)))
          (Cert.Lib.MeanGcn.rowOf hN (srcW (A1 m c))) (fun n' k' => A0 m c (ix2 n' k')) n k := by
  rw [V_v38, msgAgg_apply fx hN hgM hsM]
  unfold Cert.Tgcn.aggr
  refine congrArg (fun x : EReal => 0 + x) (Finset.sum_congr rfl fun e _ => ?_)
  rw [edgeW_apply fx hN hsV hgV]

end Cert.Tgcn.KHost

end
-- ==== Proof.LibConcat3Cols.lean ====
/-
  Three arrays of one shape `[a, b]` set side by side along the columns, read at an index.

  The result has the rows of the pieces and their columns laid end to end: the first piece fills columns `[0, b)`, the
  second columns `[b, 2b)`, the third columns `[2b, 3b)`. So at row `i` the result reads the first piece at column `j`,
  the second at column `j + b` and the third at column `j + 2b`, each at `(i, j)`. The extents `a`, `b` and the element
  type are arbitrary; the result's column extent is a variable of its own (the hypothesis that the shapes concatenate
  fixes it to `b + b + b`), and the column read is any column whose number is the stated one, so that whatever proof
  of its bound an index carries is accepted. The last three statements are the reads at `b = 128` with the offsets
  written as the numerals 0, 128 and 256.
-/
import Idealize.ShloMosaic.Lib.Pipeline.Value
import Idealize.ShloMosaic.Lib.ValueIdx

noncomputable section

namespace Cert.Lib.Concat3Cols

open Idealize.ShloMosaic Idealize.ShloMosaic.ValueIdx

/-- A column of the first block reads the first piece. -/
theorem cols3_first {α : Type} {a b n : ℕ} (x0 x1 x2 : (⟨2, ![a, b]⟩ : Shape).Idx → α)
    (h : Shape.Concatenates [(⟨2, ![a, b]⟩ : Shape), ⟨2, ![a, b]⟩, ⟨2, ![a, b]⟩] ⟨2, ![a, n]⟩ 1)
    (i : Fin a) (j : Fin b) (c : Fin n) (hc : c.val = j.val) :
    concatenate ⟨2, ![a, n]⟩ 1 [⟨⟨2, ![a, b]⟩, x0⟩, ⟨⟨2, ![a, b]⟩, x1⟩, ⟨⟨2, ![a, b]⟩, x2⟩] h (ix2 i c) = x0 (ix2 i j) :=
  concatenate_apply_piece (t := ⟨2, ![a, n]⟩) 1 [⟨⟨2, ![a, b]⟩, x0⟩, ⟨⟨2, ![a, b]⟩, x1⟩, ⟨⟨2, ![a, b]⟩, x2⟩] h (ix2 i c) 0 (by show (0 : ℕ) < 3; omega) ⟨2, ![a, b]⟩ x0 rfl rfl 0 rfl (ix2 i j)
    (fun bx hb => match bx with
      | ⟨0, _⟩ => rfl
      | ⟨1, _⟩ => absurd rfl hb)
    (by show 0 + j.val = c.val; omega)

/-- A column of the second block reads the second piece. -/
theorem cols3_second {α : Type} {a b n : ℕ} (x0 x1 x2 : (⟨2, ![a, b]⟩ : Shape).Idx → α)
    (h : Shape.Concatenates [(⟨2, ![a, b]⟩ : Shape), ⟨2, ![a, b]⟩, ⟨2, ![a, b]⟩] ⟨2, ![a, n]⟩ 1)
    (i : Fin a) (j : Fin b) (c : Fin n) (hc : c.val = j.val + b) :
    concatenate ⟨2, ![a, n]⟩ 1 [⟨⟨2, ![a, b]⟩, x0⟩, ⟨⟨2, ![a, b]⟩, x1⟩, ⟨⟨2, ![a, b]⟩, x2⟩] h (ix2 i c) = x1 (ix2 i j) :=
  concatenate_apply_piece (t := ⟨2, ![a, n]⟩) 1 [⟨⟨2, ![a, b]⟩, x0⟩, ⟨⟨2, ![a, b]⟩, x1⟩, ⟨⟨2, ![a, b]⟩, x2⟩] h (ix2 i c) 1 (by show (1 : ℕ) < 3; omega) ⟨2, ![a, b]⟩ x1 rfl rfl b (by simp) (ix2 i j)
    (fun bx hb => match bx with
      | ⟨0, _⟩ => rfl
      | ⟨1, _⟩ => absurd rfl hb)
    (by show b + j.val = c.val; omega)

/-- A column of the third block reads the third piece. -/
theorem cols3_third {α : Type} {a b n : ℕ} (x0 x1 x2 : (⟨2, ![a, b]⟩ : Shape).Idx → α)
    (h : Shape.Concatenates [(⟨2, ![a, b]⟩ : Shape), ⟨2, ![a, b]⟩, ⟨2, ![a, b]⟩] ⟨2, ![a, n]⟩ 1)
    (i : Fin a) (j : Fin b) (c : Fin n) (hc : c.val = j.val + 2 * b) :
    concatenate ⟨2, ![a, n]⟩ 1 [⟨⟨2, ![a, b]⟩, x0⟩, ⟨⟨2, ![a, b]⟩, x1⟩, ⟨⟨2, ![a, b]⟩, x2⟩] h (ix2 i c) = x2 (ix2 i j) :=
  concatenate_apply_piece (t := ⟨2, ![a, n]⟩) 1 [⟨⟨2, ![a, b]⟩, x0⟩, ⟨⟨2, ![a, b]⟩, x1⟩, ⟨⟨2, ![a, b]⟩, x2⟩] h (ix2 i c) 2 (by show (2 : ℕ) < 3; omega) ⟨2, ![a, b]⟩ x2 rfl rfl (b + b) (by simp) (ix2 i j)
    (fun bx hb => match bx with
      | ⟨0, _⟩ => rfl
      | ⟨1, _⟩ => absurd rfl hb)
    (by show b + b + j.val = c.val; omega)

/-! ### The same, at the columns written out -/

theorem cols3_at_j {α : Type} {a b n : ℕ} (x0 x1 x2 : (⟨2, ![a, b]⟩ : Shape).Idx → α)
    (h : Shape.Concatenates [(⟨2, ![a, b]⟩ : Shape), ⟨2, ![a, b]⟩, ⟨2, ![a, b]⟩] ⟨2, ![a, n]⟩ 1)
    (i : Fin a) (j : Fin b) (hlt : j.val < n) :
    concatenate ⟨2, ![a, n]⟩ 1 [⟨⟨2, ![a, b]⟩, x0⟩, ⟨⟨2, ![a, b]⟩, x1⟩, ⟨⟨2, ![a, b]⟩, x2⟩] h (ix2 i ⟨j.val, hlt⟩) = x0 (ix2 i j) :=
  cols3_first x0 x1 x2 h i j ⟨j.val, hlt⟩ rfl

theorem cols3_at_j_add_b {α : Type} {a b n : ℕ} (x0 x1 x2 : (⟨2, ![a, b]⟩ : Shape).Idx → α)
    (h : Shape.Concatenates [(⟨2, ![a, b]⟩ : Shape), ⟨2, ![a, b]⟩, ⟨2, ![a, b]⟩] ⟨2, ![a, n]⟩ 1)
    (i : Fin a) (j : Fin b) (hlt : j.val + b < n) :
    concatenate ⟨2, ![a, n]⟩ 1 [⟨⟨2, ![a, b]⟩, x0⟩, ⟨⟨2, ![a, b]⟩, x1⟩, ⟨⟨2, ![a, b]⟩, x2⟩] h (ix2 i ⟨j.val + b, hlt⟩) = x1 (ix2 i j) :=
  cols3_second x0 x1 x2 h i j ⟨j.val + b, hlt⟩ rfl

theorem cols3_at_j_add_2b {α : Type} {a b n : ℕ} (x0 x1 x2 : (⟨2, ![a, b]⟩ : Shape).Idx → α)
    (h : Shape.Concatenates [(⟨2, ![a, b]⟩ : Shape), ⟨2, ![a, b]⟩, ⟨2, ![a, b]⟩] ⟨2, ![a, n]⟩ 1)
    (i : Fin a) (j : Fin b) (hlt : j.val + 2 * b < n) :
    concatenate ⟨2, ![a, n]⟩ 1 [⟨⟨2, ![a, b]⟩, x0⟩, ⟨⟨2, ![a, b]⟩, x1⟩, ⟨⟨2, ![a, b]⟩, x2⟩] h (ix2 i ⟨j.val + 2 * b, hlt⟩) = x2 (ix2 i j) :=
  cols3_third x0 x1 x2 h i j ⟨j.val + 2 * b, hlt⟩ rfl

/-! ### Blocks of 128 columns, the offsets as numerals -/

theorem cols3_128_add_0 {α : Type} {a : ℕ} (x0 x1 x2 : (⟨2, ![a, 128]⟩ : Shape).Idx → α)
    (h : Shape.Concatenates [(⟨2, ![a, 128]⟩ : Shape), ⟨2, ![a, 128]⟩, ⟨2, ![a, 128]⟩] ⟨2, ![a, 384]⟩ 1)
    (i : Fin a) (j : Fin 128) (hlt : j.val + 0 < 384) :
    concatenate ⟨2, ![a, 384]⟩ 1 [⟨⟨2, ![a, 128]⟩, x0⟩, ⟨⟨2, ![a, 128]⟩, x1⟩, ⟨⟨2, ![a, 128]⟩, x2⟩] h (ix2 i ⟨j.val + 0, hlt⟩) = x0 (ix2 i j) :=
  cols3_first x0 x1 x2 h i j ⟨j.val + 0, hlt⟩ (Nat.add_zero j.val)

theorem cols3_128_add_128 {α : Type} {a : ℕ} (x0 x1 x2 : (⟨2, ![a, 128]⟩ : Shape).Idx → α)
    (h : Shape.Concatenates [(⟨2, ![a, 128]⟩ : Shape), ⟨2, ![a, 128]⟩, ⟨2, ![a, 128]⟩] ⟨2, ![a, 384]⟩ 1)
    (i : Fin a) (j : Fin 128) (hlt : j.val + 128 < 384) :
    concatenate ⟨2, ![a, 384]⟩ 1 [⟨⟨2, ![a, 128]⟩, x0⟩, ⟨⟨2, ![a, 128]⟩, x1⟩, ⟨⟨2, ![a, 128]⟩, x2⟩] h (ix2 i ⟨j.val + 128, hlt⟩) = x1 (ix2 i j) :=
  cols3_second x0 x1 x2 h i j ⟨j.val + 128, hlt⟩ rfl

theorem cols3_128_add_256 {α : Type} {a : ℕ} (x0 x1 x2 : (⟨2, ![a, 128]⟩ : Shape).Idx → α)
    (h : Shape.Concatenates [(⟨2, ![a, 128]⟩ : Shape), ⟨2, ![a, 128]⟩, ⟨2, ![a, 128]⟩] ⟨2, ![a, 384]⟩ 1)
    (i : Fin a) (j : Fin 128) (hlt : j.val + 256 < 384) :
    concatenate ⟨2, ![a, 384]⟩ 1 [⟨⟨2, ![a, 128]⟩, x0⟩, ⟨⟨2, ![a, 128]⟩, x1⟩, ⟨⟨2, ![a, 128]⟩, x2⟩] h (ix2 i ⟨j.val + 256, hlt⟩) = x2 (ix2 i j) :=
  cols3_third x0 x1 x2 h i j ⟨j.val + 256, hlt⟩ (by show j.val + 256 = j.val + 2 * 128; omega)

end Cert.Lib.Concat3Cols

end
-- ==== Proof.KernelHostWall.lean ====
/-
  The array the fifth window is cut from: the three projection matrices side by side in one [128, 384] matrix, as one
  term of the arguments and read at a column of its first, second and third block.
-/
import proofs.«104820_j11836929868497_2_alg».proof.Proof.KernelHost
import proofs.«104820_j11836929868497_2_alg».proof.Proof.LibConcat3Cols

set_option maxRecDepth 16384

noncomputable section

namespace Cert.Tgcn.KHost

open Cert.KernelIdeal Cert.KernelIdeal.Gen Cert.KernelIdeal.Hand
open Idealize.ShloMosaic Idealize.ShloMosaic.TcCoe Idealize.SL.Sem Idealize.ShloMosaic.StableHlo Idealize.ShloMosaic.ValueIdx
open Cert.Lib.MeanGcn Cert.Lib.HostIndex Cert.Lib.MeanAgg Cert.Tgcn.Chain

variable (m : (ℓ : Loc nD τ sig) → Buf (Elt Ideal) ℓ) (c : Dev nD)

set_option maxHeartbeats 40000000 in
/-- Window 4's array: the three projection matrices side by side. -/
theorem V_v42 : (V m c main_v42 : S128x384.Idx → EReal)
    = truncf (F := Ideal) .bf16 (concatenate S128x384 1 [⟨S128x128, A3 m c⟩, ⟨S128x128, A5 m c⟩, ⟨S128x128, A7 m c⟩]
        Gen.concatenates_S128x128_S128x128_S128x128_S128x384_d1) Gen.bitsLt_bf16_f32 := by
  dsimp only [V, hostOps0]; after_results; rfl

/-- The stacked projection matrices at a column of the first, the second and the third block. -/
theorem read_v42_0 (i j : Fin 128) (h : j.val + 0 < 384) :
    (V m c main_v42 : S128x384.Idx → EReal) (ix2 i ⟨j.val + 0, h⟩) = A3 m c (ix2 i j) := by
  rw [V_v42, truncf_apply, Cert.Lib.Concat3Cols.cols3_128_add_0]
theorem read_v42_128 (i j : Fin 128) (h : j.val + 128 < 384) :
    (V m c main_v42 : S128x384.Idx → EReal) (ix2 i ⟨j.val + 128, h⟩) = A5 m c (ix2 i j) := by
  rw [V_v42, truncf_apply, Cert.Lib.Concat3Cols.cols3_128_add_128]
theorem read_v42_256 (i j : Fin 128) (h : j.val + 256 < 384) :
    (V m c main_v42 : S128x384.Idx → EReal) (ix2 i ⟨j.val + 256, h⟩) = A7 m c (ix2 i j) := by
  rw [V_v42, truncf_apply, Cert.Lib.Concat3Cols.cols3_128_add_256]

end Cert.Tgcn.KHost

end
-- ==== Proof.KernelHostSmallBase.lean ====
/-
  A block of consecutive rows cut out of a two-axis array, read at an index; and the names of the program's small
  arguments (the six bias vectors and the three gate matrices) as launched on one core.

  An `[a', b]` block sliced from row offset `r0` of an `[a, b]` array reads, at `(k, j)`, the array at `(k + r0, j)`;
  from offset zero, the array at `(k, j)`.
-/
import proofs.«104820_j11836929868497_2_alg».proof.Proof.FrameIdealDefs
import Idealize.ShloMosaic.Lib.Pipeline.Value
import Idealize.ShloMosaic.Lib.ValueIdx

noncomputable section

namespace Cert.Tgcn.KHost

open Cert.KernelIdeal Cert.KernelIdeal.Gen
open Idealize.ShloMosaic Idealize.ShloMosaic.TcCoe Idealize.SL.Sem Idealize.ShloMosaic.ValueIdx

/-- Rows `[r0, r0 + a')` of an `[a, b]` array, sliced out, read at `(k, j)` the array at `(k + r0, j)`. -/
theorem slice_row_block_apply {α : Type} {a a' b r0 : ℕ} (Y : (⟨2, ![a, b]⟩ : Shape).Idx → α)
    (h : (⟨2, ![a, b]⟩ : Shape).Slices ![r0, 0] ⟨2, ![a', b]⟩) (k : Fin a') (j : Fin b) (hk : k.val + r0 < a) :
    extractStridedSlice ⟨2, ![a', b]⟩ ![r0, 0] Y h (ix2 k j) = Y (ix2 (⟨k.val + r0, hk⟩ : Fin a) j) := by
  refine extractStridedSlice_apply ![r0, 0] Y h _ (ix2 (⟨k.val + r0, hk⟩ : Fin a) j) fun ax => ?_
  match ax with
  | ⟨0, _⟩ => show k.val + r0 = r0 + k.val; omega
  | ⟨1, _⟩ => show j.val = 0 + j.val; omega

/-- The leading `a'` rows of an `[a, b]` array, sliced out from offset zero, read the array. -/
theorem slice_lead_rows_apply {α : Type} {a a' b : ℕ} (Y : (⟨2, ![a, b]⟩ : Shape).Idx → α)
    (h : (⟨2, ![a, b]⟩ : Shape).Slices ![0, 0] ⟨2, ![a', b]⟩) (k : Fin a') (j : Fin b) (hk : k.val < a) :
    extractStridedSlice ⟨2, ![a', b]⟩ ![0, 0] Y h (ix2 k j) = Y (ix2 (⟨k.val, hk⟩ : Fin a) j) := by
  refine extractStridedSlice_apply ![0, 0] Y h _ (ix2 (⟨k.val, hk⟩ : Fin a) j) fun ax => ?_
  match ax with
  | ⟨0, _⟩ => show k.val = 0 + k.val; omega
  | ⟨1, _⟩ => show j.val = 0 + j.val; omega

variable (m : (ℓ : Loc nD τ sig) → Buf (Elt Ideal) ℓ) (c : Dev nD)

/-- The bias vectors and the gate matrices on core `c`, as launched. -/
abbrev B4 : S128.Idx → EReal := m ((c : Thread nD τ).loc main_arg4)
abbrev B6 : S128.Idx → EReal := m ((c : Thread nD τ).loc main_arg6)
abbrev B8 : S128.Idx → EReal := m ((c : Thread nD τ).loc main_arg8)
abbrev B9 : S256x128.Idx → EReal := m ((c : Thread nD τ).loc main_arg9)
abbrev B10 : S128.Idx → EReal := m ((c : Thread nD τ).loc main_arg10)
abbrev B11 : S256x128.Idx → EReal := m ((c : Thread nD τ).loc main_arg11)
abbrev B12 : S128.Idx → EReal := m ((c : Thread nD τ).loc main_arg12)
abbrev B13 : S256x128.Idx → EReal := m ((c : Thread nD τ).loc main_arg13)
abbrev B14 : S128.Idx → EReal := m ((c : Thread nD τ).loc main_arg14)

end Cert.Tgcn.KHost

end
-- ==== Proof.LibPadReads.lean ====
/-
  Small re-layings read at an entry, over arbitrary extents: an array padded at the END of its leading axis (rows appended
  to a matrix, entries appended to a vector; no padding in front, none between the entries) reads the original inside the
  original's extent, whatever the padding value; a vector laid out as a one-row array reads the vector; the leading
  columns of a two-axis array, sliced out from offset zero, read the array.
-/
import Idealize.ShloMosaic.Lib.Pipeline.Value
import Idealize.ShloMosaic.Lib.ValueIdx

noncomputable section

namespace Cert.Lib.PadReads

open Idealize.ShloMosaic Idealize.ShloMosaic.ValueIdx

/-- An `[a, b]` matrix with `hi` rows appended (to `[t, b]`) reads, at row `p < a`, the matrix at row `p`. -/
theorem pad_tail_rows_apply {α : Type} {a b t hi : ℕ} (x : (⟨2, ![a, b]⟩ : Shape).Idx → α) {u : Shape} (v : u.Idx → α)
    (h : (⟨2, ![a, b]⟩ : Shape).Pads ![0, 0] ![hi, 0] ![0, 0] ⟨2, ![t, b]⟩) (hu : 0 < u.numel) (p : Fin a) (q : Fin b)
    (hp : p.val < t) :
    pad ⟨2, ![t, b]⟩ ![0, 0] ![hi, 0] ![0, 0] x v h hu (ix2 (⟨p.val, hp⟩ : Fin t) q) = x (ix2 p q) := by
  unfold pad
  rw [dif_pos (fun ax => by
    match ax with
    | ⟨0, _⟩ => exact ⟨Nat.zero_le _, Nat.mod_one _, by show (p.val - 0) / (0 + 1) < a; have := p.isLt; simpa using this⟩
    | ⟨1, _⟩ => exact ⟨Nat.zero_le _, Nat.mod_one _, by show (q.val - 0) / (0 + 1) < b; have := q.isLt; simpa using this⟩)]
  refine congrArg x (funext fun ax => Fin.ext ?_)
  match ax with
  | ⟨0, _⟩ => show (p.val - 0) / (0 + 1) = p.val; simp
  | ⟨1, _⟩ => show (q.val - 0) / (0 + 1) = q.val; simp

/-- An `[a]` vector with `hi` entries appended (to `[t]`) reads, at `p < a`, the vector at `p`. -/
theorem pad_tail_vec_apply {α : Type} {a t hi : ℕ} (x : (⟨1, ![a]⟩ : Shape).Idx → α) {u : Shape} (v : u.Idx → α)
    (h : (⟨1, ![a]⟩ : Shape).Pads ![0] ![hi] ![0] ⟨1, ![t]⟩) (hu : 0 < u.numel) (p : Fin a) (hp : p.val < t) :
    pad ⟨1, ![t]⟩ ![0] ![hi] ![0] x v h hu (ix1 (⟨p.val, hp⟩ : Fin t)) = x (ix1 p) := by
  unfold pad
  rw [dif_pos (fun ax => by
    match ax with
    | ⟨0, _⟩ => exact ⟨Nat.zero_le _, Nat.mod_one _, by show (p.val - 0) / (0 + 1) < a; have := p.isLt; simpa using this⟩)]
  refine congrArg x (funext fun ax => Fin.ext ?_)
  match ax with
  | ⟨0, _⟩ => show (p.val - 0) / (0 + 1) = p.val; simp

/-- A `[b]` vector laid out as a `[1, b]` row reads, at `(0, q)`, the vector at `q`: the same row-major position. -/
theorem reshape_row_apply {α : Type} {b : ℕ} (x : (⟨1, ![b]⟩ : Shape).Idx → α)
    (h : (⟨1, ![b]⟩ : Shape).ShapeCasts ⟨2, ![1, b]⟩) (q : Fin b) :
    shapeCast ⟨2, ![1, b]⟩ x h (ix2 (0 : Fin 1) q) = x (ix1 q) :=
  shapeCast_apply x h _ (ix1 q) (by
    rw [Shape.rowMajor_val_one, Shape.rowMajor_val_two]
    show q.val = 0 * b + q.val
    omega)

/-- The leading `b'` columns of an `[a, b]` array, sliced out from offset zero, read the array. -/
theorem slice_lead_cols_apply {α : Type} {a b b' : ℕ} (Y : (⟨2, ![a, b]⟩ : Shape).Idx → α)
    (h : (⟨2, ![a, b]⟩ : Shape).Slices ![0, 0] ⟨2, ![a, b']⟩) (n : Fin a) (j : Fin b') (hj : j.val < b) :
    extractStridedSlice ⟨2, ![a, b']⟩ ![0, 0] Y h (ix2 n j) = Y (ix2 n (⟨j.val, hj⟩ : Fin b)) := by
  refine extractStridedSlice_apply ![0, 0] Y h _ (ix2 n (⟨j.val, hj⟩ : Fin b)) fun ax => ?_
  match ax with
  | ⟨0, _⟩ => show n.val = 0 + n.val; omega
  | ⟨1, _⟩ => show j.val = 0 + j.val; omega

end Cert.Lib.PadReads

end
-- ==== Proof.KernelHostSmallA.lean ====
/-
  The kernel's bias windows, as the host operations before the launch leave them: each the bias vector of one
  argument laid out as a `[1, 128]` row, so that the row read at `(0, j)` is the vector at `j`.
-/
import proofs.«104820_j11836929868497_2_alg».proof.Proof.KernelHostSmallBase
import proofs.«104820_j11836929868497_2_alg».proof.Proof.LibPadReads
import Idealize.ShloMosaic.Lib.StableHlo.Run

set_option maxRecDepth 16384

noncomputable section

namespace Cert.Tgcn.KHost

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

set_option maxHeartbeats 40000000 in
/-- The bias vector of argument 4, laid out as a one-row array. -/
theorem V_v43 : (V m c main_v43 : S1x128.Idx → EReal) = shapeCast S1x128 (B4 m c) Gen.shapeCasts_S128_S1x128 := by
  dsimp only [V, hostOps0]; after_results <;> rfl

theorem read_v43 (j : Fin 128) : (V m c main_v43 : S1x128.Idx → EReal) (ix2 (0 : Fin 1) j) = B4 m c (ix1 j) :=
  (congrFun (V_v43 m c) _).trans (Cert.Lib.PadReads.reshape_row_apply _ _ j)

set_option maxHeartbeats 40000000 in
/-- The bias vector of argument 6, laid out as a one-row array. -/
theorem V_v44 : (V m c main_v44 : S1x128.Idx → EReal) = shapeCast S1x128 (B6 m c) Gen.shapeCasts_S128_S1x128 := by
  dsimp only [V, hostOps0]; after_results <;> rfl

theorem read_v44 (j : Fin 128) : (V m c main_v44 : S1x128.Idx → EReal) (ix2 (0 : Fin 1) j) = B6 m c (ix1 j) :=
  (congrFun (V_v44 m c) _).trans (Cert.Lib.PadReads.reshape_row_apply _ _ j)

set_option maxHeartbeats 40000000 in
/-- The bias vector of argument 8, laid out as a one-row array. -/
theorem V_v45 : (V m c main_v45 : S1x128.Idx → EReal) = shapeCast S1x128 (B8 m c) Gen.shapeCasts_S128_S1x128 := by
  dsimp only [V, hostOps0]; after_results <;> rfl

theorem read_v45 (j : Fin 128) : (V m c main_v45 : S1x128.Idx → EReal) (ix2 (0 : Fin 1) j) = B8 m c (ix1 j) :=
  (congrFun (V_v45 m c) _).trans (Cert.Lib.PadReads.reshape_row_apply _ _ j)

end Cert.Tgcn.KHost

end
-- ==== Proof.KernelHostSmallB.lean ====
/-
  The kernel's bias windows, as the host operations before the launch leave them: each the bias vector of one
  argument laid out as a `[1, 128]` row, so that the row read at `(0, j)` is the vector at `j`.
-/
import proofs.«104820_j11836929868497_2_alg».proof.Proof.KernelHostSmallBase
import proofs.«104820_j11836929868497_2_alg».proof.Proof.LibPadReads
import Idealize.ShloMosaic.Lib.StableHlo.Run

set_option maxRecDepth 16384

noncomputable section

namespace Cert.Tgcn.KHost

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

set_option maxHeartbeats 40000000 in
/-- The bias vector of argument 10, laid out as a one-row array. -/
theorem V_v46 : (V m c main_v46 : S1x128.Idx → EReal) = shapeCast S1x128 (B10 m c) Gen.shapeCasts_S128_S1x128 := by
  dsimp only [V, hostOps0]; after_results <;> rfl

theorem read_v46 (j : Fin 128) : (V m c main_v46 : S1x128.Idx → EReal) (ix2 (0 : Fin 1) j) = B10 m c (ix1 j) :=
  (congrFun (V_v46 m c) _).trans (Cert.Lib.PadReads.reshape_row_apply _ _ j)

set_option maxHeartbeats 40000000 in
/-- The bias vector of argument 12, laid out as a one-row array. -/
theorem V_v47 : (V m c main_v47 : S1x128.Idx → EReal) = shapeCast S1x128 (B12 m c) Gen.shapeCasts_S128_S1x128 := by
  dsimp only [V, hostOps0]; after_results <;> rfl

theorem read_v47 (j : Fin 128) : (V m c main_v47 : S1x128.Idx → EReal) (ix2 (0 : Fin 1) j) = B12 m c (ix1 j) :=
  (congrFun (V_v47 m c) _).trans (Cert.Lib.PadReads.reshape_row_apply _ _ j)

set_option maxHeartbeats 40000000 in
/-- The bias vector of argument 14, laid out as a one-row array. -/
theorem V_v48 : (V m c main_v48 : S1x128.Idx → EReal) = shapeCast S1x128 (B14 m c) Gen.shapeCasts_S128_S1x128 := by
  dsimp only [V, hostOps0]; after_results <;> rfl

theorem read_v48 (j : Fin 128) : (V m c main_v48 : S1x128.Idx → EReal) (ix2 (0 : Fin 1) j) = B14 m c (ix1 j) :=
  (congrFun (V_v48 m c) _).trans (Cert.Lib.PadReads.reshape_row_apply _ _ j)

end Cert.Tgcn.KHost

end
-- ==== Proof.KernelHostSmallC.lean ====
/-
  The kernel's gate-matrix windows, as the host operations before the launch leave them: each the top or the bottom
  `[128, 128]` half of a `[256, 128]` argument, so that the half read at `(k, j)` is the argument at `(k, j)` or at
  `(k + 128, j)`. The change of float format in between is the identity on the extended reals.
-/
import proofs.«104820_j11836929868497_2_alg».proof.Proof.KernelHostSmallBase
import proofs.«104820_j11836929868497_2_alg».proof.Proof.LibPadReads
import Idealize.ShloMosaic.Lib.StableHlo.Run

set_option maxRecDepth 16384

noncomputable section

namespace Cert.Tgcn.KHost

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

set_option maxHeartbeats 40000000 in
/-- The top half of the gate matrix of argument 9; the change of float format is the identity on the extended reals. -/
theorem V_v50 : (V m c main_v50 : S128x128.Idx → EReal)
    = truncf (F := Ideal) .bf16 (extractStridedSlice S128x128 ![0, 0] (B9 m c) Gen.slices_S256x128_S128x128_0_0)
        Gen.bitsLt_bf16_f32 := by
  dsimp only [V, hostOps0]; after_results <;> rfl

theorem read_v50 (k j : Fin 128) :
    (V m c main_v50 : S128x128.Idx → EReal) (ix2 k j) = B9 m c (ix2 (⟨k.val, by omega⟩ : Fin 256) j) :=
  (congrFun (V_v50 m c) _).trans (slice_lead_rows_apply (B9 m c) Gen.slices_S256x128_S128x128_0_0 k j _)

set_option maxHeartbeats 40000000 in
/-- The bottom half of the gate matrix of argument 9; the change of float format is the identity on the extended reals. -/
theorem V_v52 : (V m c main_v52 : S128x128.Idx → EReal)
    = truncf (F := Ideal) .bf16 (extractStridedSlice S128x128 ![128, 0] (B9 m c) Gen.slices_S256x128_S128x128_128_0)
        Gen.bitsLt_bf16_f32 := by
  dsimp only [V, hostOps0]; after_results <;> rfl

theorem read_v52 (k j : Fin 128) :
    (V m c main_v52 : S128x128.Idx → EReal) (ix2 k j) = B9 m c (ix2 (⟨k.val + 128, by omega⟩ : Fin 256) j) :=
  (congrFun (V_v52 m c) _).trans (slice_row_block_apply (B9 m c) Gen.slices_S256x128_S128x128_128_0 k j _)

set_option maxHeartbeats 40000000 in
/-- The top half of the gate matrix of argument 11; the change of float format is the identity on the extended reals. -/
theorem V_v54 : (V m c main_v54 : S128x128.Idx → EReal)
    = truncf (F := Ideal) .bf16 (extractStridedSlice S128x128 ![0, 0] (B11 m c) Gen.slices_S256x128_S128x128_0_0)
        Gen.bitsLt_bf16_f32 := by
  dsimp only [V, hostOps0]; after_results <;> rfl

theorem read_v54 (k j : Fin 128) :
    (V m c main_v54 : S128x128.Idx → EReal) (ix2 k j) = B11 m c (ix2 (⟨k.val, by omega⟩ : Fin 256) j) :=
  (congrFun (V_v54 m c) _).trans (slice_lead_rows_apply (B11 m c) Gen.slices_S256x128_S128x128_0_0 k j _)

end Cert.Tgcn.KHost

end
-- ==== Proof.KernelHostSmallD.lean ====
/-
  The kernel's gate-matrix windows, as the host operations before the launch leave them: each the top or the bottom
  `[128, 128]` half of a `[256, 128]` argument, so that the half read at `(k, j)` is the argument at `(k, j)` or at
  `(k + 128, j)`. The change of float format in between is the identity on the extended reals.
-/
import proofs.«104820_j11836929868497_2_alg».proof.Proof.KernelHostSmallBase
import proofs.«104820_j11836929868497_2_alg».proof.Proof.LibPadReads
import Idealize.ShloMosaic.Lib.StableHlo.Run

set_option maxRecDepth 16384

noncomputable section

namespace Cert.Tgcn.KHost

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

set_option maxHeartbeats 40000000 in
/-- The bottom half of the gate matrix of argument 11; the change of float format is the identity on the extended reals. -/
theorem V_v56 : (V m c main_v56 : S128x128.Idx → EReal)
    = truncf (F := Ideal) .bf16 (extractStridedSlice S128x128 ![128, 0] (B11 m c) Gen.slices_S256x128_S128x128_128_0)
        Gen.bitsLt_bf16_f32 := by
  dsimp only [V, hostOps0]; after_results <;> rfl

theorem read_v56 (k j : Fin 128) :
    (V m c main_v56 : S128x128.Idx → EReal) (ix2 k j) = B11 m c (ix2 (⟨k.val + 128, by omega⟩ : Fin 256) j) :=
  (congrFun (V_v56 m c) _).trans (slice_row_block_apply (B11 m c) Gen.slices_S256x128_S128x128_128_0 k j _)

set_option maxHeartbeats 40000000 in
/-- The top half of the gate matrix of argument 13; the change of float format is the identity on the extended reals. -/
theorem V_v58 : (V m c main_v58 : S128x128.Idx → EReal)
    = truncf (F := Ideal) .bf16 (extractStridedSlice S128x128 ![0, 0] (B13 m c) Gen.slices_S256x128_S128x128_0_0)
        Gen.bitsLt_bf16_f32 := by
  dsimp only [V, hostOps0]; after_results <;> rfl

theorem read_v58 (k j : Fin 128) :
    (V m c main_v58 : S128x128.Idx → EReal) (ix2 k j) = B13 m c (ix2 (⟨k.val, by omega⟩ : Fin 256) j) :=
  (congrFun (V_v58 m c) _).trans (slice_lead_rows_apply (B13 m c) Gen.slices_S256x128_S128x128_0_0 k j _)

set_option maxHeartbeats 40000000 in
/-- The bottom half of the gate matrix of argument 13; the change of float format is the identity on the extended reals. -/
theorem V_v60 : (V m c main_v60 : S128x128.Idx → EReal)
    = truncf (F := Ideal) .bf16 (extractStridedSlice S128x128 ![128, 0] (B13 m c) Gen.slices_S256x128_S128x128_128_0)
        Gen.bitsLt_bf16_f32 := by
  dsimp only [V, hostOps0]; after_results <;> rfl

theorem read_v60 (k j : Fin 128) :
    (V m c main_v60 : S128x128.Idx → EReal) (ix2 k j) = B13 m c (ix2 (⟨k.val + 128, by omega⟩ : Fin 256) j) :=
  (congrFun (V_v60 m c) _).trans (slice_row_block_apply (B13 m c) Gen.slices_S256x128_S128x128_128_0 k j _)

end Cert.Tgcn.KHost

end
-- ==== Proof.KernelHostSmall.lean ====
/-
  The kernel's small window arrays — six bias rows and six half gate matrices — as terms of the program's arguments
  and read at an index: the statements are in the four modules imported here.
-/
import proofs.«104820_j11836929868497_2_alg».proof.Proof.KernelHostSmallA
import proofs.«104820_j11836929868497_2_alg».proof.Proof.KernelHostSmallB
import proofs.«104820_j11836929868497_2_alg».proof.Proof.KernelHostSmallC
import proofs.«104820_j11836929868497_2_alg».proof.Proof.KernelHostSmallD
-- ==== Proof.KernelBlocks.lean ====
import proofs.«104820_j11836929868497_2_alg».proof.Proof.FrameIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## What each point writes back -/

/-- What point `t` writes back to the output array: the body's result for the output window over
    the input windows' blocks at `t`, read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 17).cut (grid0.coords t) ((dats m 0 c).after 17 t) = _
  rw [after0_17]

theorem hz : (![0, 0] : Fin 2 → Nat) = fun _ => 0 := funext fun a => by fin_cases a <;> rfl

/-- The body's result opened: every load is of a whole buffer and the one store fills the whole
    output buffer, so the result is the last payload of the input blocks themselves. -/
theorem out0_17_eq (x0 : Vec F S2000x128 .f32) (x1 : Vec F S2000x128 .f32) (x2 : Vec F S2000x128 .f32) (x3 : Vec F S2000x1 .f32) (x4 : Vec F S128x384 .bf16) (x5 : Vec F S1x128 .f32) (x6 : Vec F S1x128 .f32) (x7 : Vec F S1x128 .f32) (x8 : Vec F S128x128 .bf16) (x9 : Vec F S128x128 .bf16) (x10 : Vec F S1x128 .f32) (x11 : Vec F S128x128 .bf16) (x12 : Vec F S128x128 .bf16) (x13 : Vec F S1x128 .f32) (x14 : Vec F S128x128 .bf16) (x15 : Vec F S128x128 .bf16) (x16 : Vec F S1x128 .f32) :
    out0_17 x0 x1 x2 x3 x4 x5 x6 x7 x8 x9 x10 x11 x12 x13 x14 x15 x16 = k0_pay7 x2 (k0_pay2 x0 x1 x3 x4 x6) (k0_pay3 x0 x1 x3 x4 x7) (k0_pay4 x2)
      (k0_pay5 x0 x1 x3 x4 x5 x8) (k0_pay6 x2 x9) x10 x11 x12 x13 x14 x15 x16 := by
  unfold out0_17
  rw [View.canon_unit_zero hz]
  simp only [View.ld_unit_zero (S := S2000x128) hz, View.ld_unit_zero (S := S2000x1) hz, View.ld_unit_zero (S := S128x384) hz,
    View.ld_unit_zero (S := S1x128) hz, View.ld_unit_zero (S := S128x128) hz]

/-! ## The index maps over the grid -/

/-- The four row-blocked inputs and the output move with the point: block `t` along the rows, block
    0 along the columns (decided over the 50 points). -/
theorem idx_moving : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_17.index t (0 : Fin 2) = t.val ∧ win0_17.index t (1 : Fin 2) = 0 :=
  (by decide +kernel : ∀ t : Fin grid0.N, _)

/-- The thirteen small inputs stay at block (0, 0) (decided over the 50 points). -/
theorem idx_resident : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0 :=
  (by decide +kernel : ∀ t : Fin grid0.N, _)

/-! ## Each block read at explicit coordinates -/

/-- Row `p` of the block at point `t`, as a row of the 100000-row array: `2000 t + p`. -/
abbrev rowOf (t : Fin cfg0.N) (p : Fin 2000) : Fin 100000 :=
  ⟨t.val * 2000 + p.val, by have h1 := t.isLt; have hN : cfg0.N = 50 := N_0; have h2 := p.isLt; omega⟩

/-- Row `p` of window 0's block at point `t` is row `2000 t + p` of its array. -/
theorem iblk0_apply (c : Dev nD) (t : Fin cfg0.N) (p : Fin 2000) (k : Fin 128) :
    (iblk m c 0 t : Vec F S2000x128 .f32) (ix2 p k) = (V m c main_v38 : S100000x128.Idx → Elt F .f32) (ix2 (rowOf t p) k) := by
  obtain ⟨e0a, e0b, e1a, e1b, e2a, e2b, e3a, e3b, e17a, e17b⟩ := idx_moving t
  show V m c main_v38 (((cfg0.win 0).blk t).view.emb (ix2 p k)) = V m c main_v38 (ix2 (rowOf t p) k)
  have h : ((cfg0.win 0).blk t).view.emb (ix2 p k) = (ix2 (rowOf t p) k : S100000x128.Idx) := by
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  rw [h]

/-- Row `p` of window 1's block at point `t` is row `2000 t + p` of its array. -/
theorem iblk1_apply (c : Dev nD) (t : Fin cfg0.N) (p : Fin 2000) (k : Fin 128) :
    (iblk m c 1 t : Vec F S2000x128 .f32) (ix2 p k) = (V m c main_arg0 : S100000x128.Idx → Elt F .f32) (ix2 (rowOf t p) k) := by
  obtain ⟨e0a, e0b, e1a, e1b, e2a, e2b, e3a, e3b, e17a, e17b⟩ := idx_moving t
  show V m c main_arg0 (((cfg0.win 1).blk t).view.emb (ix2 p k)) = V m c main_arg0 (ix2 (rowOf t p) k)
  have h : ((cfg0.win 1).blk t).view.emb (ix2 p k) = (ix2 (rowOf t p) k : S100000x128.Idx) := by
    funext a; apply Fin.ext
    match a with
    | ⟨0, _⟩ => show win0_1.index t (0 : Fin 2) * 2000 + 1 * p.val = t.val * 2000 + p.val; omega
    | ⟨1, _⟩ => show win0_1.index t (1 : Fin 2) * 128 + 1 * k.val = k.val; omega
  rw [h]

/-- Row `p` of window 2's block at point `t` is row `2000 t + p` of its array. -/
theorem iblk2_apply (c : Dev nD) (t : Fin cfg0.N) (p : Fin 2000) (k : Fin 128) :
    (iblk m c 2 t : Vec F S2000x128 .f32) (ix2 p k) = (V m c main_arg2 : S100000x128.Idx → Elt F .f32) (ix2 (rowOf t p) k) := by
  obtain ⟨e0a, e0b, e1a, e1b, e2a, e2b, e3a, e3b, e17a, e17b⟩ := idx_moving t
  show V m c main_arg2 (((cfg0.win 2).blk t).view.emb (ix2 p k)) = V m c main_arg2 (ix2 (rowOf t p) k)
  have h : ((cfg0.win 2).blk t).view.emb (ix2 p k) = (ix2 (rowOf t p) k : S100000x128.Idx) := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * k.val = k.val; omega
  rw [h]

/-- Row `p` of window 3's block at point `t` is row `2000 t + p` of its array. -/
theorem iblk3_apply (c : Dev nD) (t : Fin cfg0.N) (p : Fin 2000) (k : Fin 1) :
    (iblk m c 3 t : Vec F S2000x1 .f32) (ix2 p k) = (V m c main_v40 : S100000x1.Idx → Elt F .f32) (ix2 (rowOf t p) k) := by
  obtain ⟨e0a, e0b, e1a, e1b, e2a, e2b, e3a, e3b, e17a, e17b⟩ := idx_moving t
  show V m c main_v40 (((cfg0.win 3).blk t).view.emb (ix2 p k)) = V m c main_v40 (ix2 (rowOf t p) k)
  have h : ((cfg0.win 3).blk t).view.emb (ix2 p k) = (ix2 (rowOf t p) k : S100000x1.Idx) := by
    funext a; apply Fin.ext
    match a with
    | ⟨0, _⟩ => show win0_3.index t (0 : Fin 2) * 2000 + 1 * p.val = t.val * 2000 + p.val; omega
    | ⟨1, _⟩ => show win0_3.index t (1 : Fin 2) * 1 + 1 * k.val = k.val; omega
  rw [h]

/-- Window 4 holds its whole array at every point. -/
theorem iblk4_apply (c : Dev nD) (t : Fin cfg0.N) (a : Fin 128) (b : Fin 384) :
    (iblk m c 4 t : Vec F S128x384 .bf16) (ix2 a b) = (V m c main_v42 : S128x384.Idx → Elt F .bf16) (ix2 a b) := by
  obtain ⟨e4a, e4b, e5a, e5b, e6a, e6b, e7a, e7b, e8a, e8b, e9a, e9b, e10a, e10b, e11a, e11b, e12a, e12b, e13a, e13b, e14a, e14b, e15a, e15b, e16a, e16b⟩ := idx_resident t
  show V m c main_v42 (((cfg0.win 4).blk t).view.emb (ix2 a b)) = V m c main_v42 (ix2 a b)
  have h : ((cfg0.win 4).blk t).view.emb (ix2 a b) = (ix2 a b : S128x384.Idx) := by
    funext d; apply Fin.ext
    match d with
    | ⟨0, _⟩ => show win0_4.index t (0 : Fin 2) * 128 + 1 * a.val = a.val; omega
    | ⟨1, _⟩ => show win0_4.index t (1 : Fin 2) * 384 + 1 * b.val = b.val; omega
  rw [h]

/-- Window 5 holds its whole array at every point. -/
theorem iblk5_apply (c : Dev nD) (t : Fin cfg0.N) (a : Fin 1) (b : Fin 128) :
    (iblk m c 5 t : Vec F S1x128 .f32) (ix2 a b) = (V m c main_v43 : S1x128.Idx → Elt F .f32) (ix2 a b) := by
  obtain ⟨e4a, e4b, e5a, e5b, e6a, e6b, e7a, e7b, e8a, e8b, e9a, e9b, e10a, e10b, e11a, e11b, e12a, e12b, e13a, e13b, e14a, e14b, e15a, e15b, e16a, e16b⟩ := idx_resident t
  show V m c main_v43 (((cfg0.win 5).blk t).view.emb (ix2 a b)) = V m c main_v43 (ix2 a b)
  have h : ((cfg0.win 5).blk t).view.emb (ix2 a b) = (ix2 a b : S1x128.Idx) := by
    funext d; apply Fin.ext
    match d with
    | ⟨0, _⟩ => show win0_5.index t (0 : Fin 2) * 1 + 1 * a.val = a.val; omega
    | ⟨1, _⟩ => show win0_5.index t (1 : Fin 2) * 128 + 1 * b.val = b.val; omega
  rw [h]

/-- Window 6 holds its whole array at every point. -/
theorem iblk6_apply (c : Dev nD) (t : Fin cfg0.N) (a : Fin 1) (b : Fin 128) :
    (iblk m c 6 t : Vec F S1x128 .f32) (ix2 a b) = (V m c main_v44 : S1x128.Idx → Elt F .f32) (ix2 a b) := by
  obtain ⟨e4a, e4b, e5a, e5b, e6a, e6b, e7a, e7b, e8a, e8b, e9a, e9b, e10a, e10b, e11a, e11b, e12a, e12b, e13a, e13b, e14a, e14b, e15a, e15b, e16a, e16b⟩ := idx_resident t
  show V m c main_v44 (((cfg0.win 6).blk t).view.emb (ix2 a b)) = V m c main_v44 (ix2 a b)
  have h : ((cfg0.win 6).blk t).view.emb (ix2 a b) = (ix2 a b : S1x128.Idx) := by
    funext d; apply Fin.ext
    match d with
    | ⟨0, _⟩ => show win0_6.index t (0 : Fin 2) * 1 + 1 * a.val = a.val; omega
    | ⟨1, _⟩ => show win0_6.index t (1 : Fin 2) * 128 + 1 * b.val = b.val; omega
  rw [h]

/-- Window 7 holds its whole array at every point. -/
theorem iblk7_apply (c : Dev nD) (t : Fin cfg0.N) (a : Fin 1) (b : Fin 128) :
    (iblk m c 7 t : Vec F S1x128 .f32) (ix2 a b) = (V m c main_v45 : S1x128.Idx → Elt F .f32) (ix2 a b) := by
  obtain ⟨e4a, e4b, e5a, e5b, e6a, e6b, e7a, e7b, e8a, e8b, e9a, e9b, e10a, e10b, e11a, e11b, e12a, e12b, e13a, e13b, e14a, e14b, e15a, e15b, e16a, e16b⟩ := idx_resident t
  show V m c main_v45 (((cfg0.win 7).blk t).view.emb (ix2 a b)) = V m c main_v45 (ix2 a b)
  have h : ((cfg0.win 7).blk t).view.emb (ix2 a b) = (ix2 a b : S1x128.Idx) := by
    funext d; apply Fin.ext
    match d with
    | ⟨0, _⟩ => show win0_7.index t (0 : Fin 2) * 1 + 1 * a.val = a.val; omega
    | ⟨1, _⟩ => show win0_7.index t (1 : Fin 2) * 128 + 1 * b.val = b.val; omega
  rw [h]

/-- Window 8 holds its whole array at every point. -/
theorem iblk8_apply (c : Dev nD) (t : Fin cfg0.N) (a : Fin 128) (b : Fin 128) :
    (iblk m c 8 t : Vec F S128x128 .bf16) (ix2 a b) = (V m c main_v50 : S128x128.Idx → Elt F .bf16) (ix2 a b) := by
  obtain ⟨e4a, e4b, e5a, e5b, e6a, e6b, e7a, e7b, e8a, e8b, e9a, e9b, e10a, e10b, e11a, e11b, e12a, e12b, e13a, e13b, e14a, e14b, e15a, e15b, e16a, e16b⟩ := idx_resident t
  show V m c main_v50 (((cfg0.win 8).blk t).view.emb (ix2 a b)) = V m c main_v50 (ix2 a b)
  have h : ((cfg0.win 8).blk t).view.emb (ix2 a b) = (ix2 a b : S128x128.Idx) := by
    funext d; apply Fin.ext
    match d with
    | ⟨0, _⟩ => show win0_8.index t (0 : Fin 2) * 128 + 1 * a.val = a.val; omega
    | ⟨1, _⟩ => show win0_8.index t (1 : Fin 2) * 128 + 1 * b.val = b.val; omega
  rw [h]

/-- Window 9 holds its whole array at every point. -/
theorem iblk9_apply (c : Dev nD) (t : Fin cfg0.N) (a : Fin 128) (b : Fin 128) :
    (iblk m c 9 t : Vec F S128x128 .bf16) (ix2 a b) = (V m c main_v52 : S128x128.Idx → Elt F .bf16) (ix2 a b) := by
  obtain ⟨e4a, e4b, e5a, e5b, e6a, e6b, e7a, e7b, e8a, e8b, e9a, e9b, e10a, e10b, e11a, e11b, e12a, e12b, e13a, e13b, e14a, e14b, e15a, e15b, e16a, e16b⟩ := idx_resident t
  show V m c main_v52 (((cfg0.win 9).blk t).view.emb (ix2 a b)) = V m c main_v52 (ix2 a b)
  have h : ((cfg0.win 9).blk t).view.emb (ix2 a b) = (ix2 a b : S128x128.Idx) := by
    funext d; apply Fin.ext
    match d with
    | ⟨0, _⟩ => show win0_9.index t (0 : Fin 2) * 128 + 1 * a.val = a.val; omega
    | ⟨1, _⟩ => show win0_9.index t (1 : Fin 2) * 128 + 1 * b.val = b.val; omega
  rw [h]

/-- Window 10 holds its whole array at every point. -/
theorem iblk10_apply (c : Dev nD) (t : Fin cfg0.N) (a : Fin 1) (b : Fin 128) :
    (iblk m c 10 t : Vec F S1x128 .f32) (ix2 a b) = (V m c main_v46 : S1x128.Idx → Elt F .f32) (ix2 a b) := by
  obtain ⟨e4a, e4b, e5a, e5b, e6a, e6b, e7a, e7b, e8a, e8b, e9a, e9b, e10a, e10b, e11a, e11b, e12a, e12b, e13a, e13b, e14a, e14b, e15a, e15b, e16a, e16b⟩ := idx_resident t
  show V m c main_v46 (((cfg0.win 10).blk t).view.emb (ix2 a b)) = V m c main_v46 (ix2 a b)
  have h : ((cfg0.win 10).blk t).view.emb (ix2 a b) = (ix2 a b : S1x128.Idx) := by
    funext d; apply Fin.ext
    match d with
    | ⟨0, _⟩ => show win0_10.index t (0 : Fin 2) * 1 + 1 * a.val = a.val; omega
    | ⟨1, _⟩ => show win0_10.index t (1 : Fin 2) * 128 + 1 * b.val = b.val; omega
  rw [h]

/-- Window 11 holds its whole array at every point. -/
theorem iblk11_apply (c : Dev nD) (t : Fin cfg0.N) (a : Fin 128) (b : Fin 128) :
    (iblk m c 11 t : Vec F S128x128 .bf16) (ix2 a b) = (V m c main_v54 : S128x128.Idx → Elt F .bf16) (ix2 a b) := by
  obtain ⟨e4a, e4b, e5a, e5b, e6a, e6b, e7a, e7b, e8a, e8b, e9a, e9b, e10a, e10b, e11a, e11b, e12a, e12b, e13a, e13b, e14a, e14b, e15a, e15b, e16a, e16b⟩ := idx_resident t
  show V m c main_v54 (((cfg0.win 11).blk t).view.emb (ix2 a b)) = V m c main_v54 (ix2 a b)
  have h : ((cfg0.win 11).blk t).view.emb (ix2 a b) = (ix2 a b : S128x128.Idx) := by
    funext d; apply Fin.ext
    match d with
    | ⟨0, _⟩ => show win0_11.index t (0 : Fin 2) * 128 + 1 * a.val = a.val; omega
    | ⟨1, _⟩ => show win0_11.index t (1 : Fin 2) * 128 + 1 * b.val = b.val; omega
  rw [h]

/-- Window 12 holds its whole array at every point. -/
theorem iblk12_apply (c : Dev nD) (t : Fin cfg0.N) (a : Fin 128) (b : Fin 128) :
    (iblk m c 12 t : Vec F S128x128 .bf16) (ix2 a b) = (V m c main_v56 : S128x128.Idx → Elt F .bf16) (ix2 a b) := by
  obtain ⟨e4a, e4b, e5a, e5b, e6a, e6b, e7a, e7b, e8a, e8b, e9a, e9b, e10a, e10b, e11a, e11b, e12a, e12b, e13a, e13b, e14a, e14b, e15a, e15b, e16a, e16b⟩ := idx_resident t
  show V m c main_v56 (((cfg0.win 12).blk t).view.emb (ix2 a b)) = V m c main_v56 (ix2 a b)
  have h : ((cfg0.win 12).blk t).view.emb (ix2 a b) = (ix2 a b : S128x128.Idx) := by
    funext d; apply Fin.ext
    match d with
    | ⟨0, _⟩ => show win0_12.index t (0 : Fin 2) * 128 + 1 * a.val = a.val; omega
    | ⟨1, _⟩ => show win0_12.index t (1 : Fin 2) * 128 + 1 * b.val = b.val; omega
  rw [h]

/-- Window 13 holds its whole array at every point. -/
theorem iblk13_apply (c : Dev nD) (t : Fin cfg0.N) (a : Fin 1) (b : Fin 128) :
    (iblk m c 13 t : Vec F S1x128 .f32) (ix2 a b) = (V m c main_v47 : S1x128.Idx → Elt F .f32) (ix2 a b) := by
  obtain ⟨e4a, e4b, e5a, e5b, e6a, e6b, e7a, e7b, e8a, e8b, e9a, e9b, e10a, e10b, e11a, e11b, e12a, e12b, e13a, e13b, e14a, e14b, e15a, e15b, e16a, e16b⟩ := idx_resident t
  show V m c main_v47 (((cfg0.win 13).blk t).view.emb (ix2 a b)) = V m c main_v47 (ix2 a b)
  have h : ((cfg0.win 13).blk t).view.emb (ix2 a b) = (ix2 a b : S1x128.Idx) := by
    funext d; apply Fin.ext
    match d with
    | ⟨0, _⟩ => show win0_13.index t (0 : Fin 2) * 1 + 1 * a.val = a.val; omega
    | ⟨1, _⟩ => show win0_13.index t (1 : Fin 2) * 128 + 1 * b.val = b.val; omega
  rw [h]

/-- Window 14 holds its whole array at every point. -/
theorem iblk14_apply (c : Dev nD) (t : Fin cfg0.N) (a : Fin 128) (b : Fin 128) :
    (iblk m c 14 t : Vec F S128x128 .bf16) (ix2 a b) = (V m c main_v58 : S128x128.Idx → Elt F .bf16) (ix2 a b) := by
  obtain ⟨e4a, e4b, e5a, e5b, e6a, e6b, e7a, e7b, e8a, e8b, e9a, e9b, e10a, e10b, e11a, e11b, e12a, e12b, e13a, e13b, e14a, e14b, e15a, e15b, e16a, e16b⟩ := idx_resident t
  show V m c main_v58 (((cfg0.win 14).blk t).view.emb (ix2 a b)) = V m c main_v58 (ix2 a b)
  have h : ((cfg0.win 14).blk t).view.emb (ix2 a b) = (ix2 a b : S128x128.Idx) := by
    funext d; apply Fin.ext
    match d with
    | ⟨0, _⟩ => show win0_14.index t (0 : Fin 2) * 128 + 1 * a.val = a.val; omega
    | ⟨1, _⟩ => show win0_14.index t (1 : Fin 2) * 128 + 1 * b.val = b.val; omega
  rw [h]

/-- Window 15 holds its whole array at every point. -/
theorem iblk15_apply (c : Dev nD) (t : Fin cfg0.N) (a : Fin 128) (b : Fin 128) :
    (iblk m c 15 t : Vec F S128x128 .bf16) (ix2 a b) = (V m c main_v60 : S128x128.Idx → Elt F .bf16) (ix2 a b) := by
  obtain ⟨e4a, e4b, e5a, e5b, e6a, e6b, e7a, e7b, e8a, e8b, e9a, e9b, e10a, e10b, e11a, e11b, e12a, e12b, e13a, e13b, e14a, e14b, e15a, e15b, e16a, e16b⟩ := idx_resident t
  show V m c main_v60 (((cfg0.win 15).blk t).view.emb (ix2 a b)) = V m c main_v60 (ix2 a b)
  have h : ((cfg0.win 15).blk t).view.emb (ix2 a b) = (ix2 a b : S128x128.Idx) := by
    funext d; apply Fin.ext
    match d with
    | ⟨0, _⟩ => show win0_15.index t (0 : Fin 2) * 128 + 1 * a.val = a.val; omega
    | ⟨1, _⟩ => show win0_15.index t (1 : Fin 2) * 128 + 1 * b.val = b.val; omega
  rw [h]

/-- Window 16 holds its whole array at every point. -/
theorem iblk16_apply (c : Dev nD) (t : Fin cfg0.N) (a : Fin 1) (b : Fin 128) :
    (iblk m c 16 t : Vec F S1x128 .f32) (ix2 a b) = (V m c main_v48 : S1x128.Idx → Elt F .f32) (ix2 a b) := by
  obtain ⟨e4a, e4b, e5a, e5b, e6a, e6b, e7a, e7b, e8a, e8b, e9a, e9b, e10a, e10b, e11a, e11b, e12a, e12b, e13a, e13b, e14a, e14b, e15a, e15b, e16a, e16b⟩ := idx_resident t
  show V m c main_v48 (((cfg0.win 16).blk t).view.emb (ix2 a b)) = V m c main_v48 (ix2 a b)
  have h : ((cfg0.win 16).blk t).view.emb (ix2 a b) = (ix2 a b : S1x128.Idx) := by
    funext d; apply Fin.ext
    match d with
    | ⟨0, _⟩ => show win0_16.index t (0 : Fin 2) * 1 + 1 * a.val = a.val; omega
    | ⟨1, _⟩ => show win0_16.index t (1 : Fin 2) * 128 + 1 * b.val = b.val; omega
  rw [h]

/-! ## The output's blocks tile its array -/

/-- Element `(p, q)` of the output's block at point `t` sits at row `2000 t + p`, column `q` of the array. -/
theorem emb17 (t : Fin cfg0.N) (p : Fin 2000) (q : Fin 128) :
    ((cfg0.win 17).blk t).view.emb (ix2 p q) = (ix2 (rowOf t p) q : S100000x128.Idx) := by
  obtain ⟨e0a, e0b, e1a, e1b, e2a, e2b, e3a, e3b, e17a, e17b⟩ := idx_moving t
  funext a; apply Fin.ext
  match a with
  | ⟨0, _⟩ => show win0_17.index t (0 : Fin 2) * 2000 + 1 * p.val = t.val * 2000 + p.val; omega
  | ⟨1, _⟩ => show win0_17.index t (1 : Fin 2) * 128 + 1 * q.val = q.val; omega

/-- An index of the array is in point `t`'s block iff each coordinate is in the block's range on its axis. -/
theorem mem_blk17 (t : Fin cfg0.N) (i : S100000x128.Idx) :
    i ∈ ((cfg0.win 17).blk t).view.set ↔ ∀ a : Fin 2, win0_17.index t a * S2000x128.size a ≤ (i a).val ∧ (i a).val < win0_17.index t a * S2000x128.size a + S2000x128.size a := by
  show i ∈ ((View.whole main_v61).slice (win0_17.rect t)).set ↔ _
  rw [View.set_slice_whole, Rect.mem_set_unit]
  exact Iff.rfl

/-- Every index of the array lies in the block of the point its row falls to, `row / 2000`, and
    every point writes back: the fifty blocks of 2000 rows cover the 100000 rows. -/
theorem cover17 (i : S100000x128.Idx) :
    ∃ t : Fin cfg0.N, (cfg0.win 17).flush t = true ∧ i ∈ ((cfg0.win 17).blk t).view.set := by
  have hi0 : (i 0).val < 100000 := (i 0).isLt
  have hi1 : (i 1).val < 128 := (i 1).isLt
  have hN : cfg0.N = 50 := N_0
  have key : ∀ t : Fin cfg0.N, t.val = (i 0).val / 2000 → i ∈ ((cfg0.win 17).blk t).view.set := by
    intro t ht
    rw [mem_blk17]
    obtain ⟨e0a, e0b, e1a, e1b, e2a, e2b, e3a, e3b, e17a, e17b⟩ := idx_moving t
    intro a
    match a with
    | ⟨0, _⟩ => show win0_17.index t (0 : Fin 2) * 2000 ≤ (i 0).val ∧ (i 0).val < win0_17.index t (0 : Fin 2) * 2000 + 2000; omega
    | ⟨1, _⟩ => show win0_17.index t (1 : Fin 2) * 128 ≤ (i 1).val ∧ (i 1).val < win0_17.index t (1 : Fin 2) * 128 + 128; omega
  exact ⟨⟨(i 0).val / 2000, by rw [hN]; omega⟩, flush0_17 _, key _ rfl⟩

/-! ## From the blocks to the array, and the run -/

/-- If every point writes back the block of one function `G` of the array's indices, the output
    array ends holding `G`. -/
theorem final_of (c : Dev nD) (G : S100000x128.Idx → Elt F .f32)
    (hG : ∀ t, (dats m 0 c).flushed 17 t = ((cfg0.win 17).blk t).view.read (Elt F) G) :
    (dats m 0 c).arrAt 17 cfg0.N = G :=
  (dats m 0 c).arrAt_eq_of_cover 17 G (fun t _ => hG t) cover17

/-- After the frame run the output array is what the write-backs leave. -/
theorem post17 (r : PUnit × MemSt nD τ sig (Elt F)) (h : Pipeline.FramePost cfgs (dats m) 0 (V m) r) (c : Dev nD) :
    r.2.mem ((c.tc : Thread nD τ).loc main_v61) = (dats m 0 c).arrAt 17 cfg0.N :=
  (h c).1 17

/-- After the frame run each argument array is as launched: a staged one is never written back, an
    unstaged one is untouched by the region, and no host operation writes either. -/
theorem kept_main_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 1).trans (((dats m 0 c).arrAt_in 1 rfl _).trans ((A_eq m c 1).trans (V_main_arg0 m c)))
theorem kept_main_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)
theorem kept_main_arg2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
theorem kept_main_arg3 (r : PUnit × MemSt nD τ sig (Elt F)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
theorem kept_main_arg4 (r : PUnit × MemSt nD τ sig (Elt F)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
theorem kept_main_arg5 (r : PUnit × MemSt nD τ sig (Elt F)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
theorem kept_main_arg6 (r : PUnit × MemSt nD τ sig (Elt F)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)
theorem kept_main_arg7 (r : PUnit × MemSt nD τ sig (Elt F)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)
theorem kept_main_arg8 (r : PUnit × MemSt nD τ sig (Elt F)) (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)
theorem kept_main_arg9 (r : PUnit × MemSt nD τ sig (Elt F)) (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)
theorem kept_main_arg10 (r : PUnit × MemSt nD τ sig (Elt F)) (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)
theorem kept_main_arg11 (r : PUnit × MemSt nD τ sig (Elt F)) (h : Pipeline.FramePost cfgs (dats m) 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_main_arg11 m c)
theorem kept_main_arg12 (r : PUnit × MemSt nD τ sig (Elt F)) (h : Pipeline.FramePost cfgs (dats m) 0 (V m) r) (c : Dev nD) :
    r.2.mem ((c.tc : Thread nD τ).loc main_arg12) = m ((c.tc : Thread nD τ).loc main_arg12) :=
  ((h c).2 main_arg12 (Pipeline.mem_restRefs_of main_arg12 (by decide) (by decide))).trans (V_main_arg12 m c)
theorem kept_main_arg13 (r : PUnit × MemSt nD τ sig (Elt F)) (h : Pipeline.FramePost cfgs (dats m) 0 (V m) r) (c : Dev nD) :
    r.2.mem ((c.tc : Thread nD τ).loc main_arg13) = m ((c.tc : Thread nD τ).loc main_arg13) :=
  ((h c).2 main_arg13 (Pipeline.mem_restRefs_of main_arg13 (by decide) (by decide))).trans (V_main_arg13 m c)
theorem kept_main_arg14 (r : PUnit × MemSt nD τ sig (Elt F)) (h : Pipeline.FramePost cfgs (dats m) 0 (V m) r) (c : Dev nD) :
    r.2.mem ((c.tc : Thread nD τ).loc main_arg14) = m ((c.tc : Thread nD τ).loc main_arg14) :=
  ((h c).2 main_arg14 (Pipeline.mem_restRefs_of main_arg14 (by decide) (by decide))).trans (V_main_arg14 m c)

/-- The run, read: if every point writes back the block of `G c`, the program runs, its result array
    ends at `G c` and its fifteen arguments end as launched. -/
theorem run_of (G : Dev nD → S100000x128.Idx → Elt F .f32)
    (hG : ∀ c t, (dats m 0 c).flushed 17 t = ((cfg0.win 17).blk t).view.read (Elt F) (G c)) :
    θ_run defs (onTc (τ := τ) (main (F := F))) ⟨m, fun _ => 0, ρ⟩ fun r => ∀ c : Dev nD,
      r.2.mem ((c.tc : Thread nD τ).loc main_v61) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(post17 m r h c).trans (final_of m c (G c) (hG c)),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.KernelIdeal.Hand

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibColBroadcast.lean ====
/-
  A column broadcast over the columns, read at an index: a `[a, 1]` array broadcast to `[a, b]` reads, at `(p, c)`, the
  operand's row `p` (the `keepdims` form of a per-row scalar). General over the extents.
-/
import Idealize.ShloMosaic.Lib.Pipeline.Value
import Idealize.ShloMosaic.Lib.ValueIdx

noncomputable section

namespace Cert.Lib.ColBroadcast

open Idealize.ShloMosaic Idealize.ShloMosaic.ValueIdx

/-- A `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same through `broadcast_in_dim` with the identity axis map. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColBroadcast

end
-- ==== Proof.KernelBody.lean ====
/-
  The block arithmetic of a gated graph-convolution cell, read at one entry, at the ideal values.

  A block holds 2000 rows. With A the aggregated features, X the features, H the state and d the column of self-loop
  weights, the completed aggregate is  Z0 (p, i) = A (p, i) + d (p) * X (p, i).  One contraction with the three
  projection matrices laid side by side gives a [2000, 384] array; its three column blocks, each plus its bias row, are
  the three projected inputs  Zu, Zr, Zc  of the cell:
      blockZ off (p, j) = (sum over i of Z0 (p, i) * W (i, j + off)) + b (j).
  Each gate is two contractions (one with the projected input, one with the state or the reset state) plus a bias row,
  and the new state is  U * H + (1 - U) * C.  Rounding an operand to a narrower format is the identity at the ideal
  values, and a product into a zero accumulator is the plain contraction sum, so the block's result at (p, j) is the
  cell of the specification at row p of the block, column j.
-/
import proofs.«104820_j11836929868497_2_alg».proof.Proof.Gen.KernelIdeal.Skeleton
import proofs.«104820_j11836929868497_2_alg».proof.Proof.TgcnSpec
import proofs.«104820_j11836929868497_2_alg».proof.Proof.LibPlainDot
import proofs.«104820_j11836929868497_2_alg».proof.Proof.LibColBroadcast
import Idealize.ShloMosaic.Lib.ValueIdx
import Idealize.ShloMosaic.Lib.ValueLayout
import Idealize.ShloMosaic.Lib.Pipeline.Value

noncomputable section

open scoped BigOperators

namespace Cert.Tgcn.Body

open Cert.KernelIdeal Cert.KernelIdeal.Gen Idealize.ShloMosaic Idealize.ShloMosaic.ValueIdx

/-- The dimension numbers of the wide product are those of a plain 2000 x 128 by 128 x 384 product. -/
theorem dot384_plain : dot_S2000x128_S128x384_S2000x384_1_0_0_1_n_n = DotDims.plain 2000 128 384 := rfl

/-- The dimension numbers of the gate products are those of a plain 2000 x 128 by 128 x 128 product. -/
theorem dot128_plain : dot_S2000x128_S128x128_S2000x128_1_0_0_1_n_n = DotDims.plain 2000 128 128 := rfl

/-- A block of `b'` columns of an `[a, b]` array, sliced out from column offset `off`, reads the array at the
    shifted column. -/
theorem slice_cols_apply {α : Type} {a b b' : ℕ} (off : ℕ) (Y : (⟨2, ![a, b]⟩ : Shape).Idx → α)
    (h : (⟨2, ![a, b]⟩ : Shape).Slices ![0, off] ⟨2, ![a, b']⟩) (n : Fin a) (j : Fin b') (hj : j.val + off < b) :
    extractStridedSlice ⟨2, ![a, b']⟩ ![0, off] Y h (ix2 n j) = Y (ix2 n (⟨j.val + off, hj⟩ : Fin b)) := by
  refine extractStridedSlice_apply ![0, off] Y h _ (ix2 n (⟨j.val + off, hj⟩ : Fin b)) fun ax => ?_
  match ax with
  | ⟨0, _⟩ => show n.val = 0 + n.val; omega
  | ⟨1, _⟩ => show j.val + off = off + j.val; omega

/-- A plain product into a zero accumulator, at the entry `(p, q)`: the contraction of row `p` with column `q`. -/
theorem matmul_zero_ix2 {M K N : ℕ} {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant ⟨2, ![M, N]⟩ .f32 0x00000000#32) (ix2 p q)
      = ∑ k : Fin K, l (ix2 p k) * r (ix2 k q) :=
  Cert.Lib.PlainDot.matmul_zero_apply M K N none l r (ix2 p q)

/-- The wide product at an entry: the contraction of the completed aggregate's row with a column of the three
    projection matrices laid side by side. -/
theorem pay1_apply (x0 x1 : Vec Ideal S2000x128 .f32) (x3 : Vec Ideal S2000x1 .f32) (x4 : Vec Ideal S128x384 .bf16)
    (p : Fin 2000) (q : Fin 384) :
    k0_pay1 (F := Ideal) x0 x1 x3 x4 (ix2 p q)
      = ∑ i : Fin 128, (x0 (ix2 p i) + x3 (ix2 p 0) * x1 (ix2 p i)) * x4 (ix2 i q) := by
  unfold k0_pay1
  rw [dot384_plain]
  refine (matmul_zero_ix2 _ _ p q).trans ?_
  refine Finset.sum_congr rfl fun i _ => ?_
  rw [truncf_apply, addf_apply, mulf_apply, shapeCast_self, shapeCast_self, shapeCast_self,
    Cert.Lib.ColBroadcast.broadcastTo_a1_ab_apply]

/-- A projected input of the cell at row `p` of the block, column `j`: the contraction of the completed aggregate's
    row with column `j + off` of the side-by-side projections, plus the bias. -/
def blockZ (x0 x1 : Vec Ideal S2000x128 .f32) (x3 : Vec Ideal S2000x1 .f32) (x4 : Vec Ideal S128x384 .bf16)
    (b : Vec Ideal S1x128 .f32) (off : ℕ) (hoff : off + 128 ≤ 384) (p : Fin 2000) (j : Fin 128) : EReal :=
  (∑ i : Fin 128, (x0 (ix2 p i) + x3 (ix2 p 0) * x1 (ix2 p i)) * x4 (ix2 i ⟨j.val + off, by omega⟩)) + b (ix2 0 j)

/-- A column block of the wide product plus its bias row broadcast down the rows is a projected input. -/
theorem zblock_apply (x0 x1 : Vec Ideal S2000x128 .f32) (x3 : Vec Ideal S2000x1 .f32) (x4 : Vec Ideal S128x384 .bf16)
    (b : Vec Ideal S1x128 .f32) (off : ℕ) (hoff : off + 128 ≤ 384) (h : S2000x384.Slices ![0, off] S2000x128)
    (p : Fin 2000) (j : Fin 128) :
    addf (extractStridedSlice S2000x128 ![0, off] (k0_pay1 (F := Ideal) x0 x1 x3 x4) h)
        (broadcastTo S2000x128 (shapeCast S1x128 b shapeCasts_S1x128_S1x128) broadcasts_S1x128_S2000x128) (ix2 p j)
      = blockZ x0 x1 x3 x4 b off hoff p j := by
  rw [addf_apply, slice_cols_apply off _ h p j (by omega), shapeCast_self, broadcastTo_1b_ab_apply, pay1_apply]
  rfl

/-- The reset gate's projected input. -/
theorem pay2_apply (x0 x1 : Vec Ideal S2000x128 .f32) (x3 : Vec Ideal S2000x1 .f32) (x4 : Vec Ideal S128x384 .bf16)
    (x6 : Vec Ideal S1x128 .f32) (p : Fin 2000) (j : Fin 128) :
    k0_pay2 (F := Ideal) x0 x1 x3 x4 x6 (ix2 p j) = blockZ x0 x1 x3 x4 x6 128 (by omega) p j := by
  unfold k0_pay2
  exact zblock_apply x0 x1 x3 x4 x6 128 (by omega) slices_S2000x384_o0_128_S2000x128 p j

/-- The candidate's projected input. -/
theorem pay3_apply (x0 x1 : Vec Ideal S2000x128 .f32) (x3 : Vec Ideal S2000x1 .f32) (x4 : Vec Ideal S128x384 .bf16)
    (x7 : Vec Ideal S1x128 .f32) (p : Fin 2000) (j : Fin 128) :
    k0_pay3 (F := Ideal) x0 x1 x3 x4 x7 (ix2 p j) = blockZ x0 x1 x3 x4 x7 256 (by omega) p j := by
  unfold k0_pay3
  exact zblock_apply x0 x1 x3 x4 x7 256 (by omega) slices_S2000x384_o0_256_S2000x128 p j

/-- Rounding the state to the narrower format is the identity at the ideal values. -/
theorem pay4_apply (x2 : Vec Ideal S2000x128 .f32) (p : Fin 2000) (j : Fin 128) :
    k0_pay4 (F := Ideal) x2 (ix2 p j) = x2 (ix2 p j) := rfl

/-- The update gate's first contraction: its projected input with the top half of the gate's matrix. -/
theorem pay5_apply (x0 x1 : Vec Ideal S2000x128 .f32) (x3 : Vec Ideal S2000x1 .f32) (x4 : Vec Ideal S128x384 .bf16)
    (x5 : Vec Ideal S1x128 .f32) (x8 : Vec Ideal S128x128 .bf16) (p : Fin 2000) (j : Fin 128) :
    k0_pay5 (F := Ideal) x0 x1 x3 x4 x5 x8 (ix2 p j)
      = ∑ k : Fin 128, blockZ x0 x1 x3 x4 x5 0 (by omega) p k * x8 (ix2 k j) := by
  unfold k0_pay5
  rw [dot128_plain]
  refine (matmul_zero_ix2 _ _ p j).trans ?_
  refine Finset.sum_congr rfl fun k _ => ?_
  rw [truncf_apply, zblock_apply x0 x1 x3 x4 x5 0 (by omega) slices_S2000x384_o0_0_S2000x128 p k, shapeCast_self]

/-- The update gate's second contraction: the state with the bottom half of the gate's matrix. -/
theorem pay6_apply (x2 : Vec Ideal S2000x128 .f32) (x9 : Vec Ideal S128x128 .bf16) (p : Fin 2000) (j : Fin 128) :
    k0_pay6 (F := Ideal) x2 x9 (ix2 p j) = ∑ k : Fin 128, x2 (ix2 p k) * x9 (ix2 k j) := by
  unfold k0_pay6
  rw [dot128_plain]
  refine (matmul_zero_ix2 _ _ p j).trans ?_
  refine Finset.sum_congr rfl fun k _ => ?_
  rw [shapeCast_self]
  rfl

/-- The logistic function of an array, at an entry. -/
theorem logistic_read {s : Shape} {φ : FTy} (a : FVec Ideal s φ) (i : s.Idx) : logistic a i = Ideal.logistic (a i) := rfl

/-- The hyperbolic tangent of an array, at an entry. -/
theorem tanh_read {s : Shape} {φ : FTy} (a : FVec Ideal s φ) (i : s.Idx) : tanh a i = Ideal.tanh (a i) := rfl

/-- The cell's last stage at an entry, over any values of the earlier stages: the update gate `U` from the two
    contractions already formed, the reset gate and the candidate from their two contractions each, and
    `U * H + (1 - U) * C`. -/
theorem pay7_apply (v3 : Vec Ideal S2000x128 .f32) (v22 v27 : FVec Ideal S2000x128 .f32)
    (v28 : FVec Ideal S2000x128 .bf16) (v32 v35 : FVec Ideal S2000x128 .f32) (x10 : Vec Ideal S1x128 .f32)
    (x11 x12 : Vec Ideal S128x128 .bf16) (x13 : Vec Ideal S1x128 .f32) (x14 x15 : Vec Ideal S128x128 .bf16)
    (x16 : Vec Ideal S1x128 .f32) (p : Fin 2000) (j : Fin 128) :
    k0_pay7 (F := Ideal) v3 v22 v27 v28 v32 v35 x10 x11 x12 x13 x14 x15 x16 (ix2 p j)
      = Ideal.logistic ((v32 (ix2 p j) + v35 (ix2 p j)) + x10 (ix2 0 j)) * v3 (ix2 p j)
        + (Ideal.ofBits .f32 0x3F800000#32 - Ideal.logistic ((v32 (ix2 p j) + v35 (ix2 p j)) + x10 (ix2 0 j)))
          * Ideal.tanh (((∑ k : Fin 128, v27 (ix2 p k) * x14 (ix2 k j))
              + ∑ k : Fin 128, (v3 (ix2 p k)
                  * Ideal.logistic (((∑ i : Fin 128, v22 (ix2 p i) * x11 (ix2 i k))
                      + ∑ i : Fin 128, v28 (ix2 p i) * x12 (ix2 i k)) + x13 (ix2 0 k))) * x15 (ix2 k j))
            + x16 (ix2 0 j)) := by
  unfold k0_pay7
  rw [dot128_plain]
  simp only [addf_apply, mulf_apply, subf_apply, broadcast_apply, truncf_apply, shapeCast_self,
    broadcastTo_1b_ab_apply, matmul_zero_ix2, logistic_read, tanh_read, Ideal.ofBits_def]

/-- THE BLOCK'S RESULT AT AN ENTRY is the cell of the specification, with split gates, on the block's projected
    inputs and state, at that row and column. -/
theorem body_apply (x0 x1 x2 : Vec Ideal S2000x128 .f32) (x3 : Vec Ideal S2000x1 .f32) (x4 : Vec Ideal S128x384 .bf16)
    (x5 x6 x7 : Vec Ideal S1x128 .f32) (x8 x9 : Vec Ideal S128x128 .bf16) (x10 : Vec Ideal S1x128 .f32)
    (x11 x12 : Vec Ideal S128x128 .bf16) (x13 : Vec Ideal S1x128 .f32) (x14 x15 : Vec Ideal S128x128 .bf16)
    (x16 : Vec Ideal S1x128 .f32) (p : Fin 2000) (j : Fin 128) :
    k0_pay7 (F := Ideal) x2 (k0_pay2 x0 x1 x3 x4 x6) (k0_pay3 x0 x1 x3 x4 x7) (k0_pay4 x2) (k0_pay5 x0 x1 x3 x4 x5 x8)
        (k0_pay6 x2 x9) x10 x11 x12 x13 x14 x15 x16 (ix2 p j)
      = Cert.Tgcn.gru (Ideal.ofBits .f32 0x3F800000#32)
          (Cert.Tgcn.gateSplit (fun k q => x8 (ix2 k q)) (fun k q => x9 (ix2 k q)) (fun q => x10 (ix2 0 q)))
          (Cert.Tgcn.gateSplit (fun k q => x11 (ix2 k q)) (fun k q => x12 (ix2 k q)) (fun q => x13 (ix2 0 q)))
          (Cert.Tgcn.gateSplit (fun k q => x14 (ix2 k q)) (fun k q => x15 (ix2 k q)) (fun q => x16 (ix2 0 q)))
          (blockZ x0 x1 x3 x4 x5 0 (by omega)) (blockZ x0 x1 x3 x4 x6 128 (by omega))
          (blockZ x0 x1 x3 x4 x7 256 (by omega)) (fun p' k => x2 (ix2 p' k)) p j := by
  rw [pay7_apply]
  simp only [pay2_apply, pay3_apply, pay4_apply, pay5_apply, pay6_apply]
  rfl

end Cert.Tgcn.Body

end
-- ==== Proof.KernelCell.lean ====
/-
  From a block of rows to the whole array, for the gated cell as the kernel arranges it.

  The kernel computes the cell on a block of 2000 rows. Write `row p` for the array row that the block's row `p` holds.
  If every entry the body reads from its blocks is the corresponding entry of the whole arrays — the aggregated
  features, the features, the state and the self-loop weight at row `row p`; the projection matrices, the biases and
  the halves of the gate matrices as they are — then the completed pre-activation of a block row is the convolution at
  that array row, and, the cell reading row `p` of its inputs only, the body's result at `(p, j)` is the cell of the
  whole arrays at `(row p, j)`.
-/
import proofs.«104820_j11836929868497_2_alg».proof.Proof.KernelBody
import proofs.«104820_j11836929868497_2_alg».proof.Proof.TgcnSpec

noncomputable section

open scoped BigOperators

namespace Cert.Tgcn.Body

open Cert.KernelIdeal Idealize.ShloMosaic Idealize.ShloMosaic.ValueIdx Cert.Tgcn

variable {E : Type} (S : Fin 100000 → Finset E) (w : E → EReal) (src : E → Fin 100000) (d2 : Fin 100000 → EReal)
  (X Hh : Fin 100000 → Fin 128 → EReal) (row : Fin 2000 → Fin 100000)

/-- The completed pre-activation of a block of rows is the convolution at the rows the block holds. -/
theorem blockZ_eq (W : Fin 128 → Fin 128 → EReal) (b : Fin 128 → EReal)
    (x0 x1 : Vec Ideal S2000x128 .f32) (x3 : Vec Ideal S2000x1 .f32) (x4 : Vec Ideal S128x384 .bf16)
    (x5 : Vec Ideal S1x128 .f32) (off : ℕ) (hoff : off + 128 ≤ 384)
    (h0 : ∀ p k, x0 (ix2 p k) = aggr S w src X (row p) k) (h1 : ∀ p k, x1 (ix2 p k) = X (row p) k)
    (h3 : ∀ p, x3 (ix2 p 0) = d2 (row p)) (h4 : ∀ (i j : Fin 128), x4 (ix2 i ⟨j.val + off, by omega⟩) = W i j)
    (h5 : ∀ j, x5 (ix2 0 j) = b j) :
    blockZ x0 x1 x3 x4 x5 off hoff = fun p => convKer S w src d2 X W b (row p) := by
  funext p j
  unfold blockZ convKer
  rw [h5]
  congr 1
  exact Finset.sum_congr rfl fun i _ => by rw [h0, h1, h3, h4]

/-- THE BODY'S CELL ON A BLOCK IS THE CELL OF THE WHOLE ARRAYS AT THE ROW THE BLOCK HOLDS. -/
theorem cell_eq (one : EReal) (Wu Wr Wc : Fin 128 → Fin 128 → EReal) (bu br bc : Fin 128 → EReal)
    (Lu Lr Lc : Fin 256 → Fin 128 → EReal) (lub lrb lcb : Fin 128 → EReal)
    (x0 x1 x2 : Vec Ideal S2000x128 .f32) (x3 : Vec Ideal S2000x1 .f32) (x4 : Vec Ideal S128x384 .bf16)
    (x5 x6 x7 : Vec Ideal S1x128 .f32) (x8 x9 : Vec Ideal S128x128 .bf16) (x10 : Vec Ideal S1x128 .f32)
    (x11 x12 : Vec Ideal S128x128 .bf16) (x13 : Vec Ideal S1x128 .f32) (x14 x15 : Vec Ideal S128x128 .bf16)
    (x16 : Vec Ideal S1x128 .f32)
    (h0 : ∀ p k, x0 (ix2 p k) = aggr S w src X (row p) k) (h1 : ∀ p k, x1 (ix2 p k) = X (row p) k)
    (h2 : ∀ p k, x2 (ix2 p k) = Hh (row p) k) (h3 : ∀ p, x3 (ix2 p 0) = d2 (row p))
    (h4u : ∀ (i j : Fin 128), x4 (ix2 i ⟨j.val + 0, by omega⟩) = Wu i j)
    (h4r : ∀ (i j : Fin 128), x4 (ix2 i ⟨j.val + 128, by omega⟩) = Wr i j)
    (h4c : ∀ (i j : Fin 128), x4 (ix2 i ⟨j.val + 256, by omega⟩) = Wc i j)
    (h5 : ∀ j, x5 (ix2 0 j) = bu j) (h6 : ∀ j, x6 (ix2 0 j) = br j) (h7 : ∀ j, x7 (ix2 0 j) = bc j)
    (h8 : ∀ k q, x8 (ix2 k q) = top Lu k q) (h9 : ∀ k q, x9 (ix2 k q) = bot Lu k q) (h10 : ∀ q, x10 (ix2 0 q) = lub q)
    (h11 : ∀ k q, x11 (ix2 k q) = top Lr k q) (h12 : ∀ k q, x12 (ix2 k q) = bot Lr k q) (h13 : ∀ q, x13 (ix2 0 q) = lrb q)
    (h14 : ∀ k q, x14 (ix2 k q) = top Lc k q) (h15 : ∀ k q, x15 (ix2 k q) = bot Lc k q) (h16 : ∀ q, x16 (ix2 0 q) = lcb q)
    (p : Fin 2000) (j : Fin 128) :
    gru one
        (gateSplit (fun k q => x8 (ix2 k q)) (fun k q => x9 (ix2 k q)) (fun q => x10 (ix2 0 q)))
        (gateSplit (fun k q => x11 (ix2 k q)) (fun k q => x12 (ix2 k q)) (fun q => x13 (ix2 0 q)))
        (gateSplit (fun k q => x14 (ix2 k q)) (fun k q => x15 (ix2 k q)) (fun q => x16 (ix2 0 q)))
        (blockZ x0 x1 x3 x4 x5 0 (by omega)) (blockZ x0 x1 x3 x4 x6 128 (by omega)) (blockZ x0 x1 x3 x4 x7 256 (by omega))
        (fun p' k => x2 (ix2 p' k)) p j
      = outKer one S w src d2 X Hh Wu Wr Wc bu br bc Lu Lr Lc lub lrb lcb (row p) j := by
  have e8 : (fun k q => x8 (ix2 k q)) = top Lu := funext fun k => funext fun q => h8 k q
  have e9 : (fun k q => x9 (ix2 k q)) = bot Lu := funext fun k => funext fun q => h9 k q
  have e10 : (fun q => x10 (ix2 0 q)) = lub := funext h10
  have e11 : (fun k q => x11 (ix2 k q)) = top Lr := funext fun k => funext fun q => h11 k q
  have e12 : (fun k q => x12 (ix2 k q)) = bot Lr := funext fun k => funext fun q => h12 k q
  have e13 : (fun q => x13 (ix2 0 q)) = lrb := funext h13
  have e14 : (fun k q => x14 (ix2 k q)) = top Lc := funext fun k => funext fun q => h14 k q
  have e15 : (fun k q => x15 (ix2 k q)) = bot Lc := funext fun k => funext fun q => h15 k q
  have e16 : (fun q => x16 (ix2 0 q)) = lcb := funext h16
  have e2 : (fun p' k => x2 (ix2 p' k)) = fun p' => Hh (row p') := funext fun p' => funext fun k => h2 p' k
  rw [e8, e9, e10, e11, e12, e13, e14, e15, e16, e2,
    blockZ_eq S w src d2 X row Wu bu x0 x1 x3 x4 x5 0 (by omega) h0 h1 h3 h4u h5,
    blockZ_eq S w src d2 X row Wr br x0 x1 x3 x4 x6 128 (by omega) h0 h1 h3 h4r h6,
    blockZ_eq S w src d2 X row Wc bc x0 x1 x3 x4 x7 256 (by omega) h0 h1 h3 h4c h7]
  exact gru_split_rows row one (top Lu) (bot Lu) (top Lr) (bot Lr) (top Lc) (bot Lc) lub lrb lcb
    (convKer S w src d2 X Wu bu) (convKer S w src d2 X Wr br) (convKer S w src d2 X Wc bc) Hh p j

end Cert.Tgcn.Body

end
-- ==== Proof.KernelFlushed.lean ====
/-
  What one grid point writes back, as a block of one function of the whole arrays.

  Suppose the arrays the region finds hold, entry by entry, the aggregated features, the features, the state, the
  self-loop weights, the three projection matrices side by side, the biases, and the halves of the gate matrices with
  their biases. Then the block that grid point `t` writes back to the result array is rows `2000 t … 2000 t + 1999` of
  the gated cell of those whole arrays; the fifty blocks tile the result array, so the run leaves the cell of the whole
  arrays there.
-/
import proofs.«104820_j11836929868497_2_alg».proof.Proof.KernelBlocks
import proofs.«104820_j11836929868497_2_alg».proof.Proof.KernelCell

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The body's result on blocks whose entries are entries of the whole arrays at the rows `row p`: at `(p, j)` it is
    the cell of the whole arrays at `(row p, j)`. -/
theorem block_cell {E : Type} (S : Fin 100000 → Finset E) (w : E → EReal) (src : E → Fin 100000) (d2 : Fin 100000 → EReal)
    (X Hh : Fin 100000 → Fin 128 → EReal) (Wu Wr Wc : Fin 128 → Fin 128 → EReal) (bu br bc : Fin 128 → EReal)
    (Lu Lr Lc : Fin 256 → Fin 128 → EReal) (lub lrb lcb : Fin 128 → EReal) (row : Fin 2000 → Fin 100000)
    (x0 x1 x2 : Vec Ideal S2000x128 .f32) (x3 : Vec Ideal S2000x1 .f32) (x4 : Vec Ideal S128x384 .bf16)
    (x5 x6 x7 : Vec Ideal S1x128 .f32) (x8 x9 : Vec Ideal S128x128 .bf16) (x10 : Vec Ideal S1x128 .f32)
    (x11 x12 : Vec Ideal S128x128 .bf16) (x13 : Vec Ideal S1x128 .f32) (x14 x15 : Vec Ideal S128x128 .bf16)
    (x16 : Vec Ideal S1x128 .f32)
    (h0 : ∀ p k, x0 (ix2 p k) = Cert.Tgcn.aggr S w src X (row p) k) (h1 : ∀ p k, x1 (ix2 p k) = X (row p) k)
    (h2 : ∀ p k, x2 (ix2 p k) = Hh (row p) k) (h3 : ∀ p, x3 (ix2 p 0) = d2 (row p))
    (h4u : ∀ (i j : Fin 128), x4 (ix2 i ⟨j.val + 0, by omega⟩) = Wu i j)
    (h4r : ∀ (i j : Fin 128), x4 (ix2 i ⟨j.val + 128, by omega⟩) = Wr i j)
    (h4c : ∀ (i j : Fin 128), x4 (ix2 i ⟨j.val + 256, by omega⟩) = Wc i j)
    (h5 : ∀ j, x5 (ix2 0 j) = bu j) (h6 : ∀ j, x6 (ix2 0 j) = br j) (h7 : ∀ j, x7 (ix2 0 j) = bc j)
    (h8 : ∀ k q, x8 (ix2 k q) = Cert.Tgcn.top Lu k q) (h9 : ∀ k q, x9 (ix2 k q) = Cert.Tgcn.bot Lu k q) (h10 : ∀ q, x10 (ix2 0 q) = lub q)
    (h11 : ∀ k q, x11 (ix2 k q) = Cert.Tgcn.top Lr k q) (h12 : ∀ k q, x12 (ix2 k q) = Cert.Tgcn.bot Lr k q) (h13 : ∀ q, x13 (ix2 0 q) = lrb q)
    (h14 : ∀ k q, x14 (ix2 k q) = Cert.Tgcn.top Lc k q) (h15 : ∀ k q, x15 (ix2 k q) = Cert.Tgcn.bot Lc k q) (h16 : ∀ q, x16 (ix2 0 q) = lcb q) :
    k0_pay7 (F := Ideal) x2 (k0_pay2 x0 x1 x3 x4 x6) (k0_pay3 x0 x1 x3 x4 x7) (k0_pay4 x2) (k0_pay5 x0 x1 x3 x4 x5 x8) (k0_pay6 x2 x9) x10 x11 x12 x13 x14 x15 x16
      = fun j : S2000x128.Idx => Cert.Tgcn.outKer (Ideal.ofBits .f32 0x3F800000#32) S w src d2 X Hh Wu Wr Wc bu br bc Lu Lr Lc lub lrb lcb (row (j 0)) (j 1) := by
  funext j
  obtain ⟨p, k, rfl⟩ : ∃ (p : Fin 2000) (k : Fin 128), j = ix2 p k := ⟨j 0, j 1, eq_ix2 j⟩
  refine (Cert.Tgcn.Body.body_apply x0 x1 x2 x3 x4 x5 x6 x7 x8 x9 x10 x11 x12 x13 x14 x15 x16 p k).trans ?_
  exact Cert.Tgcn.Body.cell_eq S w src d2 X Hh row (Ideal.ofBits .f32 0x3F800000#32) Wu Wr Wc bu br bc Lu Lr Lc lub lrb lcb
    x0 x1 x2 x3 x4 x5 x6 x7 x8 x9 x10 x11 x12 x13 x14 x15 x16 h0 h1 h2 h3 h4u h4r h4c h5 h6 h7 h8 h9 h10 h11 h12 h13 h14 h15 h16 p k

variable (m : (ℓ : Loc nD τ sig) → Buf (Elt Ideal) ℓ) (ρ : Dev nD → PrngReg)

/-- What point `t` writes back is block `t` of the cell of the whole arrays, given what the arrays the region finds
    hold entry by entry. -/
theorem flushed17_of (c : Dev nD) (t : Fin cfg0.N) {E : Type} (S : Fin 100000 → Finset E) (w : E → EReal) (src : E → Fin 100000) (d2 : Fin 100000 → EReal)
    (X Hh : Fin 100000 → Fin 128 → EReal) (Wu Wr Wc : Fin 128 → Fin 128 → EReal) (bu br bc : Fin 128 → EReal)
    (Lu Lr Lc : Fin 256 → Fin 128 → EReal) (lub lrb lcb : Fin 128 → EReal)
    (r38 : ∀ (n : Fin 100000) (k : Fin 128), (V m c main_v38 : S100000x128.Idx → EReal) (ix2 n k) = Cert.Tgcn.aggr (S) (w) (src) (X) n k)
    (r0 : ∀ (n : Fin 100000) (k : Fin 128), (V m c main_arg0 : S100000x128.Idx → EReal) (ix2 n k) = X n k)
    (r2 : ∀ (n : Fin 100000) (k : Fin 128), (V m c main_arg2 : S100000x128.Idx → EReal) (ix2 n k) = Hh n k)
    (r40 : ∀ n : Fin 100000, (V m c main_v40 : S100000x1.Idx → EReal) (ix2 n (0 : Fin 1)) = d2 n)
    (r42u : ∀ (i j : Fin 128) (h : j.val + 0 < 384), (V m c main_v42 : S128x384.Idx → EReal) (ix2 i ⟨j.val + 0, h⟩) = Wu i j)
    (r42r : ∀ (i j : Fin 128) (h : j.val + 128 < 384), (V m c main_v42 : S128x384.Idx → EReal) (ix2 i ⟨j.val + 128, h⟩) = Wr i j)
    (r42c : ∀ (i j : Fin 128) (h : j.val + 256 < 384), (V m c main_v42 : S128x384.Idx → EReal) (ix2 i ⟨j.val + 256, h⟩) = Wc i j)
    (r43 : ∀ j : Fin 128, (V m c main_v43 : S1x128.Idx → EReal) (ix2 (0 : Fin 1) j) = bu j)
    (r44 : ∀ j : Fin 128, (V m c main_v44 : S1x128.Idx → EReal) (ix2 (0 : Fin 1) j) = br j)
    (r45 : ∀ j : Fin 128, (V m c main_v45 : S1x128.Idx → EReal) (ix2 (0 : Fin 1) j) = bc j)
    (r50 : ∀ k q : Fin 128, (V m c main_v50 : S128x128.Idx → EReal) (ix2 k q) = Cert.Tgcn.top (Lu) k q)
    (r52 : ∀ k q : Fin 128, (V m c main_v52 : S128x128.Idx → EReal) (ix2 k q) = Cert.Tgcn.bot (Lu) k q)
    (r46 : ∀ q : Fin 128, (V m c main_v46 : S1x128.Idx → EReal) (ix2 (0 : Fin 1) q) = lub q)
    (r54 : ∀ k q : Fin 128, (V m c main_v54 : S128x128.Idx → EReal) (ix2 k q) = Cert.Tgcn.top (Lr) k q)
    (r56 : ∀ k q : Fin 128, (V m c main_v56 : S128x128.Idx → EReal) (ix2 k q) = Cert.Tgcn.bot (Lr) k q)
    (r47 : ∀ q : Fin 128, (V m c main_v47 : S1x128.Idx → EReal) (ix2 (0 : Fin 1) q) = lrb q)
    (r58 : ∀ k q : Fin 128, (V m c main_v58 : S128x128.Idx → EReal) (ix2 k q) = Cert.Tgcn.top (Lc) k q)
    (r60 : ∀ k q : Fin 128, (V m c main_v60 : S128x128.Idx → EReal) (ix2 k q) = Cert.Tgcn.bot (Lc) k q)
    (r48 : ∀ q : Fin 128, (V m c main_v48 : S1x128.Idx → EReal) (ix2 (0 : Fin 1) q) = lcb q) :
    (dats m 0 c).flushed 17 t = ((cfg0.win 17).blk t).view.read (Elt Ideal)
      (fun i : S100000x128.Idx => Cert.Tgcn.outKer (Ideal.ofBits .f32 0x3F800000#32) S w src d2 X Hh Wu Wr Wc bu br bc Lu Lr Lc lub lrb lcb (i 0) (i 1)) := by
  refine (flushed17 m c t).trans ?_
  rw [out0_17_eq]
  rw [block_cell S w src d2 X Hh Wu Wr Wc bu br bc Lu Lr Lc lub lrb lcb (rowOf t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    (fun p k => (iblk0_apply m c t p k).trans (r38 (rowOf t p) k))
    (fun p k => (iblk1_apply m c t p k).trans (r0 (rowOf t p) k))
    (fun p k => (iblk2_apply m c t p k).trans (r2 (rowOf t p) k))
    (fun p => (iblk3_apply m c t p 0).trans (r40 (rowOf t p)))
    (fun i j => (iblk4_apply m c t i ⟨j.val + 0, by omega⟩).trans (r42u i j (by omega)))
    (fun i j => (iblk4_apply m c t i ⟨j.val + 128, by omega⟩).trans (r42r i j (by omega)))
    (fun i j => (iblk4_apply m c t i ⟨j.val + 256, by omega⟩).trans (r42c i j (by omega)))
    (fun j => (iblk5_apply m c t 0 j).trans (r43 j))
    (fun j => (iblk6_apply m c t 0 j).trans (r44 j))
    (fun j => (iblk7_apply m c t 0 j).trans (r45 j))
    (fun k q => (iblk8_apply m c t k q).trans (r50 k q))
    (fun k q => (iblk9_apply m c t k q).trans (r52 k q))
    (fun q => (iblk10_apply m c t 0 q).trans (r46 q))
    (fun k q => (iblk11_apply m c t k q).trans (r54 k q))
    (fun k q => (iblk12_apply m c t k q).trans (r56 k q))
    (fun q => (iblk13_apply m c t 0 q).trans (r47 q))
    (fun k q => (iblk14_apply m c t k q).trans (r58 k q))
    (fun k q => (iblk15_apply m c t k q).trans (r60 k q))
    (fun q => (iblk16_apply m c t 0 q).trans (r48 q))]
  funext j
  obtain ⟨p, k, rfl⟩ : ∃ (p : Fin 2000) (k : Fin 128), j = ix2 p k := ⟨j 0, j 1, eq_ix2 j⟩
  show Cert.Tgcn.outKer (Ideal.ofBits .f32 0x3F800000#32) S w src d2 X Hh Wu Wr Wc bu br bc Lu Lr Lc lub lrb lcb (rowOf t p) k
    = (fun i : S100000x128.Idx => Cert.Tgcn.outKer (Ideal.ofBits .f32 0x3F800000#32) S w src d2 X Hh Wu Wr Wc bu br bc Lu Lr Lc lub lrb lcb (i 0) (i 1)) (((cfg0.win 17).blk t).view.emb (ix2 p k))
  rw [emb17 t p k]

/-- The run, read: given, on every core, what the arrays the region finds hold entry by entry, the program runs, its
    result array ends at the cell of the whole arrays and its fifteen arguments end as launched. -/
theorem run_flushed {E : Type} (S : Dev nD → Fin 100000 → Finset E) (w : Dev nD → E → EReal) (src : Dev nD → E → Fin 100000) (d2 : Dev nD → Fin 100000 → EReal)
    (X Hh : Dev nD → Fin 100000 → Fin 128 → EReal) (Wu Wr Wc : Dev nD → Fin 128 → Fin 128 → EReal) (bu br bc : Dev nD → Fin 128 → EReal)
    (Lu Lr Lc : Dev nD → Fin 256 → Fin 128 → EReal) (lub lrb lcb : Dev nD → Fin 128 → EReal)
    (r38 : ∀ c : Dev nD, ∀ (n : Fin 100000) (k : Fin 128), (V m c main_v38 : S100000x128.Idx → EReal) (ix2 n k) = Cert.Tgcn.aggr (S c) (w c) (src c) (X c) n k)
    (r0 : ∀ c : Dev nD, ∀ (n : Fin 100000) (k : Fin 128), (V m c main_arg0 : S100000x128.Idx → EReal) (ix2 n k) = X c n k)
    (r2 : ∀ c : Dev nD, ∀ (n : Fin 100000) (k : Fin 128), (V m c main_arg2 : S100000x128.Idx → EReal) (ix2 n k) = Hh c n k)
    (r40 : ∀ c : Dev nD, ∀ n : Fin 100000, (V m c main_v40 : S100000x1.Idx → EReal) (ix2 n (0 : Fin 1)) = d2 c n)
    (r42u : ∀ c : Dev nD, ∀ (i j : Fin 128) (h : j.val + 0 < 384), (V m c main_v42 : S128x384.Idx → EReal) (ix2 i ⟨j.val + 0, h⟩) = Wu c i j)
    (r42r : ∀ c : Dev nD, ∀ (i j : Fin 128) (h : j.val + 128 < 384), (V m c main_v42 : S128x384.Idx → EReal) (ix2 i ⟨j.val + 128, h⟩) = Wr c i j)
    (r42c : ∀ c : Dev nD, ∀ (i j : Fin 128) (h : j.val + 256 < 384), (V m c main_v42 : S128x384.Idx → EReal) (ix2 i ⟨j.val + 256, h⟩) = Wc c i j)
    (r43 : ∀ c : Dev nD, ∀ j : Fin 128, (V m c main_v43 : S1x128.Idx → EReal) (ix2 (0 : Fin 1) j) = bu c j)
    (r44 : ∀ c : Dev nD, ∀ j : Fin 128, (V m c main_v44 : S1x128.Idx → EReal) (ix2 (0 : Fin 1) j) = br c j)
    (r45 : ∀ c : Dev nD, ∀ j : Fin 128, (V m c main_v45 : S1x128.Idx → EReal) (ix2 (0 : Fin 1) j) = bc c j)
    (r50 : ∀ c : Dev nD, ∀ k q : Fin 128, (V m c main_v50 : S128x128.Idx → EReal) (ix2 k q) = Cert.Tgcn.top (Lu c) k q)
    (r52 : ∀ c : Dev nD, ∀ k q : Fin 128, (V m c main_v52 : S128x128.Idx → EReal) (ix2 k q) = Cert.Tgcn.bot (Lu c) k q)
    (r46 : ∀ c : Dev nD, ∀ q : Fin 128, (V m c main_v46 : S1x128.Idx → EReal) (ix2 (0 : Fin 1) q) = lub c q)
    (r54 : ∀ c : Dev nD, ∀ k q : Fin 128, (V m c main_v54 : S128x128.Idx → EReal) (ix2 k q) = Cert.Tgcn.top (Lr c) k q)
    (r56 : ∀ c : Dev nD, ∀ k q : Fin 128, (V m c main_v56 : S128x128.Idx → EReal) (ix2 k q) = Cert.Tgcn.bot (Lr c) k q)
    (r47 : ∀ c : Dev nD, ∀ q : Fin 128, (V m c main_v47 : S1x128.Idx → EReal) (ix2 (0 : Fin 1) q) = lrb c q)
    (r58 : ∀ c : Dev nD, ∀ k q : Fin 128, (V m c main_v58 : S128x128.Idx → EReal) (ix2 k q) = Cert.Tgcn.top (Lc c) k q)
    (r60 : ∀ c : Dev nD, ∀ k q : Fin 128, (V m c main_v60 : S128x128.Idx → EReal) (ix2 k q) = Cert.Tgcn.bot (Lc c) k q)
    (r48 : ∀ c : Dev nD, ∀ q : Fin 128, (V m c main_v48 : S1x128.Idx → EReal) (ix2 (0 : Fin 1) q) = lcb c q) :
    θ_run defs (onTc (τ := τ) (main (F := Ideal))) ⟨m, fun _ => 0, ρ⟩ fun r => ∀ c : Dev nD,
      r.2.mem ((c.tc : Thread nD τ).loc main_v61) = (fun i : S100000x128.Idx => Cert.Tgcn.outKer (Ideal.ofBits .f32 0x3F800000#32) (S c) (w c) (src c) (d2 c) (X c) (Hh c) (Wu c) (Wr c) (Wc c) (bu c) (br c) (bc c) (Lu c) (Lr c) (Lc c) (lub c) (lrb c) (lcb c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  run_of m ρ (fun c (i : S100000x128.Idx) => Cert.Tgcn.outKer (Ideal.ofBits .f32 0x3F800000#32) (S c) (w c) (src c) (d2 c) (X c) (Hh c) (Wu c) (Wr c) (Wc c) (bu c) (br c) (bc c) (Lu c) (Lr c) (Lc c) (lub c) (lrb c) (lcb c) (i 0) (i 1))
    (fun c t => flushed17_of m c t (S c) (w c) (src c) (d2 c) (X c) (Hh c) (Wu c) (Wr c) (Wc c) (bu c) (br c) (bc c) (Lu c) (Lr c) (Lc c) (lub c) (lrb c) (lcb c) (r38 c) (r0 c) (r2 c) (r40 c) (r42u c) (r42r c) (r42c c) (r43 c) (r44 c) (r45 c) (r50 c) (r52 c) (r46 c) (r54 c) (r56 c) (r47 c) (r58 c) (r60 c) (r48 c))

end Cert.KernelIdeal.Hand

end
-- ==== Proof.KernelValue.lean ====
/-
  The kernel's run, with its result array named as one function of the arguments.

  On core `c` the result is the gated cell in the kernel's arrangement (features aggregated before the projections,
  each gate as two contractions with the halves of its matrix), taken of: the edges that land on each node, the edge
  weights and the self-loop weights made from the reciprocal roots of the degrees plus one, the rows the source words
  read, the features, the state, the three projection matrices with their biases and the three gate matrices with
  theirs. Every array the region finds reads, entry by entry, as the corresponding entry of these; so every grid point
  writes back its block of the cell, the blocks tile the result array, and the arguments end as launched.
-/
import proofs.«104820_j11836929868497_2_alg».proof.Proof.KernelHost
import proofs.«104820_j11836929868497_2_alg».proof.Proof.KernelHostAgg
import proofs.«104820_j11836929868497_2_alg».proof.Proof.KernelHostAggRead
import proofs.«104820_j11836929868497_2_alg».proof.Proof.KernelHostWall
import proofs.«104820_j11836929868497_2_alg».proof.Proof.KernelHostSmall
import proofs.«104820_j11836929868497_2_alg».proof.Proof.FrameIdealMain
import proofs.«104820_j11836929868497_2_alg».proof.Proof.KernelFlushed

set_option maxRecDepth 16384

noncomputable section

namespace Cert.Tgcn.KValue

open Cert.KernelIdeal Cert.KernelIdeal.Gen
open Cert.KernelIdeal.Hand (V dats flushed17_of run_of V_main_arg0 V_main_arg2)
open Idealize.ShloMosaic Idealize.ShloMosaic.TcCoe Idealize.SL.Sem Idealize.ShloMosaic.ValueIdx
open Cert.Lib.MeanGcn (inTo)
open Cert.Tgcn.Chain (edgeWV selfWV)
open Cert.Tgcn.KHost

variable (m : (ℓ : Loc nD τ sig) → Buf (Elt Ideal) ℓ) (ρ : Dev nD → PrngReg) (c : Dev nD)

/-! ## The arguments, entry by entry -/

/-- The features and the state. -/
def X (n : Fin 100000) (k : Fin 128) : EReal := A0 m c (ix2 n k)
def Hh (n : Fin 100000) (k : Fin 128) : EReal := A2 m c (ix2 n k)
/-- The three projection matrices and their biases. -/
def Wu (k j : Fin 128) : EReal := A3 m c (ix2 k j)
def Wr (k j : Fin 128) : EReal := A5 m c (ix2 k j)
def Wc (k j : Fin 128) : EReal := A7 m c (ix2 k j)
def bu (j : Fin 128) : EReal := A4 m c (ix1 j)
def br (j : Fin 128) : EReal := A6 m c (ix1 j)
def bc (j : Fin 128) : EReal := A8 m c (ix1 j)
/-- The three gate matrices and their biases. -/
def Lu (k : Fin 256) (j : Fin 128) : EReal := A9 m c (ix2 k j)
def Lr (k : Fin 256) (j : Fin 128) : EReal := A11 m c (ix2 k j)
def Lc (k : Fin 256) (j : Fin 128) : EReal := A13 m c (ix2 k j)
def lub (j : Fin 128) : EReal := A10 m c (ix1 j)
def lrb (j : Fin 128) : EReal := A12 m c (ix1 j)
def lcb (j : Fin 128) : EReal := A14 m c (ix1 j)

/-- The result array on core `c`: the cell, in the kernel's arrangement, of the arguments. -/
def G : S100000x128.Idx → EReal := fun i =>
  Cert.Tgcn.outKer (Ideal.ofBits .f32 0x3F800000#32) (inTo (dstW (A1 m c))) (edgeWV hN (srcW (A1 m c)) (dstW (A1 m c)))
      (Cert.Lib.MeanGcn.rowOf hN (srcW (A1 m c))) (selfWV (dstW (A1 m c)))
      (X m c) (Hh m c) (Wu m c) (Wr m c) (Wc m c) (bu m c) (br m c) (bc m c) (Lu m c) (Lr m c) (Lc m c) (lub m c) (lrb m c) (lcb m c) (i 0) (i 1)

/-! ## What the region finds, entry by entry, in the cell's own terms -/

theorem r0 (n : Fin 100000) (k : Fin 128) : (V m c main_arg0 : S100000x128.Idx → EReal) (ix2 n k) = X m c n k :=
  congrFun (V_main_arg0 m c) (ix2 n k)
theorem r2 (n : Fin 100000) (k : Fin 128) : (V m c main_arg2 : S100000x128.Idx → EReal) (ix2 n k) = Hh m c n k :=
  congrFun (V_main_arg2 m c) (ix2 n k)
theorem r38 (n : Fin 100000) (k : Fin 128) :
    (V m c main_v38 : S100000x128.Idx → EReal) (ix2 n k)
      = Cert.Tgcn.aggr (inTo (dstW (A1 m c))) (edgeWV hN (srcW (A1 m c)) (dstW (A1 m c))) (Cert.Lib.MeanGcn.rowOf hN (srcW (A1 m c))) (X m c) n k :=
  read_v38 m c n k
theorem r40 (n : Fin 100000) : (V m c main_v40 : S100000x1.Idx → EReal) (ix2 n (0 : Fin 1)) = selfWV (dstW (A1 m c)) n :=
  read_v40 m c n
theorem r42u (i j : Fin 128) (h : j.val + 0 < 384) :
    (V m c main_v42 : S128x384.Idx → EReal) (ix2 i ⟨j.val + 0, h⟩) = Wu m c i j := read_v42_0 m c i j h
theorem r42r (i j : Fin 128) (h : j.val + 128 < 384) :
    (V m c main_v42 : S128x384.Idx → EReal) (ix2 i ⟨j.val + 128, h⟩) = Wr m c i j := read_v42_128 m c i j h
theorem r42c (i j : Fin 128) (h : j.val + 256 < 384) :
    (V m c main_v42 : S128x384.Idx → EReal) (ix2 i ⟨j.val + 256, h⟩) = Wc m c i j := read_v42_256 m c i j h
theorem r43 (j : Fin 128) : (V m c main_v43 : S1x128.Idx → EReal) (ix2 (0 : Fin 1) j) = bu m c j := read_v43 m c j
theorem r44 (j : Fin 128) : (V m c main_v44 : S1x128.Idx → EReal) (ix2 (0 : Fin 1) j) = br m c j := read_v44 m c j
theorem r45 (j : Fin 128) : (V m c main_v45 : S1x128.Idx → EReal) (ix2 (0 : Fin 1) j) = bc m c j := read_v45 m c j
theorem r46 (j : Fin 128) : (V m c main_v46 : S1x128.Idx → EReal) (ix2 (0 : Fin 1) j) = lub m c j := read_v46 m c j
theorem r47 (j : Fin 128) : (V m c main_v47 : S1x128.Idx → EReal) (ix2 (0 : Fin 1) j) = lrb m c j := read_v47 m c j
theorem r48 (j : Fin 128) : (V m c main_v48 : S1x128.Idx → EReal) (ix2 (0 : Fin 1) j) = lcb m c j := read_v48 m c j
theorem r50 (k q : Fin 128) : (V m c main_v50 : S128x128.Idx → EReal) (ix2 k q) = Cert.Tgcn.top (Lu m c) k q :=
  read_v50 m c k q
theorem r52 (k q : Fin 128) : (V m c main_v52 : S128x128.Idx → EReal) (ix2 k q) = Cert.Tgcn.bot (Lu m c) k q :=
  read_v52 m c k q
theorem r54 (k q : Fin 128) : (V m c main_v54 : S128x128.Idx → EReal) (ix2 k q) = Cert.Tgcn.top (Lr m c) k q :=
  read_v54 m c k q
theorem r56 (k q : Fin 128) : (V m c main_v56 : S128x128.Idx → EReal) (ix2 k q) = Cert.Tgcn.bot (Lr m c) k q :=
  read_v56 m c k q
theorem r58 (k q : Fin 128) : (V m c main_v58 : S128x128.Idx → EReal) (ix2 k q) = Cert.Tgcn.top (Lc m c) k q :=
  read_v58 m c k q
theorem r60 (k q : Fin 128) : (V m c main_v60 : S128x128.Idx → EReal) (ix2 k q) = Cert.Tgcn.bot (Lc m c) k q :=
  read_v60 m c k q

/-! ## Every point writes back its block of the cell; the run -/

theorem flushed17_eq (t : Fin cfg0.N) :
    (dats m 0 c).flushed 17 t = ((cfg0.win 17).blk t).view.read (Elt Ideal) (G m c) :=
  flushed17_of m c t (inTo (dstW (A1 m c))) (edgeWV hN (srcW (A1 m c)) (dstW (A1 m c)))
      (Cert.Lib.MeanGcn.rowOf hN (srcW (A1 m c))) (selfWV (dstW (A1 m c)))
      (X m c) (Hh m c) (Wu m c) (Wr m c) (Wc m c) (bu m c) (br m c) (bc m c) (Lu m c) (Lr m c) (Lc m c) (lub m c) (lrb m c) (lcb m c)
    (r38 m c) (r0 m c) (r2 m c) (r40 m c) (r42u m c) (r42r m c) (r42c m c) (r43 m c) (r44 m c) (r45 m c)
    (r50 m c) (r52 m c) (r46 m c) (r54 m c) (r56 m c) (r47 m c) (r58 m c) (r60 m c) (r48 m c)

/-- The kernel runs; on every core its result array ends at the cell of the arguments and its arguments end as
    launched. -/
theorem run :
    θ_run (Cert.KernelIdeal.defs (F := Ideal)) (onTc (τ := τ) (Cert.KernelIdeal.main (F := Ideal))) ⟨m, fun _ => 0, ρ⟩
      fun r => ∀ c : Dev nD,
      r.2.mem ((c.tc : Thread nD τ).loc main_v61) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  run_of m ρ (G m) (fun c t => flushed17_eq m c t)

end Cert.Tgcn.KValue

end
-- ==== Proof.LibRowBroadcastInDim.lean ====
/-
  A one-row array spread over many rows by the host's broadcast along both axes, read at an index, over arbitrary
  extents: a `[1, b]` row broadcast to `[a, b]` reads, at `(e, c)`, the row at `(0, c)`. (The column form, an `[a, 1]`
  column broadcast to `[a, b]`, is in LibEdgeReads; the kernel's `vector.broadcast` of a row is the library's.)
-/
import Idealize.ShloMosaic.Lib.Pipeline.Value
import Idealize.ShloMosaic.Lib.ValueIdx

namespace Cert.Lib.RowBroadcastInDim

open Idealize.ShloMosaic Idealize.ShloMosaic.ValueIdx

variable {α : Type}

/-- A row broadcast down the rows: at `(e, c)` the row at `(0, c)`. -/
theorem row_broadcast_apply {a b : ℕ} (x : (⟨2, ![1, b]⟩ : Shape).Idx → α)
    (h : (⟨2, ![1, b]⟩ : Shape).BroadcastsInDim ⟨2, ![a, b]⟩ ![0, 1]) (e : Fin a) (c : Fin b) :
    broadcastInDim ⟨2, ![a, b]⟩ ![0, 1] h x (ix2 e c) = x (ix2 (0 : Fin 1) c) :=
  broadcastInDim_apply _ h x _ _ fun d => by
    match d with
    | ⟨0, _⟩ =>
      show (0 : ℕ) = if (1 : ℕ) = 1 then 0 else e.val
      rw [if_pos rfl]
    | ⟨1, _⟩ =>
      show c.val = if b = 1 then 0 else c.val
      split
      · have := c.isLt; omega
      · rfl

end Cert.Lib.RowBroadcastInDim
-- ==== Proof.RefConv.lean ====
/-
  THE STAGES OF THE REFERENCE'S GATED GRAPH-CONVOLUTION CELL, each as a function of its operands and each read at an
  index, at the ideal values.

  With `s`, `t` the source and target words of the edges and `dn` the normaliser of the nodes, one convolution of the
  projected features `h = X · W` with bias `b` is

    conv (n, j) = ((0 + Σ_{e : t e = n} (dn (row s e) · dn (row t e)) · h (row s e, j)) + (dn n · dn n) · h (n, j)) + b j ,

  a gate of two `[nodes, 128]` arrays `A`, `B` is the affine map of the concatenated row,

    gate (n, j) = (Σ_{k < 256} [A n | B n] k · L (k, j)) + lb j ,

  and the sigmoid is spelled `1 / (1 + exp (−y))`, which is the logistic function by definition. The projection is a
  plain matrix product: `h (n, j) = Σ_k X (n, k) · W (k, j)`.
-/
import proofs.«104820_j11836929868497_2_alg».proof.Proof.Gen.ReferenceIdeal.Run
import proofs.«104820_j11836929868497_2_alg».proof.Proof.TgcnSpec
import proofs.«104820_j11836929868497_2_alg».proof.Proof.TgcnChain
import proofs.«104820_j11836929868497_2_alg».proof.Proof.LibPlainDot
import proofs.«104820_j11836929868497_2_alg».proof.Proof.LibRowBroadcastInDim
import proofs.«104820_j11836929868497_2_alg».proof.Proof.LibEdgeReads
import proofs.«104820_j11836929868497_2_alg».proof.Proof.LibRowGatherDims
import proofs.«104820_j11836929868497_2_alg».proof.Proof.LibScatterDims
import proofs.«104820_j11836929868497_2_alg».proof.Proof.LibSageMean

noncomputable section

open scoped BigOperators

namespace Cert.Tgcn.Ref

open Idealize.ShloMosaic Idealize.ShloMosaic.ValueIdx Cert.ReferenceIdeal Cert.ReferenceIdeal.Gen
  Cert.Lib.HostIndex Cert.Lib.EdgeReads Cert.Lib.MeanAgg Cert.Lib.MeanGcn Cert.Tgcn.Chain Cert.Lib.RowBroadcastInDim

/-! ## The shape facts and the records -/

theorem hN : 0 < 100000 := by norm_num

/-- The layout facts of the edge chain, at the reference's extents. -/
theorem fxR : Facts 100000 1600000 128 where
  bS_R := bcast_S_S1600000
  bS_N := bcast_S_S100000
  bS_NC := bcast_S_S100000x128
  bR_R1 := bcast_S1600000_S1600000x1_0
  bR1_RC := bcast_S1600000x1_S1600000x128_0_1

abbrev sdVR : ScatterDims S100000 S1600000x1 S1600000 := scatter_S100000_S1600000x1_S1600000_n_0_0_1
abbrev gdVR : GatherDims S100000 S1600000x1 S1600000 := gather_S100000_S1600000x1_S1600000_n_0_n_n_0_1_1
abbrev gdMR : GatherDims S100000x128 S1600000x1 S1600000x128 := gather_S100000x128_S1600000x1_S1600000x128_1_0_n_n_0_1_1128
abbrev sdMR : ScatterDims S100000x128 S1600000x1 S1600000x128 := scatter_S100000x128_S1600000x1_S1600000x128_1_0_0_1
abbrev d128 : DotDims S100000x128 S128x128 S100000x128 := dot_S100000x128_S128x128_S100000x128_1_0_0_1_n_n
abbrev d256 : DotDims S100000x256 S256x128 S100000x128 := dot_S100000x256_S256x128_S100000x128_1_0_0_1_n_n

theorem hsV : ∃ wf, sdVR = vecScatterDims 100000 1600000 wf := eq_vecScatterDims _ rfl rfl rfl rfl
theorem hgV : ∃ wf, gdVR = vecGatherDims 100000 1600000 wf := eq_vecGatherDims _ rfl rfl rfl rfl rfl rfl rfl
theorem hgM : ∃ wf, gdMR = rowGatherDims 100000 1600000 128 wf := eq_rowGatherDims _ rfl rfl rfl rfl rfl rfl rfl
theorem hsM : ∃ wf, sdMR = rowScatterDims 100000 1600000 128 wf := eq_rowScatterDims _ rfl rfl rfl rfl
theorem d128_eq : d128 = DotDims.plain 100000 128 128 := rfl
theorem d256_eq : d256 = DotDims.plain 100000 256 128 := rfl

/-! ## Pointwise operations read at an index (over any shape) -/

section Pointwise

variable {sh : Shape} {φ : FTy}

theorem addf_at (x y : FVec Ideal sh φ) (i : sh.Idx) : addf x y i = x i + y i := rfl
theorem mulf_at (x y : FVec Ideal sh φ) (i : sh.Idx) : mulf x y i = x i * y i := rfl
theorem subf_at (x y : FVec Ideal sh φ) (i : sh.Idx) : subf x y i = x i - y i := rfl
theorem tanh_at (x : FVec Ideal sh φ) (i : sh.Idx) : Host.tanh x i = Ideal.tanh (x i) := rfl
/-- One over one plus the exponential of the negation, at an index. -/
theorem sig_at (o y : FVec Ideal sh φ) (i : sh.Idx) :
    Host.divf o (addf o (Host.exp (Host.negf y))) i = Ideal.div (o i) (o i + Ideal.exp (-(y i))) := rfl

end Pointwise

/-! ## The stages as functions of their operands, spelled as the program spells them -/

/-- One convolution, of the normaliser `dn`, the source and target words, the projected features and the bias. -/
def convP (dn : FVec Ideal S100000 .f32) (s t : IVec S1600000 32) (h : FVec Ideal S100000x128 .f32)
    (b : FVec Ideal S128 .f32) : FVec Ideal S100000x128 .f32 :=
  addf (addf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 t) (mulf (broadcastInDim S1600000x128 ![0, 1] bcast_S1600000x1_S1600000x128_0_1 (broadcastInDim S1600000x1 ![0] bcast_S1600000_S1600000x1_0 (mulf (Host.gather gather_S100000_S1600000x1_S1600000_n_0_n_n_0_1_1 dn (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s))) (Host.gather gather_S100000_S1600000x1_S1600000_n_0_n_n_0_1_1 dn (broadcastInDim S1600000x1 ![0] bcast_S1600000_S1600000x1_0 (select (cmpi .slt t (broadcastInDim S1600000 ![] bcast_S_S1600000 (constantI S_ 32 0#32))) (addi t (broadcastInDim S1600000 ![] bcast_S_S1600000 (constantI S_ 32 100000#32))) t)))))) (Host.gather gather_S100000x128_S1600000x1_S1600000x128_1_0_n_n_0_1_1128 h (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s))))) (mulf (broadcastInDim S100000x128 ![0, 1] bcast_S100000x1_S100000x128_0_1 (broadcastInDim S100000x1 ![0] bcast_S100000_S100000x1_0 (mulf dn dn))) h)) (broadcastInDim S100000x128 ![0, 1] bcast_S1x128_S100000x128_0_1 (broadcastInDim S1x128 ![1] bcast_S128_S1x128_1 b))

/-- The same convolution through the named operations of the edge chain, its normaliser the reciprocal root of the
    degree plus one. -/
theorem convP_chain (s t : IVec S1600000 32) (h : FVec Ideal S100000x128 .f32) (b : FVec Ideal S128 .f32) :
    convP (dnorm fxR sdVR t) s t h b
      = addf (addf (msgAgg fxR gdMR sdMR h s t (edgeW fxR sdVR gdVR s t))
            (mulf (broadcastInDim S100000x128 ![0, 1] bcast_S100000x1_S100000x128_0_1
              (broadcastInDim S100000x1 ![0] bcast_S100000_S100000x1_0 (selfW fxR sdVR t))) h))
          (broadcastInDim S100000x128 ![0, 1] bcast_S1x128_S100000x128_0_1
            (broadcastInDim S1x128 ![1] bcast_S128_S1x128_1 b)) := rfl

/-- A gate: the concatenated rows of `A` and `B` times `L`, plus the bias row. -/
def gateP (A B : FVec Ideal S100000x128 .f32) (L : FVec Ideal S256x128 .f32) (lb : FVec Ideal S128 .f32) :
    FVec Ideal S100000x128 .f32 :=
  addf (Host.dotGeneral dot_S100000x256_S256x128_S100000x128_1_0_0_1_n_n none (concatenate S100000x256 1 [⟨S100000x128, A⟩, ⟨S100000x128, B⟩] concatenates_S100000x128_S100000x128_S100000x256_d1) L) (broadcastInDim S100000x128 ![0, 1] bcast_S1x128_S100000x128_0_1 (broadcastInDim S1x128 ![1] bcast_S128_S1x128_1 lb))

/-- The sigmoid as the program spells it: one over one plus the exponential of the negation. -/
def sigP (y : FVec Ideal S100000x128 .f32) : FVec Ideal S100000x128 .f32 :=
  Host.divf (broadcastInDim S100000x128 ![] bcast_S_S100000x128 (constant S_ .f32 0x3F800000#32)) (addf (broadcastInDim S100000x128 ![] bcast_S_S100000x128 (constant S_ .f32 0x3F800000#32)) (Host.exp (Host.negf y)))

/-! ## The stages read at an index -/

/-- A vector made a one-row array: at `(u, c)` the vector at `c`. -/
theorem row_of_vector_apply {α : Type} {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) :=
  broadcastInDim_apply _ h x _ _ fun d => by
    match d with
    | ⟨0, _⟩ =>
      show c.val = if b = 1 then 0 else c.val
      split
      · have := c.isLt; omega
      · rfl

/-- A bias vector spread over the rows: at `(n, j)` the vector at `j`. -/
theorem bias_apply (b : FVec Ideal S128 .f32) (n : Fin 100000) (j : Fin 128) :
    broadcastInDim S100000x128 ![0, 1] bcast_S1x128_S100000x128_0_1
      (broadcastInDim S1x128 ![1] bcast_S128_S1x128_1 b) (ix2 n j) = b (ix1 j) := by
  rw [row_broadcast_apply, row_of_vector_apply]

/-- The projection at `(n, j)`. -/
theorem proj_apply (X : FVec Ideal S100000x128 .f32) (W : FVec Ideal S128x128 .f32) (n : Fin 100000) (j : Fin 128) :
    Host.dotGeneral d128 none X W (ix2 n j) = proj (fun n k => X (ix2 n k)) (fun k j => W (ix2 k j)) n j :=
  Cert.Lib.PlainDot.dotGeneral_apply 100000 128 128 none .single X W (ix2 n j)

/-- ONE CONVOLUTION AT `(n, j)`, its normaliser the reciprocal root of the degree plus one. -/
theorem convP_apply (s t : IVec S1600000 32) (h : FVec Ideal S100000x128 .f32) (b : FVec Ideal S128 .f32)
    (n : Fin 100000) (j : Fin 128) :
    convP (dnorm fxR sdVR t) s t h b (ix2 n j)
      = (aggr (inTo t) (edgeWV hN s t) (rowOf hN s) (fun n k => h (ix2 n k)) n j + selfWV t n * h (ix2 n j))
          + b (ix1 j) := by
  rw [convP_chain, addf_at, addf_at, mulf_at, msgAgg_apply fxR hN hgM hsM, column_broadcast_apply,
    column_of_vector_apply, selfW_apply fxR hsV, bias_apply]
  simp only [edgeW_apply fxR hN hsV hgV]
  unfold aggr
  rfl

/-- The convolution of a projection is the specification's. -/
theorem convP_proj_apply (s t : IVec S1600000 32) (X : FVec Ideal S100000x128 .f32) (W : FVec Ideal S128x128 .f32)
    (b : FVec Ideal S128 .f32) (n : Fin 100000) (j : Fin 128) :
    convP (dnorm fxR sdVR t) s t (Host.dotGeneral d128 none X W) b (ix2 n j)
      = convRef (inTo t) (edgeWV hN s t) (rowOf hN s) (selfWV t) (fun n k => X (ix2 n k)) (fun k j => W (ix2 k j))
          (fun j => b (ix1 j)) n j := by
  have hp : (fun n k => Host.dotGeneral d128 none X W (ix2 n k))
      = proj (fun n k => X (ix2 n k)) (fun k j => W (ix2 k j)) := funext fun n => funext fun k => proj_apply X W n k
  rw [convP_apply, proj_apply, hp]
  unfold convRef
  rfl

/-- Two `[nodes, 128]` arrays side by side, at `(n, k)`. -/
theorem concat_apply (A B : FVec Ideal S100000x128 .f32) (n : Fin 100000) (k : Fin 256) :
    concatenate S100000x256 1 [⟨S100000x128, A⟩, ⟨S100000x128, B⟩] concatenates_S100000x128_S100000x128_S100000x256_d1
        (ix2 n k)
      = cat (fun n k => A (ix2 n k)) (fun n k => B (ix2 n k)) n k := by
  unfold cat
  split
  · next hk =>
    exact concatenate_pair_apply_left (t := S100000x256) 1 A B concatenates_S100000x128_S100000x128_S100000x256_d1
      (ix2 n k) rfl (ix2 n ⟨k.val, hk⟩) fun bx => match bx with
      | ⟨0, _⟩ => rfl
      | ⟨1, _⟩ => rfl
  · next hk =>
    exact concatenate_pair_apply_right (t := S100000x256) 1 A B concatenates_S100000x128_S100000x128_S100000x256_d1
      (ix2 n k) rfl rfl (ix2 n ⟨k.val - 128, by omega⟩)
      (fun bx hb => match bx with
        | ⟨0, _⟩ => rfl
        | ⟨1, _⟩ => absurd rfl hb)
      (by show (k.val - 128) + 128 = k.val; omega)

/-- A `[nodes, 256]` array times a `[256, 128]` matrix, at `(n, j)`. -/
theorem dot256_apply (A : FVec Ideal S100000x256 .f32) (L : FVec Ideal S256x128 .f32) (n : Fin 100000) (j : Fin 128) :
    Host.dotGeneral dot_S100000x256_S256x128_S100000x128_1_0_0_1_n_n none A L (ix2 n j)
      = ∑ k : Fin 256, A (ix2 n k) * L (ix2 k j) :=
  Cert.Lib.PlainDot.dotGeneral_apply 100000 256 128 none .single A L (ix2 n j)

/-- A GATE AT `(n, j)`. -/
theorem gateP_apply (A B : FVec Ideal S100000x128 .f32) (L : FVec Ideal S256x128 .f32) (lb : FVec Ideal S128 .f32)
    (n : Fin 100000) (j : Fin 128) :
    gateP A B L lb (ix2 n j)
      = gateCat (fun k j => L (ix2 k j)) (fun j => lb (ix1 j)) (fun n k => A (ix2 n k)) (fun n k => B (ix2 n k)) n j := by
  unfold gateP gateCat
  rw [addf_at, dot256_apply, bias_apply]
  simp only [concat_apply]

/-- The spelled sigmoid is the logistic function. -/
theorem sigP_apply (y : FVec Ideal S100000x128 .f32) (i : S100000x128.Idx) : sigP y i = Ideal.logistic (y i) := by
  have ho : broadcastInDim S100000x128 ![] bcast_S_S100000x128 (constant (F := Ideal) S_ .f32 0x3F800000#32) i = 1 :=
    (scalar_bcast_apply _ _ _).trans ofBits_one_f32
  unfold sigP
  rw [sig_at, ho]
  rfl

end Cert.Tgcn.Ref

end
-- ==== Proof.RefValue.lean ====
/-
  THE REFERENCE PROGRAM'S RESULT, READ AT AN INDEX, IS THE GATED GRAPH-CONVOLUTION CELL OF THE SPECIFICATION.

  The program's result is the composition of its stages: three convolutions of the projected features sharing one
  normaliser and one pair of word vectors, two sigmoid gates and one hyperbolic-tangent gate on concatenated rows, and
  the convex mix `U ⊙ H + (1 − U) ⊙ C`. Each stage is read at an index by the lemmas of the stages' module; composed,
  they give the specification's cell with the edges into a node as the summation set, the product of the two end
  normalisers as an edge's weight and the squared normaliser as the weight of a node's own loop.
-/
import proofs.«104820_j11836929868497_2_alg».proof.Proof.RefConv

noncomputable section

open scoped BigOperators

namespace Cert.Tgcn.Ref

open Idealize.ShloMosaic Idealize.ShloMosaic.ValueIdx Idealize.ShloMosaic.TcCoe Idealize.SL.Sem Idealize.ShloMosaic.StableHlo
  Cert.ReferenceIdeal Cert.ReferenceIdeal.Gen Cert.ReferenceIdeal.Value
  Cert.Lib.HostIndex Cert.Lib.EdgeReads Cert.Lib.MeanAgg Cert.Lib.MeanGcn Cert.Tgcn.Chain

/-! ## The whole cell as a function of its operands -/

/-- The cell as the program composes it, of the normaliser, the words, the features, the state and the weights. -/
def cellP (dn : FVec Ideal S100000 .f32) (s t : IVec S1600000 32) (X H : FVec Ideal S100000x128 .f32)
    (Wu Wr Wc : FVec Ideal S128x128 .f32) (bu br bc : FVec Ideal S128 .f32) (Lu Lr Lc : FVec Ideal S256x128 .f32)
    (lub lrb lcb : FVec Ideal S128 .f32) : FVec Ideal S100000x128 .f32 :=
  addf (mulf (sigP (gateP (convP dn s t (Host.dotGeneral d128 none X Wu) bu) H Lu lub)) H)
    (mulf (subf (broadcastInDim S100000x128 ![] bcast_S_S100000x128 (constant S_ .f32 0x3F800000#32))
        (sigP (gateP (convP dn s t (Host.dotGeneral d128 none X Wu) bu) H Lu lub)))
      (Host.tanh (gateP (convP dn s t (Host.dotGeneral d128 none X Wc) bc)
        (mulf H (sigP (gateP (convP dn s t (Host.dotGeneral d128 none X Wr) br) H Lr lrb))) Lc lcb)))

/-- THE CELL AT `(n, j)` IS THE SPECIFICATION'S, its normaliser the reciprocal root of the degree plus one. -/
theorem cellP_apply (s t : IVec S1600000 32) (X H : FVec Ideal S100000x128 .f32)
    (Wu Wr Wc : FVec Ideal S128x128 .f32) (bu br bc : FVec Ideal S128 .f32) (Lu Lr Lc : FVec Ideal S256x128 .f32)
    (lub lrb lcb : FVec Ideal S128 .f32) (n : Fin 100000) (j : Fin 128) :
    cellP (dnorm fxR sdVR t) s t X H Wu Wr Wc bu br bc Lu Lr Lc lub lrb lcb (ix2 n j)
      = outRef (Ideal.ofBits .f32 0x3F800000#32) (inTo t) (edgeWV hN s t) (rowOf hN s) (selfWV t)
          (fun n k => X (ix2 n k)) (fun n k => H (ix2 n k))
          (fun k j => Wu (ix2 k j)) (fun k j => Wr (ix2 k j)) (fun k j => Wc (ix2 k j))
          (fun j => bu (ix1 j)) (fun j => br (ix1 j)) (fun j => bc (ix1 j))
          (fun k j => Lu (ix2 k j)) (fun k j => Lr (ix2 k j)) (fun k j => Lc (ix2 k j))
          (fun j => lub (ix1 j)) (fun j => lrb (ix1 j)) (fun j => lcb (ix1 j)) n j := by
  have hZ : ∀ (W : FVec Ideal S128x128 .f32) (b : FVec Ideal S128 .f32),
      (fun n k => convP (dnorm fxR sdVR t) s t (Host.dotGeneral d128 none X W) b (ix2 n k))
        = convRef (inTo t) (edgeWV hN s t) (rowOf hN s) (selfWV t) (fun n k => X (ix2 n k)) (fun k j => W (ix2 k j))
            (fun j => b (ix1 j)) :=
    fun W b => funext fun n => funext fun k => convP_proj_apply s t X W b n k
  have hR : (fun n k => mulf H (sigP (gateP (convP (dnorm fxR sdVR t) s t (Host.dotGeneral d128 none X Wr) br)
        H Lr lrb)) (ix2 n k))
      = fun n' j' => H (ix2 n' j') * Ideal.logistic (gateCat (fun k j => Lr (ix2 k j)) (fun j => lrb (ix1 j))
          (convRef (inTo t) (edgeWV hN s t) (rowOf hN s) (selfWV t) (fun n k => X (ix2 n k)) (fun k j => Wr (ix2 k j))
            (fun j => br (ix1 j)))
          (fun n k => H (ix2 n k)) n' j') :=
    funext fun n' => funext fun j' => by rw [mulf_at, sigP_apply, gateP_apply, hZ Wr br]
  have hone : broadcastInDim S100000x128 ![] bcast_S_S100000x128 (constant (F := Ideal) S_ .f32 0x3F800000#32) (ix2 n j)
      = Ideal.ofBits .f32 0x3F800000#32 := scalar_bcast_apply _ _ _
  unfold cellP outRef gru
  rw [addf_at, mulf_at, mulf_at, subf_at, tanh_at, sigP_apply, gateP_apply, gateP_apply, hZ Wu bu, hZ Wc bc, hR, hone]

/-! ## The program's composed term is the cell of its arguments -/

/-- The source words and the target words: the two rows of the edge list. -/
def srcW (a1 : IVec S2x1600000 32) : IVec S1600000 32 :=
  shapeCast S1600000 (extractStridedSlice S1x1600000 ![0, 0] a1 slices_S2x1600000_S1x1600000_0_0)
    shapeCasts_S1x1600000_S1600000
def dstW (a1 : IVec S2x1600000 32) : IVec S1600000 32 :=
  shapeCast S1600000 (extractStridedSlice S1x1600000 ![1, 0] a1 slices_S2x1600000_S1x1600000_1_0)
    shapeCasts_S1x1600000_S1600000

section Term

variable (V0 : Valuation τ sig (Elt Ideal))

theorem src_eq : res_main_v1 V0 = srcW (V0 (Proc.devRef .tc main_arg1)) := rfl
theorem dst_eq : res_main_v3 V0 = dstW (V0 (Proc.devRef .tc main_arg1)) := rfl

/-- The normaliser the program computes is the reciprocal root of the degree plus one. -/
theorem dn_eq : res_main_v10 V0 = dnorm fxR sdVR (res_main_v3 V0) := rfl

set_option maxRecDepth 8192 in
/-- The result's composed term is the cell of the arguments. -/
theorem term_eq_cellP :
    addf (mulf (res_main_v132 V0 : FVec Ideal S100000x128 .f32) (V0 (Proc.devRef .tc main_arg2) : FVec Ideal S100000x128 .f32)) (mulf (subf (broadcastInDim S100000x128 ![] bcast_S_S100000x128 (constant (F := Ideal) S_ .f32 0x3F800000#32)) (res_main_v132 V0 : FVec Ideal S100000x128 .f32)) (Host.tanh (addf (Host.dotGeneral (φ₁ := .f32) (φ₂ := .f32) dot_S100000x256_S256x128_S100000x128_1_0_0_1_n_n none (res_main_v145 V0 : FVec Ideal S100000x256 .f32) (V0 (Proc.devRef .tc main_arg13) : FVec Ideal S256x128 .f32)) (broadcastInDim S100000x128 ![0, 1] bcast_S1x128_S100000x128_0_1 (broadcastInDim S1x128 ![1] bcast_S128_S1x128_1 (V0 (Proc.devRef .tc main_arg14) : FVec Ideal S128 .f32))))))
      = cellP (res_main_v10 V0) (res_main_v1 V0) (res_main_v3 V0) (V0 (Proc.devRef .tc main_arg0)) (V0 (Proc.devRef .tc main_arg2))
          (V0 (Proc.devRef .tc main_arg3)) (V0 (Proc.devRef .tc main_arg5)) (V0 (Proc.devRef .tc main_arg7))
          (V0 (Proc.devRef .tc main_arg4)) (V0 (Proc.devRef .tc main_arg6)) (V0 (Proc.devRef .tc main_arg8))
          (V0 (Proc.devRef .tc main_arg9)) (V0 (Proc.devRef .tc main_arg11)) (V0 (Proc.devRef .tc main_arg13))
          (V0 (Proc.devRef .tc main_arg10)) (V0 (Proc.devRef .tc main_arg12)) (V0 (Proc.devRef .tc main_arg14)) := by
  unfold cellP res_main_v132 res_main_v145 sigP gateP convP res_main_v11 res_main_v48 res_main_v85
  rfl

/-- The specification's cell of the arguments: the edges into a node, the product of the end normalisers as an edge's
    weight, the squared normaliser as the weight of a node's own loop. -/
def specOf (a1 : IVec S2x1600000 32) (X H : FVec Ideal S100000x128 .f32)
    (Wu Wr Wc : FVec Ideal S128x128 .f32) (bu br bc : FVec Ideal S128 .f32) (Lu Lr Lc : FVec Ideal S256x128 .f32)
    (lub lrb lcb : FVec Ideal S128 .f32) : Fin 100000 → Fin 128 → EReal :=
  outRef (Ideal.ofBits .f32 0x3F800000#32) (inTo (dstW a1)) (edgeWV hN (srcW a1) (dstW a1)) (rowOf hN (srcW a1))
    (selfWV (dstW a1))
    (fun n k => X (ix2 n k)) (fun n k => H (ix2 n k))
    (fun k j => Wu (ix2 k j)) (fun k j => Wr (ix2 k j)) (fun k j => Wc (ix2 k j))
    (fun j => bu (ix1 j)) (fun j => br (ix1 j)) (fun j => bc (ix1 j))
    (fun k j => Lu (ix2 k j)) (fun k j => Lr (ix2 k j)) (fun k j => Lc (ix2 k j))
    (fun j => lub (ix1 j)) (fun j => lrb (ix1 j)) (fun j => lcb (ix1 j))

set_option maxRecDepth 8192 in
/-- THE REFERENCE'S RESULT AT `(n, j)` IS THE SPECIFICATION'S CELL. -/
theorem ref_apply (n : Fin 100000) (j : Fin 128) :
    (addf (mulf (res_main_v132 V0 : FVec Ideal S100000x128 .f32) (V0 (Proc.devRef .tc main_arg2) : FVec Ideal S100000x128 .f32)) (mulf (subf (broadcastInDim S100000x128 ![] bcast_S_S100000x128 (constant (F := Ideal) S_ .f32 0x3F800000#32)) (res_main_v132 V0 : FVec Ideal S100000x128 .f32)) (Host.tanh (addf (Host.dotGeneral (φ₁ := .f32) (φ₂ := .f32) dot_S100000x256_S256x128_S100000x128_1_0_0_1_n_n none (res_main_v145 V0 : FVec Ideal S100000x256 .f32) (V0 (Proc.devRef .tc main_arg13) : FVec Ideal S256x128 .f32)) (broadcastInDim S100000x128 ![0, 1] bcast_S1x128_S100000x128_0_1 (broadcastInDim S1x128 ![1] bcast_S128_S1x128_1 (V0 (Proc.devRef .tc main_arg14) : FVec Ideal S128 .f32))))))) (ix2 n j)
      = specOf (V0 (Proc.devRef .tc main_arg1)) (V0 (Proc.devRef .tc main_arg0)) (V0 (Proc.devRef .tc main_arg2)) (V0 (Proc.devRef .tc main_arg3)) (V0 (Proc.devRef .tc main_arg5)) (V0 (Proc.devRef .tc main_arg7)) (V0 (Proc.devRef .tc main_arg4)) (V0 (Proc.devRef .tc main_arg6)) (V0 (Proc.devRef .tc main_arg8))
          (V0 (Proc.devRef .tc main_arg9)) (V0 (Proc.devRef .tc main_arg11)) (V0 (Proc.devRef .tc main_arg13)) (V0 (Proc.devRef .tc main_arg10)) (V0 (Proc.devRef .tc main_arg12)) (V0 (Proc.devRef .tc main_arg14)) n j := by
  rw [term_eq_cellP V0, dn_eq V0, src_eq V0, dst_eq V0]
  exact cellP_apply _ _ _ _ _ _ _ _ _ _ _ _ _ _ _ _ n j

set_option maxRecDepth 8192 in
/-- The same at any index of the result. -/
theorem ref_apply_idx (i : S100000x128.Idx) :
    (addf (mulf (res_main_v132 V0 : FVec Ideal S100000x128 .f32) (V0 (Proc.devRef .tc main_arg2) : FVec Ideal S100000x128 .f32)) (mulf (subf (broadcastInDim S100000x128 ![] bcast_S_S100000x128 (constant (F := Ideal) S_ .f32 0x3F800000#32)) (res_main_v132 V0 : FVec Ideal S100000x128 .f32)) (Host.tanh (addf (Host.dotGeneral (φ₁ := .f32) (φ₂ := .f32) dot_S100000x256_S256x128_S100000x128_1_0_0_1_n_n none (res_main_v145 V0 : FVec Ideal S100000x256 .f32) (V0 (Proc.devRef .tc main_arg13) : FVec Ideal S256x128 .f32)) (broadcastInDim S100000x128 ![0, 1] bcast_S1x128_S100000x128_0_1 (broadcastInDim S1x128 ![1] bcast_S128_S1x128_1 (V0 (Proc.devRef .tc main_arg14) : FVec Ideal S128 .f32))))))) i
      = specOf (V0 (Proc.devRef .tc main_arg1)) (V0 (Proc.devRef .tc main_arg0)) (V0 (Proc.devRef .tc main_arg2)) (V0 (Proc.devRef .tc main_arg3)) (V0 (Proc.devRef .tc main_arg5)) (V0 (Proc.devRef .tc main_arg7)) (V0 (Proc.devRef .tc main_arg4)) (V0 (Proc.devRef .tc main_arg6)) (V0 (Proc.devRef .tc main_arg8))
          (V0 (Proc.devRef .tc main_arg9)) (V0 (Proc.devRef .tc main_arg11)) (V0 (Proc.devRef .tc main_arg13)) (V0 (Proc.devRef .tc main_arg10)) (V0 (Proc.devRef .tc main_arg12)) (V0 (Proc.devRef .tc main_arg14)) (i 0) (i 1) := by
  obtain ⟨n, f, rfl⟩ : ∃ (n : Fin 100000) (f : Fin 128), i = ix2 n f := ⟨i 0, i 1, eq_ix2 i⟩
  exact ref_apply V0 n f

end Term

/-! ## The run, with the specification's cell as the result -/

set_option maxRecDepth 8192 in
/-- On every device, from any memory with zero counters: every weakly fair execution of the reference terminates with
    the result buffer holding the specification's cell of the launch contents of the arguments, and the arguments
    unchanged. -/
theorem run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v155)
        = (fun i : S100000x128.Idx =>
            outRef (Ideal.ofBits .f32 0x3F800000#32) (inTo (dstW (m' ((c.tc : Thread nD τ).loc main_arg1) : IVec S2x1600000 32)))
              (edgeWV hN (srcW (m' ((c.tc : Thread nD τ).loc main_arg1) : IVec S2x1600000 32)) (dstW (m' ((c.tc : Thread nD τ).loc main_arg1) : IVec S2x1600000 32)))
              (rowOf hN (srcW (m' ((c.tc : Thread nD τ).loc main_arg1) : IVec S2x1600000 32))) (selfWV (dstW (m' ((c.tc : Thread nD τ).loc main_arg1) : IVec S2x1600000 32)))
          (fun n k => (m' ((c.tc : Thread nD τ).loc main_arg0) : FVec Ideal S100000x128 .f32) (ix2 n k)) (fun n k => (m' ((c.tc : Thread nD τ).loc main_arg2) : FVec Ideal S100000x128 .f32) (ix2 n k))
          (fun k j => (m' ((c.tc : Thread nD τ).loc main_arg3) : FVec Ideal S128x128 .f32) (ix2 k j)) (fun k j => (m' ((c.tc : Thread nD τ).loc main_arg5) : FVec Ideal S128x128 .f32) (ix2 k j)) (fun k j => (m' ((c.tc : Thread nD τ).loc main_arg7) : FVec Ideal S128x128 .f32) (ix2 k j))
          (fun j => (m' ((c.tc : Thread nD τ).loc main_arg4) : FVec Ideal S128 .f32) (ix1 j)) (fun j => (m' ((c.tc : Thread nD τ).loc main_arg6) : FVec Ideal S128 .f32) (ix1 j)) (fun j => (m' ((c.tc : Thread nD τ).loc main_arg8) : FVec Ideal S128 .f32) (ix1 j))
          (fun k j => (m' ((c.tc : Thread nD τ).loc main_arg9) : FVec Ideal S256x128 .f32) (ix2 k j)) (fun k j => (m' ((c.tc : Thread nD τ).loc main_arg11) : FVec Ideal S256x128 .f32) (ix2 k j)) (fun k j => (m' ((c.tc : Thread nD τ).loc main_arg13) : FVec Ideal S256x128 .f32) (ix2 k j))
          (fun j => (m' ((c.tc : Thread nD τ).loc main_arg10) : FVec Ideal S128 .f32) (ix1 j)) (fun j => (m' ((c.tc : Thread nD τ).loc main_arg12) : FVec Ideal S128 .f32) (ix1 j)) (fun j => (m' ((c.tc : Thread nD τ).loc main_arg14) : FVec Ideal S128 .f32) (ix1 j)) (i 0) (i 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14) :=
  (θ_run defs _ _).mono (fun _ h c => ⟨(h c).1.trans (funext fun i => ref_apply_idx (launchContents m' c) i), (h c).2⟩) (Cert.ReferenceIdeal.Value.run m' ρ')

end Cert.Tgcn.Ref

end
-- ==== Proof.FiniteArray.lean ====
/-
  An array all of whose entries have absolute value below +∞ is an array of real numbers.

  The printed test of one float array is: take absolute values, compare each with the f32 word 0x7F800000
  (which denotes +∞) by "less than", and reduce the resulting one-bit words by `and` from 1 over every axis. On the
  extended reals, |x| = max x (-x), and max x (-x) < ⊤ fails at both infinities, so a result of 1 leaves only reals.
-/
import Idealize.ShloMosaic.Lib.ReduceAll
import Idealize.ShloMosaic.Lib.ValueIdx
import Idealize.ShloMosaic.PureOps.Ideal

namespace Cert.Tgcn.Finite

open Idealize.ShloMosaic

/-- The f32 word 0x7F800000 denotes +∞. -/
theorem inf_word : (FloatOps.ofBits (F := Ideal) .f32 0x7F800000#32 : Ideal .f32) = (⊤ : EReal) := by
  rw [Ideal.ofBits_def]
  simp [Ideal.ofBits, Ideal.ieee]

/-- An extended real whose absolute value is below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The one-bit word of the comparison "|x| below the word 0x7F800000" being 1 says x is real. -/
theorem real_of_word (x : Ideal .f32)
    (h : FloatOps.cmpf .olt (FloatOps.hostAbsf x) (FloatOps.ofBits (F := Ideal) .f32 0x7F800000#32) = 1#1) :
    ∃ r : ℝ, x = (r : EReal) := by
  rw [inf_word] at h
  apply real_of_abs_lt_top
  change BitVec.ofBool (decide (max x (-x) < (⊤ : EReal))) = 1#1 at h
  by_contra hn
  rw [decide_eq_false hn] at h
  exact absurd h (by decide)

/-- The printed test of one array, read back: if the reduction by `and` of the words "|x i| below +∞" into a result
    of one index is 1, every entry of x is a real number. -/
theorem all_real {S T : Shape} [Subsingleton T.Idx] {axes : List (Fin S.rank)} {dims : Fin T.rank → Fin S.rank}
    (hb : T.BroadcastsInDim S dims) (hr : S.ReducesTo axes T) (hu : 0 < T.numel) (x : FVec Ideal S .f32) (j : T.Idx)
    (h : Host.reduce IntOp.andi
          (cmpf .olt (Host.absf x) (broadcastInDim S dims hb (constant (F := Ideal) T .f32 0x7F800000#32)))
          (constantI T 1 1#1) hr hu j = 1#1) :
    ∀ i, ∃ r : ℝ, x i = (r : EReal) := fun i =>
  real_of_word (x i) (Host.reduce_andi_all _ _ hr hu j h i)

end Cert.Tgcn.Finite
-- ==== Proof.FiniteInputs.lean ====
/-
  From the precondition to "every entry is a real number".

  The printed predicate is the conjunction, as `and` of one-bit words, of fourteen tests, one per float array: the
  reduction by `and` over every axis of the words "|entry| below +∞". If the predicate is 1, each of the fourteen
  tests is 1 (a conjunction of one-bit words is 1 only if both are), and a test that is 1 says that every entry of
  its array is a real number (the general statement about one array is `all_real`).
-/
import proofs.«104820_j11836929868497_2_alg».proof.Pre_finite_inputs
import proofs.«104820_j11836929868497_2_alg».proof.Proof.FiniteArray

namespace Cert.Tgcn.Finite

open Idealize.ShloMosaic Cert.Pre_finite_inputs

/-- The shape of rank zero has one index. -/
instance subsingleton_scalar_idx : Subsingleton S_.Idx := ⟨fun a b => funext fun d => d.elim0⟩

variable [Cert.Pre_finite_inputs.Facts]

/-- The predicate being 1 makes each of the fourteen float arrays an array of real numbers. -/
theorem real_all_of_pre (a0 : FVec Ideal S100000x128 .f32) (a1 : IVec S2x1600000 32) (a2 : FVec Ideal S100000x128 .f32) (a3 : FVec Ideal S128x128 .f32) (a4 : FVec Ideal S128 .f32) (a5 : FVec Ideal S128x128 .f32) (a6 : FVec Ideal S128 .f32) (a7 : FVec Ideal S128x128 .f32) (a8 : FVec Ideal S128 .f32) (a9 : FVec Ideal S256x128 .f32) (a10 : FVec Ideal S128 .f32) (a11 : FVec Ideal S256x128 .f32) (a12 : FVec Ideal S128 .f32) (a13 : FVec Ideal S256x128 .f32) (a14 : FVec Ideal S128 .f32)
    (h : Cert.Pre_finite_inputs.fn (F := Ideal) a0 a1 a2 a3 a4 a5 a6 a7 a8 a9 a10 a11 a12 a13 a14 = fun _ => 1#1) :
    (∀ i, ∃ r : ℝ, a0 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) ∧
    (∀ i, ∃ r : ℝ, a11 i = (r : EReal)) ∧
    (∀ i, ∃ r : ℝ, a12 i = (r : EReal)) ∧
    (∀ i, ∃ r : ℝ, a13 i = (r : EReal)) ∧
    (∀ i, ∃ r : ℝ, a14 i = (r : EReal)) := by
  have e := congrFun h ValueIdx.ix0
  dsimp only [fn, fn_part1, fn_part2, fn_part3, fn_part4] at e
  obtain ⟨e, h14⟩ := IntOp.andi_eq_one.1 e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  exact ⟨all_real Facts.bcast_S_S100000x128 Facts.reducesTo_S100000x128_S_d0_1 Facts.h_S_ a0 ValueIdx.ix0 h0,
    all_real Facts.bcast_S_S100000x128 Facts.reducesTo_S100000x128_S_d0_1 Facts.h_S_ a2 ValueIdx.ix0 h2,
    all_real Facts.bcast_S_S128x128 Facts.reducesTo_S128x128_S_d0_1 Facts.h_S_ a3 ValueIdx.ix0 h3,
    all_real Facts.bcast_S_S128 Facts.reducesTo_S128_S_d0 Facts.h_S_ a4 ValueIdx.ix0 h4,
    all_real Facts.bcast_S_S128x128 Facts.reducesTo_S128x128_S_d0_1 Facts.h_S_ a5 ValueIdx.ix0 h5,
    all_real Facts.bcast_S_S128 Facts.reducesTo_S128_S_d0 Facts.h_S_ a6 ValueIdx.ix0 h6,
    all_real Facts.bcast_S_S128x128 Facts.reducesTo_S128x128_S_d0_1 Facts.h_S_ a7 ValueIdx.ix0 h7,
    all_real Facts.bcast_S_S128 Facts.reducesTo_S128_S_d0 Facts.h_S_ a8 ValueIdx.ix0 h8,
    all_real Facts.bcast_S_S256x128 Facts.reducesTo_S256x128_S_d0_1 Facts.h_S_ a9 ValueIdx.ix0 h9,
    all_real Facts.bcast_S_S128 Facts.reducesTo_S128_S_d0 Facts.h_S_ a10 ValueIdx.ix0 h10,
    all_real Facts.bcast_S_S256x128 Facts.reducesTo_S256x128_S_d0_1 Facts.h_S_ a11 ValueIdx.ix0 h11,
    all_real Facts.bcast_S_S128 Facts.reducesTo_S128_S_d0 Facts.h_S_ a12 ValueIdx.ix0 h12,
    all_real Facts.bcast_S_S256x128 Facts.reducesTo_S256x128_S_d0_1 Facts.h_S_ a13 ValueIdx.ix0 h13,
    all_real Facts.bcast_S_S128 Facts.reducesTo_S128_S_d0 Facts.h_S_ a14 ValueIdx.ix0 h14⟩

/-- The four arrays the algebraic law reads as reals: the node features and the three square weight matrices. -/
theorem real_of_pre (a0 : FVec Ideal S100000x128 .f32) (a1 : IVec S2x1600000 32) (a2 : FVec Ideal S100000x128 .f32) (a3 : FVec Ideal S128x128 .f32) (a4 : FVec Ideal S128 .f32) (a5 : FVec Ideal S128x128 .f32) (a6 : FVec Ideal S128 .f32) (a7 : FVec Ideal S128x128 .f32) (a8 : FVec Ideal S128 .f32) (a9 : FVec Ideal S256x128 .f32) (a10 : FVec Ideal S128 .f32) (a11 : FVec Ideal S256x128 .f32) (a12 : FVec Ideal S128 .f32) (a13 : FVec Ideal S256x128 .f32) (a14 : FVec Ideal S128 .f32)
    (h : Cert.Pre_finite_inputs.fn (F := Ideal) a0 a1 a2 a3 a4 a5 a6 a7 a8 a9 a10 a11 a12 a13 a14 = fun _ => 1#1) :
    (∀ i, ∃ r : ℝ, a0 i = (r : EReal)) ∧ (∀ i, ∃ r : ℝ, a3 i = (r : EReal)) ∧
    (∀ i, ∃ r : ℝ, a5 i = (r : EReal)) ∧ (∀ i, ∃ r : ℝ, a7 i = (r : EReal)) := by
  obtain ⟨r0, -, r3, -, r5, -, r7, -⟩ := real_all_of_pre a0 a1 a2 a3 a4 a5 a6 a7 a8 a9 a10 a11 a12 a13 a14 h
  exact ⟨r0, r3, r5, r7⟩

end Cert.Tgcn.Finite
-- ==== Proof.Algebraic.lean ====
/-
  The two idealized programs end with equal results.

  From memories that agree on the arguments, the kernel's result array on a core is the gated graph-convolution cell in
  the arrangement that aggregates the features before projecting them, and the reference's is the same cell in the
  arrangement that projects first and aggregates each projection; both are taken of the same graph data (the edges
  landing on each node, the rows the source words read, the edge weights and the self-loop weights from the reciprocal
  roots of the degrees plus one) and of the same matrices and vectors. The two arrangements agree because the features
  and the three projection matrices hold real numbers, by the precondition, and the edge weights and self-loop weights
  are reals whatever the edge list holds: a finite sum then commutes with the contraction and the product distributes
  over it.
-/
import proofs.«104820_j11836929868497_2_alg».proof.Defs
import proofs.«104820_j11836929868497_2_alg».proof.Proof.KernelValue
import proofs.«104820_j11836929868497_2_alg».proof.Proof.RefValue
import proofs.«104820_j11836929868497_2_alg».proof.Proof.FiniteInputs
import proofs.«104820_j11836929868497_2_alg».proof.Proof.Gen.KernelIdeal
import proofs.«104820_j11836929868497_2_alg».proof.Proof.Gen.ReferenceIdeal
import proofs.«104820_j11836929868497_2_alg».proof.Proof.Gen.Pre_finite_inputs

noncomputable section

namespace Cert.Proof.TgcnClaims

open Idealize.ShloMosaic Idealize.ShloMosaic.TcCoe Idealize.SL.Sem Idealize.ShloMosaic.ValueIdx
open Cert.Lib.MeanGcn Cert.Tgcn.Chain

/-- Both programs cut the source words and the target words out of the edge list by the same two operations. -/
theorem srcW_eq (a1 : IVec Cert.KernelIdeal.S2x1600000 32) : Cert.Tgcn.Ref.srcW a1 = Cert.Tgcn.KHost.srcW a1 := by
  unfold Cert.Tgcn.Ref.srcW Cert.Tgcn.KHost.srcW; rfl
theorem dstW_eq (a1 : IVec Cert.KernelIdeal.S2x1600000 32) : Cert.Tgcn.Ref.dstW a1 = Cert.Tgcn.KHost.dstW a1 := by
  unfold Cert.Tgcn.Ref.dstW Cert.Tgcn.KHost.dstW; rfl

/-- The kernel's cell and the reference's cell of the same arguments are one array. -/
theorem algebraic : Cert.algebraic_KernelIdeal_ReferenceIdeal := by
  intro m ρ m' ρ' hpre hagree
  refine ⟨fun c => Cert.Tgcn.KValue.G m c, Cert.Tgcn.KValue.run m ρ, ?_⟩
  refine (θ_run (Cert.ReferenceIdeal.defs (F := Ideal)) _ _).mono (fun r h c => ⟨(h c).1.trans ?_, (h c).2⟩)
    (Cert.Tgcn.Ref.run m' ρ')
  obtain ⟨e0, e1, e2, e3, e4, e5, e6, e7, e8, e9, e10, e11, e12, e13, e14⟩ := hagree c
  obtain ⟨hX, hWu, hWr, hWc⟩ := Cert.Tgcn.Finite.real_of_pre _ _ _ _ _ _ _ _ _ _ _ _ _ _ _ (hpre c)
  rw [e0, e1, e2, e3, e4, e5, e6, e7, e8, e9, e10, e11, e12, e13, e14, srcW_eq, dstW_eq]
  unfold Cert.Tgcn.KValue.G
  funext i
  exact (congrFun (congrFun (Cert.Tgcn.out_eq (Ideal.ofBits .f32 0x3F800000#32)
    (inTo (Cert.Tgcn.KHost.dstW (Cert.Tgcn.KHost.A1 m c)))
    (edgeWV Cert.Tgcn.KHost.hN (Cert.Tgcn.KHost.srcW (Cert.Tgcn.KHost.A1 m c)) (Cert.Tgcn.KHost.dstW (Cert.Tgcn.KHost.A1 m c)))
    (rowOf Cert.Tgcn.KHost.hN (Cert.Tgcn.KHost.srcW (Cert.Tgcn.KHost.A1 m c)))
    (selfWV (Cert.Tgcn.KHost.dstW (Cert.Tgcn.KHost.A1 m c)))
    (Cert.Tgcn.KValue.X m c) (Cert.Tgcn.KValue.Hh m c) (Cert.Tgcn.KValue.Wu m c) (Cert.Tgcn.KValue.Wr m c)
    (Cert.Tgcn.KValue.Wc m c) (Cert.Tgcn.KValue.bu m c) (Cert.Tgcn.KValue.br m c) (Cert.Tgcn.KValue.bc m c)
    (Cert.Tgcn.KValue.Lu m c) (Cert.Tgcn.KValue.Lr m c) (Cert.Tgcn.KValue.Lc m c) (Cert.Tgcn.KValue.lub m c)
    (Cert.Tgcn.KValue.lrb m c) (Cert.Tgcn.KValue.lcb m c)
    (fun n k => hX (ix2 n k)) (fun k j => hWu (ix2 k j)) (fun k j => hWr (ix2 k j)) (fun k j => hWc (ix2 k j))
    (fun e => edgeWV_real _ _ _ e) (fun n => selfWV_real _ n)) (i 0)) (i 1)).symm

end Cert.Proof.TgcnClaims

end
-- ==== Proof.lean ====
/-
  The certificate's claim: the printed kernel program and its idealization each run to the end with nothing
  faulting and their argument arrays unchanged, the reference does the same, and from memories that agree on the
  arguments the idealized kernel and the idealized reference end with equal result arrays as extended reals.

  The kernel is one launch over fifty blocks of 2000 rows after seventy-one host operations; its two frames are the
  launch theorem applied to the body's run on whole staging buffers. The reference's frame is its run with the result
  dropped. The idealization rewrote no operation. The equality of the results is the agreement of the two arrangements
  of a gated graph-convolution cell on real features and real projection weights.
-/
import proofs.«104820_j11836929868497_2_alg».proof.Defs
import proofs.«104820_j11836929868497_2_alg».proof.Proof.Gen.Kernel
import proofs.«104820_j11836929868497_2_alg».proof.Proof.Gen.KernelIdeal
import proofs.«104820_j11836929868497_2_alg».proof.Proof.Gen.ReferenceIdeal
import proofs.«104820_j11836929868497_2_alg».proof.Proof.Gen.ReferenceIdeal.Run
import proofs.«104820_j11836929868497_2_alg».proof.Proof.Gen.Pre_finite_inputs
import proofs.«104820_j11836929868497_2_alg».proof.Proof.FrameBits
import proofs.«104820_j11836929868497_2_alg».proof.Proof.FrameIdeal
import proofs.«104820_j11836929868497_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => (θ_run (Cert.ReferenceIdeal.defs (F := Ideal)) _ _).mono (fun _ h c => (h c).2)
      (Cert.ReferenceIdeal.Value.run (F := Ideal) m ρ),
    trivial,
    TgcnClaims.algebraic⟩

end Cert.Proof

end
